-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128x256 .f32) (main_arg20 : FVec F S128 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg19
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S1 .f32) (main_arg15 : FVec F S1x256 .f32) (main_arg16 : FVec F S1 .f32) (main_arg17 : FVec F S128x256 .f32) (main_arg18 : FVec F S128 .f32) (main_arg19 : FVec F S128x256 .f32) (main_arg20 : FVec F S128 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1x256 .f32 := Host.absf main_arg15
  let main_cst_28 : FVec F S_ .f32 := constant S_ .f32 0x7F800000#32
  let main_v75 : FVec F S1x256 .f32 := broadcastInDim S1x256 ![] bcast_S_S1x256 main_cst_28
  let main_v76 : IVec S1x256 1 := cmpf .olt main_v74 main_v75
  let main_c_29 : IVec S_ 1 := constantI S_ 1 1#1
  let main_v77 : IVec S_ 1 := (fun x v => Host.reduce IntOp.andi x v reducesTo_S1x256_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S768 .f32) (main_arg12 : FVec F S768 .f32) (main_arg13 : FVec F S1x256 .f32) (main_arg14 : FVec F S1 .f32) (main_arg15 : FVec F S1x256 .f32) (main_arg16 : FVec F S1 .f32) (main_arg17 : FVec F S128x256 .f32) (main_arg18 : FVec F S128 .f32) (main_arg19 : FVec F S128x256 .f32) (main_arg20 : FVec F S128 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_v64 : FVec F S1x256 .f32 := Host.absf main_arg13
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S768 .f32) (main_arg8 : FVec F S768 .f32) (main_arg9 : FVec F S768x128 .f32) (main_arg10 : FVec F S768x256 .f32) (main_arg11 : FVec F S768 .f32) (main_arg12 : FVec F S768 .f32) (main_arg13 : FVec F S1x256 .f32) (main_arg14 : FVec F S1 .f32) (main_arg15 : FVec F S1x256 .f32) (main_arg16 : FVec F S1 .f32) (main_arg17 : FVec F S128x256 .f32) (main_arg18 : FVec F S128 .f32) (main_arg19 : FVec F S128x256 .f32) (main_arg20 : FVec F S128 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x128 .f32 := Host.absf main_arg9
  let main_cst_16 : FVec F S_ .f32 := constant S_ .f32 0x7F800000#32
  let main_v45 : FVec F S768x128 .f32 := broadcastInDim S768x128 ![] bcast_S_S768x128 main_cst_16
  let main_v46 : IVec S768x128 1 := cmpf .olt main_v44 main_v45
  let main_c_17 : IVec S_ 1 := constantI S_ 1 1#1
  let main_v47 : IVec S_ 1 := (fun x v => Host.reduce IntOp.andi x v reducesTo_S768x128_S_d0_1 h_S_) main_v46 main_c_17
  let main_v48 : IVec S_ 1 := andi main_v43 main_v47
  let main_v49 : FVec F S768x256 .f32 := Host.absf main_arg10
  let main_cst_18 : FVec F S_ .f32 := constant S_ .f32 0x7F800000#32
  let main_v50 : FVec F S768x256 .f32 := broadcastInDim S768x256 ![] bcast_S_S768x256 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S100000x128 .f32) (main_arg5 : FVec F S768x128 .f32) (main_arg6 : FVec F S768x256 .f32) (main_arg7 : FVec F S768 .f32) (main_arg8 : FVec F S768 .f32) (main_arg9 : FVec F S768x128 .f32) (main_arg10 : FVec F S768x256 .f32) (main_arg11 : FVec F S768 .f32) (main_arg12 : FVec F S768 .f32) (main_arg13 : FVec F S1x256 .f32) (main_arg14 : FVec F S1 .f32) (main_arg15 : FVec F S1x256 .f32) (main_arg16 : FVec F S1 .f32) (main_arg17 : FVec F S128x256 .f32) (main_arg18 : FVec F S128 .f32) (main_arg19 : FVec F S128x256 .f32) (main_arg20 : FVec F S128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S768x128 .f32 := Host.absf main_arg5
  let main_cst_8 : FVec F S_ .f32 := constant S_ .f32 0x7F800000#32
  let main_v25 : FVec F S768x128 .f32 := broadcastInDim S768x128 ![] bcast_S_S768x128 main_cst_8
  let main_v26 : IVec S768x128 1 := cmpf .olt main_v24 main_v25
  let main_c_9 : IVec S_ 1 := constantI S_ 1 1#1
  let main_v27 : IVec S_ 1 := (fun x v => Host.reduce IntOp.andi x v reducesTo_S768x128_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S100000x128 .f32) (main_arg5 : FVec F S768x128 .f32) (main_arg6 : FVec F S768x256 .f32) (main_arg7 : FVec F S768 .f32) (main_arg8 : FVec F S768 .f32) (main_arg9 : FVec F S768x128 .f32) (main_arg10 : FVec F S768x256 .f32) (main_arg11 : FVec F S768 .f32) (main_arg12 : FVec F S768 .f32) (main_arg13 : FVec F S1x256 .f32) (main_arg14 : FVec F S1 .f32) (main_arg15 : FVec F S1x256 .f32) (main_arg16 : FVec F S1 .f32) (main_arg17 : FVec F S128x256 .f32) (main_arg18 : FVec F S128 .f32) (main_arg19 : FVec F S128x256 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S128x256 : Shape := ⟨2, ![128, 256]⟩
abbrev S128 : Shape := ⟨1, ![128]⟩
abbrev S128x768 : Shape := ⟨2, ![128, 768]⟩
abbrev S256x768 : Shape := ⟨2, ![256, 768]⟩
abbrev S128x512 : Shape := ⟨2, ![128, 512]⟩
abbrev S256x512 : Shape := ⟨2, ![256, 512]⟩
abbrev S384x512 : Shape := ⟨2, ![384, 512]⟩
abbrev S_ : Shape := ⟨0, ![]⟩
abbrev S512 : Shape := ⟨1, ![512]⟩
abbrev S1x512 : Shape := ⟨2, ![1, 512]⟩
abbrev S256 : Shape := ⟨1, ![256]⟩
abbrev S256x256 : Shape := ⟨2, ![256, 256]⟩
abbrev S1x128 : Shape := ⟨2, ![1, 128]⟩
abbrev S2 : Shape := ⟨1, ![2]⟩
abbrev S1x2 : Shape := ⟨2, ![1, 2]⟩
abbrev S256x128 : Shape := ⟨2, ![256, 128]⟩
abbrev S100000x2 : Shape := ⟨2, ![100000, 2]⟩
abbrev S2000x128 : Shape := ⟨2, ![2000, 128]⟩
abbrev S2000x2 : Shape := ⟨2, ![2000, 2]⟩
abbrev S2000x256 : Shape := ⟨2, ![2000, 256]⟩
abbrev S2000x384 : Shape := ⟨2, ![2000, 384]⟩
abbrev S2000x512 : Shape := ⟨2, ![2000, 512]⟩
abbrev S2000 : Shape := ⟨1, ![2000]⟩
abbrev S2000x1 : Shape := ⟨2, ![2000, 1]⟩

abbrev nBuf : Space → Nat
  | .hbm => 83
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S768x128, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S768x128, .f32⟩
  | .hbm, ⟨10, _⟩ => ⟨S768x256, .f32⟩
  | .hbm, ⟨11, _⟩ => ⟨S768, .f32⟩
  | .hbm, ⟨12, _⟩ => ⟨S768, .f32⟩
  | .hbm, ⟨13, _⟩ => ⟨S1x256, .f32⟩
  | .hbm, ⟨14, _⟩ => ⟨S1, .f32⟩
  | .hbm, ⟨15, _⟩ => ⟨S1x256, .f32⟩
  | .hbm, ⟨16, _⟩ => ⟨S1, .f32⟩
  | .hbm, ⟨17, _⟩ => ⟨S128x256, .f32⟩
  | .hbm, ⟨18, _⟩ => ⟨S128, .f32⟩
  | .hbm, ⟨19, _⟩ => ⟨S128x256, .f32⟩
  | .hbm, ⟨20, _⟩ => ⟨S128, .f32⟩
  | .hbm, ⟨21, _⟩ => ⟨S128x768, .f32⟩
  | .hbm, ⟨22, _⟩ => ⟨S256x768, .f32⟩
  | .hbm, ⟨23, _⟩ => ⟨S128x512, .f32⟩
  | .hbm, ⟨24, _⟩ => ⟨S256x512, .f32⟩
  | .hbm, ⟨25, _⟩ => ⟨S384x512, .f32⟩
  | .hbm, ⟨26, _⟩ => ⟨S_, .f32⟩
  | .hbm, ⟨27, _⟩ => ⟨S384x512, .f32⟩
  | .hbm, ⟨28, _⟩ => ⟨S384x512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S128x256, .f32⟩
  | .hbm, ⟨37, _⟩ => ⟨S256, .f32⟩
  | .hbm, ⟨38, _⟩ => ⟨S1x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S128x768, .f32⟩
  | .hbm, ⟨49, _⟩ => ⟨S256x768, .f32⟩
  | .hbm, ⟨50, _⟩ => ⟨S128x512, .f32⟩
  | .hbm, ⟨51, _⟩ => ⟨S256x512, .f32⟩
  | .hbm, ⟨52, _⟩ => ⟨S384x512, .f32⟩
  | .hbm, ⟨53, _⟩ => ⟨S_, .f32⟩
  | .hbm, ⟨54, _⟩ => ⟨S384x512, .f32⟩
  | .hbm, ⟨55, _⟩ => ⟨S384x512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S128x256, .f32⟩
  | .hbm, ⟨64, _⟩ => ⟨S256, .f32⟩
  | .hbm, ⟨65, _⟩ => ⟨S1x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S1x256, .f32⟩
  | .hbm, ⟨75, _⟩ => ⟨S128, .f32⟩
  | .hbm, ⟨76, _⟩ => ⟨S1x128, .f32⟩
  | .hbm, ⟨77, _⟩ => ⟨S2, .f32⟩
  | .hbm, ⟨78, _⟩ => ⟨S1x2, .f32⟩
  | .hbm, ⟨79, _⟩ => ⟨S256x128, .f32⟩
  | .hbm, ⟨80, _⟩ => ⟨S256x128, .f32⟩
  | .hbm, ⟨81, _⟩ => ⟨S100000x128, .f32⟩
  | .hbm, ⟨82, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S384x512, .f32⟩
  | .local _ .vmem, ⟨11, _⟩ => ⟨S128x256, .f32⟩
  | .local _ .vmem, ⟨12, _⟩ => ⟨S256x256, .f32⟩
  | .local _ .vmem, ⟨13, _⟩ => ⟨S384x512, .f32⟩
  | .local _ .vmem, ⟨14, _⟩ => ⟨S128x256, .f32⟩
  | .local _ .vmem, ⟨15, _⟩ => ⟨S256x256, .f32⟩
  | .local _ .vmem, ⟨16, _⟩ => ⟨S1x512, .f32⟩
  | .local _ .vmem, ⟨17, _⟩ => ⟨S1x256, .f32⟩
  | .local _ .vmem, ⟨18, _⟩ => ⟨S1x256, .f32⟩
  | .local _ .vmem, ⟨19, _⟩ => ⟨S1x512, .f32⟩
  | .local _ .vmem, ⟨20, _⟩ => ⟨S1x256, .f32⟩
  | .local _ .vmem, ⟨21, _⟩ => ⟨S1x256, .f32⟩
  | .local _ .vmem, ⟨22, _⟩ => ⟨S256x128, .f32⟩
  | .local _ .vmem, ⟨23, _⟩ => ⟨S256x128, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S1x2, .f32⟩
  | .local _ .vmem, ⟨28, _⟩ => ⟨S2000x128, .f32⟩
  | .local _ .vmem, ⟨29, _⟩ => ⟨S2000x128, .f32⟩
  | .local _ .vmem, ⟨30, _⟩ => ⟨S2000x2, .f32⟩
  | .local _ .vmem, ⟨31, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem23_1 : DmaSem sig := 29
abbrev cc0_sem24_0 : DmaSem sig := 30
abbrev cc0_sem24_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2000x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2000x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  transposes_S768x128_S128x768_1_0 : S768x128.Transposes [1, 0] S128x768
  transposes_S768x256_S256x768_1_0 : S768x256.Transposes [1, 0] S256x768
  slices_S128x768_S128x512_0_0 : S128x768.Slices ![0, 0] S128x512
  slices_S256x768_S256x512_0_0 : S256x768.Slices ![0, 0] S256x512
  concatenates_S128x512_S256x512_S384x512_d0 : Shape.Concatenates [S128x512, S256x512] S384x512 0
  bcast_S_S384x512 : S_.BroadcastsInDim S384x512 (![] : Fin 0 → Fin S384x512.rank)
  slices_S768_S512_0 : S768.Slices ![0] S512
  bcast_S_S512 : S_.BroadcastsInDim S512 (![] : Fin 0 → Fin S512.rank)
  shapeCasts_S512_S1x512 : S512.ShapeCasts S1x512
  slices_S128x768_S128x256_0_512 : S128x768.Slices ![0, 512] S128x256
  slices_S768_S256_512 : S768.Slices ![512] S256
  shapeCasts_S256_S1x256 : S256.ShapeCasts S1x256
  slices_S256x768_S256x256_0_512 : S256x768.Slices ![0, 512] S256x256
  bcast_S_S256x256 : S_.BroadcastsInDim S256x256 (![] : Fin 0 → Fin S256x256.rank)
  bcast_S_S256 : S_.BroadcastsInDim S256 (![] : Fin 0 → Fin S256.rank)
  shapeCasts_S128_S1x128 : S128.ShapeCasts S1x128
  concatenates_S1_S1_S2_d0 : Shape.Concatenates [S1, S1] S2 0
  shapeCasts_S2_S1x2 : S2.ShapeCasts S1x2
  transposes_S128x256_S256x128_1_0 : S128x256.Transposes [1, 0] S256x128
  inb_S2000x128_S2000x128_0_0 : ∀ a, (![0, 0] : Fin 2 → Nat) a + S2000x128.size a ≤ S2000x128.size a
  h_S2000x128 : 0 < S2000x128.numel
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  concatenates_S2000x128_S2000x128_S2000x256_d1 : Shape.Concatenates [S2000x128, S2000x128] S2000x256 1
  concatenates_S2000x128_S2000x256_S2000x384_d1 : Shape.Concatenates [S2000x128, S2000x256] S2000x384 1
  broadcasts_S1x512_S2000x512 : S1x512.Broadcasts S2000x512
  broadcasts_S1x256_S2000x256 : S1x256.Broadcasts S2000x256
  slices_S2000x512_o0_0_S2000x256 : S2000x512.Slices ![0, 0] S2000x256
  slices_S2000x512_o0_256_S2000x256 : S2000x512.Slices ![0, 256] S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x256_S2000 : S2000x256.Reduces [1] S2000
  shapeCasts_S2000_S2000x1 : S2000.ShapeCasts S2000x1
  concatenates_S2000x1_S2000x1_S2000x2_d1 : Shape.Concatenates [S2000x1, S2000x1] S2000x2 1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S2000x384_S384x512_S2000x512_1_0_0_1_n_n_wf : DotDims.WF S2000x384 S384x512 S2000x512 [1] [0] [0] [1] [] []
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x512.size a ≤ S384x512.size a
  hwx0_5 : ∀ i : grid0.Coords, EltTy.bits .f32 = 32 ∨ (Rect.block (s := S384x512) S384x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x512.size a ≤ S384x512.size a
  hwx0_8 : ∀ i : grid0.Coords, EltTy.bits .f32 = 32 ∨ (Rect.block (s := S384x512) S384x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x128.size a ≤ S256x128.size a
  hwx0_17 : ∀ i : grid0.Coords, EltTy.bits .f32 = 32 ∨ (Rect.block (s := S256x128) S256x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x128.size a ≤ S256x128.size a
  hwx0_18 : ∀ i : grid0.Coords, EltTy.bits .f32 = 32 ∨ (Rect.block (s := S256x128) S256x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x2.size a ≤ S1x2.size a
  hwx0_22 : ∀ i : grid0.Coords, EltTy.bits .f32 = 32 ∨ (Rect.block (s := S1x2) S1x2.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x128.size a ≤ S100000x128.size a
  hwx0_23 : ∀ i : grid0.Coords, EltTy.bits .f32 = 32 ∨ (Rect.block (s := S100000x128) S2000x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2000x2.size a ≤ S100000x2.size a
  hwx0_24 : ∀ i : grid0.Coords, EltTy.bits .f32 = 32 ∨ (Rect.block (s := S100000x2) S2000x2.size (cc0_transform_24 i) (hinb0_24 i)).WholeWords (EltTy.packing .f32)

variable [Facts₀]

def dot_S2000x384_S384x512_S2000x512_1_0_0_1_n_n : DotDims S2000x384 S384x512 S2000x512 where
  lhsContracting := [1]
  rhsContracting := [0]
  lhsNonContracting := [0]
  rhsNonContracting := [1]
  lhsBatch := []
  rhsBatch := []
  wf := dot_S2000x384_S384x512_S2000x512_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S384x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S384x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v38) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v45) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v50) S256x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v51) S256x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v47) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg13) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg15) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v49) S1x2.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v52_0) S2000x128.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v52_1) S2000x2.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S100000x128 : Shape := ⟨2, ![100000, 128]⟩
abbrev S768x128 : Shape := ⟨2, ![768, 128]⟩
abbrev S768x256 : Shape := ⟨2, ![768, 256]⟩
abbrev S768 : Shape := ⟨1, ![768]⟩
abbrev S1x256 : Shape := ⟨2, ![1, 256]⟩
abbrev S1 : Shape := ⟨1, ![1]⟩
abbrev S128x256 : Shape := ⟨2, ![128, 256]⟩
abbrev S128 : Shape := ⟨1, ![128]⟩
abbrev S100000x256 : Shape := ⟨2, ![100000, 256]⟩
abbrev S128x768 : Shape := ⟨2, ![128, 768]⟩
abbrev S100000x768 : Shape := ⟨2, ![100000, 768]⟩
abbrev S1x768 : Shape := ⟨2, ![1, 768]⟩
abbrev S256x768 : Shape := ⟨2, ![256, 768]⟩
abbrev S_ : Shape := ⟨0, ![]⟩
abbrev S256x1 : Shape := ⟨2, ![256, 1]⟩
abbrev S100000x1 : Shape := ⟨2, ![100000, 1]⟩
abbrev S1x1 : Shape := ⟨2, ![1, 1]⟩
abbrev S256x128 : Shape := ⟨2, ![256, 128]⟩
abbrev S1x128 : Shape := ⟨2, ![1, 128]⟩
abbrev S100000x2 : Shape := ⟨2, ![100000, 2]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S100000x128, .f32⟩
  | 5 => ⟨S768x128, .f32⟩
  | 6 => ⟨S768x256, .f32⟩
  | 7 => ⟨S768, .f32⟩
  | 8 => ⟨S768, .f32⟩
  | 9 => ⟨S768x128, .f32⟩
  | 10 => ⟨S768x256, .f32⟩
  | 11 => ⟨S768, .f32⟩
  | 12 => ⟨S768, .f32⟩
  | 13 => ⟨S1x256, .f32⟩
  | 14 => ⟨S1, .f32⟩
  | 15 => ⟨S1x256, .f32⟩
  | 16 => ⟨S1, .f32⟩
  | 17 => ⟨S128x256, .f32⟩
  | 18 => ⟨S128, .f32⟩
  | 19 => ⟨S128x256, .f32⟩
  | 20 => ⟨S128, .f32⟩
  | 21 => ⟨S100000x256, .f32⟩
  | 22 => ⟨S128x768, .f32⟩
  | 23 => ⟨S100000x768, .f32⟩
  | 24 => ⟨S1x768, .f32⟩
  | 25 => ⟨S100000x768, .f32⟩
  | 26 => ⟨S100000x768, .f32⟩
  | 27 => ⟨S256x768, .f32⟩
  | 28 => ⟨S100000x768, .f32⟩
  | 29 => ⟨S1x768, .f32⟩
  | 30 => ⟨S100000x768, .f32⟩
  | 31 => ⟨S100000x768, .f32⟩
  | 32 => ⟨S100000x256, .f32⟩
  | 33 => ⟨S100000x256, .f32⟩
  | 34 => ⟨S100000x256, .f32⟩
  | 35 => ⟨S100000x256, .f32⟩
  | 36 => ⟨S100000x256, .f32⟩
  | 37 => ⟨S100000x256, .f32⟩
  | 38 => ⟨S100000x256, .f32⟩
  | 39 => ⟨S100000x256, .f32⟩
  | 40 => ⟨S100000x256, .f32⟩
  | 41 => ⟨S_, .f32⟩
  | 42 => ⟨S100000x256, .f32⟩
  | 43 => ⟨S100000x256, .f32⟩
  | 44 => ⟨S_, .f32⟩
  | 45 => ⟨S100000x256, .f32⟩
  | 46 => ⟨S100000x256, .f32⟩
  | 47 => ⟨S100000x256, .f32⟩
  | 48 => ⟨S100000x256, .f32⟩
  | 49 => ⟨S100000x256, .f32⟩
  | 50 => ⟨S_, .f32⟩
  | 51 => ⟨S100000x256, .f32⟩
  | 52 => ⟨S100000x256, .f32⟩
  | 53 => ⟨S_, .f32⟩
  | 54 => ⟨S100000x256, .f32⟩
  | 55 => ⟨S100000x256, .f32⟩
  | 56 => ⟨S100000x256, .f32⟩
  | 57 => ⟨S100000x256, .f32⟩
  | 58 => ⟨S100000x256, .f32⟩
  | 59 => ⟨S_, .f32⟩
  | 60 => ⟨S100000x256, .f32⟩
  | 61 => ⟨S100000x256, .f32⟩
  | 62 => ⟨S100000x256, .f32⟩
  | 63 => ⟨S100000x256, .f32⟩
  | 64 => ⟨S100000x256, .f32⟩
  | 65 => ⟨S100000x256, .f32⟩
  | 66 => ⟨S128x768, .f32⟩
  | 67 => ⟨S100000x768, .f32⟩
  | 68 => ⟨S1x768, .f32⟩
  | 69 => ⟨S100000x768, .f32⟩
  | 70 => ⟨S100000x768, .f32⟩
  | 71 => ⟨S256x768, .f32⟩
  | 72 => ⟨S100000x768, .f32⟩
  | 73 => ⟨S1x768, .f32⟩
  | 74 => ⟨S100000x768, .f32⟩
  | 75 => ⟨S100000x768, .f32⟩
  | 76 => ⟨S100000x256, .f32⟩
  | 77 => ⟨S100000x256, .f32⟩
  | 78 => ⟨S100000x256, .f32⟩
  | 79 => ⟨S100000x256, .f32⟩
  | 80 => ⟨S100000x256, .f32⟩
  | 81 => ⟨S100000x256, .f32⟩
  | 82 => ⟨S100000x256, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S_, .f32⟩
  | 89 => ⟨S100000x256, .f32⟩
  | 90 => ⟨S100000x256, .f32⟩
  | 91 => ⟨S100000x256, .f32⟩
  | 92 => ⟨S100000x256, .f32⟩
  | 93 => ⟨S100000x256, .f32⟩
  | 94 => ⟨S_, .f32⟩
  | 95 => ⟨S100000x256, .f32⟩
  | 96 => ⟨S100000x256, .f32⟩
  | 97 => ⟨S_, .f32⟩
  | 98 => ⟨S100000x256, .f32⟩
  | 99 => ⟨S100000x256, .f32⟩
  | 100 => ⟨S100000x256, .f32⟩
  | 101 => ⟨S100000x256, .f32⟩
  | 102 => ⟨S100000x256, .f32⟩
  | 103 => ⟨S_, .f32⟩
  | 104 => ⟨S100000x256, .f32⟩
  | 105 => ⟨S100000x256, .f32⟩
  | 106 => ⟨S100000x256, .f32⟩
  | 107 => ⟨S100000x256, .f32⟩
  | 108 => ⟨S100000x256, .f32⟩
  | 109 => ⟨S256x1, .f32⟩
  | 110 => ⟨S100000x1, .f32⟩
  | 111 => ⟨S1x1, .f32⟩
  | 112 => ⟨S100000x1, .f32⟩
  | 113 => ⟨S100000x1, .f32⟩
  | 114 => ⟨S100000x1, .f32⟩
  | 115 => ⟨S100000x1, .f32⟩
  | 116 => ⟨S_, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S256x1, .f32⟩
  | 123 => ⟨S100000x1, .f32⟩
  | 124 => ⟨S1x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S256x128, .f32⟩
  | 8 => ⟨S100000x128, .f32⟩
  | 9 => ⟨S1x128, .f32⟩
  | 10 => ⟨S100000x128, .f32⟩
  | 11 => ⟨S100000x128, .f32⟩
  | 12 => ⟨S256x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_4 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_cst_7 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_9 : Ref sig .tc := ⟨.hbm, 116, rfl⟩
abbrev main_v85 : Ref sig .tc := ⟨.hbm, 117, rfl⟩
abbrev main_v86 : Ref sig .tc := ⟨.hbm, 118, rfl⟩
abbrev main_cst_10 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_11 : Ref sig .tc := ⟨.hbm, 129, rfl⟩
abbrev main_v96 : Ref sig .tc := ⟨.hbm, 130, rfl⟩
abbrev main_v97 : Ref sig .tc := ⟨.hbm, 131, rfl⟩
abbrev main_cst_12 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  transposes_S768x128_S128x768_1_0 : S768x128.Transposes [1, 0] S128x768
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  transposes_S768x256_S256x768_1_0 : S768x256.Transposes [1, 0] S256x768
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  bcast_S_S100000x256 : S_.BroadcastsInDim S100000x256 (![] : Fin 0 → Fin S100000x256.rank)
  transposes_S1x256_S256x1_1_0 : S1x256.Transposes [1, 0] S256x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x1_S100000x1_S100000x2_d1 : Shape.Concatenates [S100000x1, S100000x1] S100000x2 1
  dot_S100000x128_S128x768_S100000x768_1_0_0_1_n_n_wf : DotDims.WF S100000x128 S128x768 S100000x768 [1] [0] [0] [1] [] []
  dot_S100000x256_S256x768_S100000x768_1_0_0_1_n_n_wf : DotDims.WF S100000x256 S256x768 S100000x768 [1] [0] [0] [1] [] []
  dot_S100000x256_S256x1_S100000x1_1_0_0_1_n_n_wf : DotDims.WF S100000x256 S256x1 S100000x1 [1] [0] [0] [1] [] []
  dot_S100000x256_S256x128_S100000x128_1_0_0_1_n_n_wf : DotDims.WF S100000x256 S256x128 S100000x128 [1] [0] [0] [1] [] []

variable [Facts₀]

def dot_S100000x128_S128x768_S100000x768_1_0_0_1_n_n : DotDims S100000x128 S128x768 S100000x768 where
  lhsContracting := [1]
  rhsContracting := [0]
  lhsNonContracting := [0]
  rhsNonContracting := [1]
  lhsBatch := []
  rhsBatch := []
  wf := dot_S100000x128_S128x768_S100000x768_1_0_0_1_n_n_wf
def dot_S100000x256_S256x768_S100000x768_1_0_0_1_n_n : DotDims S100000x256 S256x768 S100000x768 where
  lhsContracting := [1]
  rhsContracting := [0]
  lhsNonContracting := [0]
  rhsNonContracting := [1]
  lhsBatch := []
  rhsBatch := []
  wf := dot_S100000x256_S256x768_S100000x768_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibLogistic.lean ====
/-
  The logistic function through the hyperbolic tangent, and two facts about finite sums of real numbers.

  For every real v,  1 / (1 + e^(-v)) = tanh (v / 2) / 2 + 1 / 2:  with a = e^(v/2) both sides are a / (a + 1/a).
  A gate written as "tanh of half the reading, halved, plus one half" is therefore the logistic gate.
  The inclusion of the reals in the extended reals commutes with finite sums, and a factor 1/2 inside each product of a
  finite sum of real products moves out of the sum.
-/
import Mathlib.Analysis.SpecialFunctions.Trigonometric.DerivHyp
import Mathlib.Data.EReal.Basic

noncomputable section

namespace Cert.LibLogistic

open scoped BigOperators

/-- The inclusion of the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The logistic function through the hyperbolic tangent. -/
theorem sigmoid_tanh (v : ℝ) : (1 + Real.exp (-v))⁻¹ = 1 / 2 * Real.tanh (1 / 2 * v) + 1 / 2 := by
  rw [Real.tanh_eq_sinh_div_cosh, Real.sinh_eq, Real.cosh_eq]
  have h2 : Real.exp (-v) = Real.exp (-(1 / 2 * v)) * Real.exp (-(1 / 2 * v)) := by
    rw [← Real.exp_add]; congr 1; ring
  rw [h2, Real.exp_neg]
  have ha : 0 < Real.exp (1 / 2 * v) := Real.exp_pos _
  generalize Real.exp (1 / 2 * v) = a at ha ⊢
  have ha' : a ≠ 0 := ha.ne'
  have h3 : a * a + 1 ≠ 0 := by positivity
  field_simp
  ring

/-- Halving moves across a finite sum of real products. -/
theorem sum_mul_half {n : ℕ} (x w : Fin n → ℝ) : ∑ k, x k * (1 / 2 * w k) = 1 / 2 * ∑ k, x k * w k := by
  rw [Finset.mul_sum]; exact Finset.sum_congr rfl fun k _ => by ring

end Cert.LibLogistic

end
-- ==== Proof.GruAlgebra.lean ====
/-
  The mathematics of the cell, with no program in sight.

  A gated recurrent cell takes an input row x (128 entries) and a state row h (256 entries) and, with weights
  Wi (768 x 128), Wh (768 x 256) and biases bi, bh (768 entries each), forms for each of the three gates g = 0, 1, 2
  and each j < 256 the two affine readings  gi = <x, Wi (256 g + j)> + bi (256 g + j)  and  gh = <h, Wh (256 g + j)> + bh (256 g + j).
  With s the logistic function, r = s (gi0 + gh0), z = s (gi1 + gh1), n = tanh (gi2 + r * gh2), and the new state is
  (1 - z) * n + z * h j.  That is the REFERENCE form (`cellRef`).

  The other form (`cellKer`) takes ONE product of the joined row [x, h] (384 entries) with joined weights scaled by 1/2
  for the first two gates, so that it holds (gi + gh) / 2 there, evaluates t = tanh of it, and uses
  s v = tanh (v / 2) / 2 + 1 / 2:  n = tanh (gi2 + (gh2 / 2) * (t0 + 1)),  z = t1 / 2 + 1 / 2, and the state n + z * (h j - n).
  On real numbers the two forms agree (`cell_law`): the scaling by 1/2 moves across the finite sums, which is where the
  entries have to be real numbers (multiplication does not distribute over sums with infinite terms).

  The two output heads are sums of the two cells' states against fixed weights; the two forms differ there only in the
  order in which the summands are added, which no finiteness is needed for.
-/
import Idealize.ShloMosaic.PureOps.Ideal
import Idealize.ShloMosaic.Lib.IdealHost
import proofs.«133639_g47399259079245_cont_8to1c4_90_11_alg».proof.Proof.LibLogistic

noncomputable section

namespace Cert.GruPair

open Idealize.ShloMosaic Cert.LibLogistic
open scoped BigOperators

/-- One half, as the 32-bit word the programs spell it with. -/
abbrev half : EReal := Ideal.ofBits .f32 0x3F000000#32
/-- One, as the 32-bit word the programs spell it with. -/
abbrev one : EReal := Ideal.ofBits .f32 0x3F800000#32

theorem half_eq : half = (((1 : ℝ) / 2 : ℝ) : EReal) := by
  simp [half, Ideal.ofBits, Ideal.ieee, -EReal.coe_mul]; norm_num

theorem one_eq : one = 1 := Ideal.ofBits_one_f32

/-- A sum over 384 = 128 + 256 positions, cut at 128. -/
theorem sum_384 {M : Type*} [AddCommMonoid M] (f : Fin 384 → M) :
    ∑ k, f k = (∑ k : Fin 128, f ⟨k.val, by omega⟩) + ∑ k : Fin 256, f ⟨128 + k.val, by omega⟩ :=
  Fin.sum_univ_add (a := 128) (b := 256) f

/-- The logistic function spelt out: 1 / (1 + e^(-v)). -/
def sigm (v : EReal) : EReal := Ideal.div one (one + Ideal.exp (-v))

theorem sigm_eq (v : EReal) : sigm v = Ideal.logistic v := by
  unfold sigm Ideal.logistic; rw [one_eq]

theorem sigm_coe (v : ℝ) : sigm (v : EReal) = (((1 + Real.exp (-v))⁻¹ : ℝ) : EReal) := by
  rw [sigm_eq, Ideal.logistic_coe]

/-- An affine reading: the sum of products with a weight row, plus a bias. -/
def lin {n : ℕ} (x w : Fin n → EReal) (b : EReal) : EReal := (∑ k, x k * w k) + b

/-- The same reading on real numbers. -/
def linR {n : ℕ} (x w : Fin n → ℝ) (b : ℝ) : ℝ := (∑ k, x k * w k) + b

theorem lin_coe {n : ℕ} (x w : Fin n → ℝ) (b : ℝ) :
    lin (fun k => (x k : EReal)) (fun k => (w k : EReal)) (b : EReal) = ((linR x w b : ℝ) : EReal) := by
  unfold lin linR
  rw [EReal.coe_add, coe_sum]
  simp only [EReal.coe_mul]

/-- Gate g's row j among the 768 stacked rows. -/
abbrev lo (j : Fin 256) : Fin 768 := ⟨j.val, by omega⟩
abbrev mid (j : Fin 256) : Fin 768 := ⟨256 + j.val, by omega⟩
abbrev hi (j : Fin 256) : Fin 768 := ⟨512 + j.val, by omega⟩

/-- The cell in the reference form. -/
def cellRef (x : Fin 128 → EReal) (h : Fin 256 → EReal) (Wi : Fin 768 → Fin 128 → EReal) (Wh : Fin 768 → Fin 256 → EReal)
    (bi bh : Fin 768 → EReal) (j : Fin 256) : EReal :=
  (one - sigm (lin x (Wi (mid j)) (bi (mid j)) + lin h (Wh (mid j)) (bh (mid j))))
      * Ideal.tanh (lin x (Wi (hi j)) (bi (hi j))
          + sigm (lin x (Wi (lo j)) (bi (lo j)) + lin h (Wh (lo j)) (bh (lo j))) * lin h (Wh (hi j)) (bh (hi j)))
    + sigm (lin x (Wi (mid j)) (bi (mid j)) + lin h (Wh (mid j)) (bh (mid j))) * h j

/-- The first two gates' joint reading: tanh of the joined row against the joined, halved weights. -/
def gates (xc : Fin 384 → EReal) (Wrz : Fin 384 → Fin 512 → EReal) (brz : Fin 512 → EReal) (j' : Fin 512) : EReal :=
  Ideal.tanh (lin xc (fun k => Wrz k j') (brz j'))

/-- The cell in the other form, over weights prepared beforehand (columns are output positions). -/
def cellKer (x : Fin 128 → EReal) (h : Fin 256 → EReal) (xc : Fin 384 → EReal) (Wrz : Fin 384 → Fin 512 → EReal)
    (brz : Fin 512 → EReal) (Win : Fin 128 → Fin 256 → EReal) (bin : Fin 256 → EReal) (Whn : Fin 256 → Fin 256 → EReal)
    (bhn : Fin 256 → EReal) (j : Fin 256) : EReal :=
  Ideal.tanh (lin x (fun k => Win k j) (bin j)
      + lin h (fun k => Whn k j) (bhn j) * (gates xc Wrz brz ⟨j.val, by omega⟩ + one))
    + (half * gates xc Wrz brz ⟨256 + j.val, by omega⟩ + half)
      * (h j - Ideal.tanh (lin x (fun k => Win k j) (bin j)
          + lin h (fun k => Whn k j) (bhn j) * (gates xc Wrz brz ⟨j.val, by omega⟩ + one)))

/-- Halved weights and bias give half the reading. -/
theorem linR_half {n : ℕ} (x w : Fin n → ℝ) (b : ℝ) : linR x (fun k => 1 / 2 * w k) (1 / 2 * b) = 1 / 2 * linR x w b := by
  unfold linR; rw [sum_mul_half]; ring

/-- The two forms of the cell agree on real numbers. The hypotheses say how the prepared weights are made of the cell's:
    the joined row is [x, h]; the joined weights are the first 512 rows of Wi over those of Wh, transposed and halved, the
    joined bias half the sum of the two; the third gate's input weights are rows 512… of Wi, its state weights and bias
    rows 512… of Wh and bh, halved. -/
theorem cell_law (x : Fin 128 → ℝ) (h : Fin 256 → ℝ) (Wi : Fin 768 → Fin 128 → ℝ) (Wh : Fin 768 → Fin 256 → ℝ)
    (bi bh : Fin 768 → ℝ)
    (xc : Fin 384 → EReal) (Wrz : Fin 384 → Fin 512 → EReal) (brz : Fin 512 → EReal)
    (Win : Fin 128 → Fin 256 → EReal) (bin : Fin 256 → EReal) (Whn : Fin 256 → Fin 256 → EReal) (bhn : Fin 256 → EReal)
    (hxl : ∀ k : Fin 128, xc ⟨k.val, by omega⟩ = (x k : EReal))
    (hxr : ∀ k : Fin 256, xc ⟨128 + k.val, by omega⟩ = (h k : EReal))
    (hWl : ∀ (k : Fin 128) (j' : Fin 512), Wrz ⟨k.val, by omega⟩ j' = half * (Wi ⟨j'.val, by omega⟩ k : EReal))
    (hWr : ∀ (k : Fin 256) (j' : Fin 512), Wrz ⟨128 + k.val, by omega⟩ j' = half * (Wh ⟨j'.val, by omega⟩ k : EReal))
    (hbrz : ∀ j' : Fin 512, brz j' = half * ((bi ⟨j'.val, by omega⟩ : EReal) + (bh ⟨j'.val, by omega⟩ : EReal)))
    (hWin : ∀ (k : Fin 128) (j : Fin 256), Win k j = (Wi (hi j) k : EReal))
    (hbin : ∀ j : Fin 256, bin j = (bi (hi j) : EReal))
    (hWhn : ∀ (k : Fin 256) (j : Fin 256), Whn k j = half * (Wh (hi j) k : EReal))
    (hbhn : ∀ j : Fin 256, bhn j = half * (bh (hi j) : EReal))
    (j : Fin 256) :
    cellKer (fun k => (x k : EReal)) (fun k => (h k : EReal)) xc Wrz brz Win bin Whn bhn j
      = cellRef (fun k => (x k : EReal)) (fun k => (h k : EReal)) (fun a k => (Wi a k : EReal))
          (fun a k => (Wh a k : EReal)) (fun a => (bi a : EReal)) (fun a => (bh a : EReal)) j := by
  have hgates : ∀ j' : Fin 512, gates xc Wrz brz j'
      = ((Real.tanh (1 / 2 * (linR x (Wi ⟨j'.val, by omega⟩) (bi ⟨j'.val, by omega⟩)
          + linR h (Wh ⟨j'.val, by omega⟩) (bh ⟨j'.val, by omega⟩))) : ℝ) : EReal) := by
    intro j'
    unfold gates lin
    rw [sum_384, hbrz]
    simp only [hxl, hxr, hWl, hWr, half_eq]
    simp only [← EReal.coe_mul, ← EReal.coe_add, ← coe_sum]
    rw [Ideal.tanh_coe]
    refine congrArg (fun r : ℝ => ((Real.tanh r : ℝ) : EReal)) ?_
    unfold linR
    rw [sum_mul_half, sum_mul_half]; ring
  unfold cellKer cellRef
  simp only [hgates, hWin, hbin, hWhn, hbhn, half_eq, one_eq]
  simp only [← EReal.coe_mul, lin_coe, sigm_coe, ← EReal.coe_add, Ideal.tanh_coe, ← EReal.coe_one, ← EReal.coe_sub]
  refine congrArg (fun r : ℝ => (r : EReal)) ?_
  rw [linR_half, sigmoid_tanh, sigmoid_tanh]
  have e : ∀ a b T : ℝ, a + 1 / 2 * b * (T + 1) = a + (1 / 2 * T + 1 / 2) * b := fun a b T => by ring
  rw [e]
  ring

/-! ## The two heads -/

/-- The state head in the reference form: both states against their weight rows, the biases added one after the other. -/
def headRef (ha hf : Fin 256 → EReal) (Wa Wf : Fin 128 → Fin 256 → EReal) (ba bf : Fin 128 → EReal) (q : Fin 128) : EReal :=
  Ideal.tanh (((lin ha (Wa q) (ba q)) + ∑ k, hf k * Wf q k) + bf q)

/-- The state head in the other form: the two products added first, then the sum of the two biases. -/
def headKer (ha hf : Fin 256 → EReal) (WaT WfT : Fin 256 → Fin 128 → EReal) (b : Fin 128 → EReal) (q : Fin 128) : EReal :=
  Ideal.tanh (((∑ k, ha k * WaT k q) + ∑ k, hf k * WfT k q) + b q)

/-- The two forms of the state head differ in the order of four summands only. -/
theorem head_law (ha hf : Fin 256 → EReal) (Wa Wf : Fin 128 → Fin 256 → EReal) (ba bf : Fin 128 → EReal)
    (WaT WfT : Fin 256 → Fin 128 → EReal) (b : Fin 128 → EReal)
    (hWa : ∀ k q, WaT k q = Wa q k) (hWf : ∀ k q, WfT k q = Wf q k) (hb : ∀ q, b q = ba q + bf q) (q : Fin 128) :
    headKer ha hf WaT WfT b q = headRef ha hf Wa Wf ba bf q := by
  unfold headKer headRef lin
  simp only [hWa, hWf, hb]
  rw [add_assoc (_ + ba q), add_add_add_comm]

/-- The probability head: the logistic function of one state against one weight row plus one bias; position 0 reads the
    first state, position 1 the second. -/
def probRef (ha hf : Fin 256 → EReal) (wa wf : Fin 256 → EReal) (ba bf : EReal) (q : Fin 2) : EReal :=
  if q.val = 0 then sigm (lin ha wa ba) else sigm (lin hf wf bf)

/-! ## The whole update, by coordinates -/

/-- The twenty-one argument arrays, by coordinates. -/
structure Args where
  xa : Fin 100000 → Fin 128 → EReal
  xf : Fin 100000 → Fin 128 → EReal
  ph : Fin 100000 → Fin 128 → EReal
  sh : Fin 100000 → Fin 128 → EReal
  enc : Fin 100000 → Fin 128 → EReal
  dWi : Fin 768 → Fin 128 → EReal
  dWh : Fin 768 → Fin 256 → EReal
  dbi : Fin 768 → EReal
  dbh : Fin 768 → EReal
  wWi : Fin 768 → Fin 128 → EReal
  wWh : Fin 768 → Fin 256 → EReal
  wbi : Fin 768 → EReal
  wbh : Fin 768 → EReal
  Wpa : Fin 256 → EReal
  bpa : EReal
  Wpf : Fin 256 → EReal
  bpf : EReal
  Wha : Fin 128 → Fin 256 → EReal
  bha : Fin 128 → EReal
  Whf : Fin 128 → Fin 256 → EReal
  bhf : Fin 128 → EReal

/-- Two rows of 128 entries side by side. -/
def cat (a b : Fin 128 → EReal) (k : Fin 256) : EReal :=
  if hk : k.val < 128 then a ⟨k.val, hk⟩ else b ⟨k.val - 128, by omega⟩

theorem cat_left (a b : Fin 128 → EReal) (k : Fin 128) : cat a b ⟨k.val, by omega⟩ = a k := by
  unfold cat; rw [dif_pos k.isLt]

theorem cat_right (a b : Fin 128 → EReal) (k : Fin 128) : cat a b ⟨128 + k.val, by omega⟩ = b k := by
  unfold cat; rw [dif_neg (by simp)]; congr 1; apply Fin.ext; simp

/-- Row r's new depth state: the cell on the parent's label and the parent's state joined with the encoding. -/
def stateA (A : Args) (r : Fin 100000) : Fin 256 → EReal :=
  cellRef (A.xa r) (cat (A.ph r) (A.enc r)) A.dWi A.dWh A.dbi A.dbh

/-- Row r's new width state: the cell on the sibling's label and the sibling's state joined with the encoding. -/
def stateF (A : Args) (r : Fin 100000) : Fin 256 → EReal :=
  cellRef (A.xf r) (cat (A.sh r) (A.enc r)) A.wWi A.wWh A.wbi A.wbh

/-- Entry (r, q) of the first result. -/
def outH (A : Args) (r : Fin 100000) (q : Fin 128) : EReal :=
  headRef (stateA A r) (stateF A r) A.Wha A.Whf A.bha A.bhf q

/-- Entry (r, q) of the second result. -/
def outP (A : Args) (r : Fin 100000) (q : Fin 2) : EReal :=
  probRef (stateA A r) (stateF A r) A.Wpa A.Wpf A.bpa A.bpf q

/-- The two forms of the cell agree on extended reals all of whose entries are real numbers. -/
theorem cell_bridge (x : Fin 128 → EReal) (h : Fin 256 → EReal) (Wi : Fin 768 → Fin 128 → EReal)
    (Wh : Fin 768 → Fin 256 → EReal) (bi bh : Fin 768 → EReal)
    (hx : ∀ k, ∃ r : ℝ, x k = r) (hh : ∀ k, ∃ r : ℝ, h k = r) (hWi : ∀ a k, ∃ r : ℝ, Wi a k = r)
    (hWh : ∀ a k, ∃ r : ℝ, Wh a k = r) (hbi : ∀ a, ∃ r : ℝ, bi a = r) (hbh : ∀ a, ∃ r : ℝ, bh a = r)
    (xc : Fin 384 → EReal) (Wrz : Fin 384 → Fin 512 → EReal) (brz : Fin 512 → EReal)
    (Win : Fin 128 → Fin 256 → EReal) (bin : Fin 256 → EReal) (Whn : Fin 256 → Fin 256 → EReal) (bhn : Fin 256 → EReal)
    (hxl : ∀ k : Fin 128, xc ⟨k.val, by omega⟩ = x k)
    (hxr : ∀ k : Fin 256, xc ⟨128 + k.val, by omega⟩ = h k)
    (hWl : ∀ (k : Fin 128) (j' : Fin 512), Wrz ⟨k.val, by omega⟩ j' = half * Wi ⟨j'.val, by omega⟩ k)
    (hWr : ∀ (k : Fin 256) (j' : Fin 512), Wrz ⟨128 + k.val, by omega⟩ j' = half * Wh ⟨j'.val, by omega⟩ k)
    (hbrz : ∀ j' : Fin 512, brz j' = half * (bi ⟨j'.val, by omega⟩ + bh ⟨j'.val, by omega⟩))
    (hWin : ∀ (k : Fin 128) (j : Fin 256), Win k j = Wi (hi j) k)
    (hbin : ∀ j : Fin 256, bin j = bi (hi j))
    (hWhn : ∀ (k : Fin 256) (j : Fin 256), Whn k j = half * Wh (hi j) k)
    (hbhn : ∀ j : Fin 256, bhn j = half * bh (hi j))
    (j : Fin 256) :
    cellKer x h xc Wrz brz Win bin Whn bhn j = cellRef x h Wi Wh bi bh j := by
  choose x' hx' using hx
  choose h' hh' using hh
  choose Wi' hWi' using hWi
  choose Wh' hWh' using hWh
  choose bi' hbi' using hbi
  choose bh' hbh' using hbh
  obtain rfl : x = fun k => ((x' k : ℝ) : EReal) := funext hx'
  obtain rfl : h = fun k => ((h' k : ℝ) : EReal) := funext hh'
  obtain rfl : Wi = fun a k => ((Wi' a k : ℝ) : EReal) := funext fun a => funext (hWi' a)
  obtain rfl : Wh = fun a k => ((Wh' a k : ℝ) : EReal) := funext fun a => funext (hWh' a)
  obtain rfl : bi = fun a => ((bi' a : ℝ) : EReal) := funext hbi'
  obtain rfl : bh = fun a => ((bh' a : ℝ) : EReal) := funext hbh'
  exact cell_law x' h' Wi' Wh' bi' bh' xc Wrz brz Win bin Whn bhn hxl hxr hWl hWr hbrz hWin hbin hWhn hbhn j

/-- Two rows of real numbers side by side are a row of real numbers. -/
theorem cat_real (a b : Fin 128 → EReal) (ha : ∀ k, ∃ r : ℝ, a k = r) (hb : ∀ k, ∃ r : ℝ, b k = r) (k : Fin 256) :
    ∃ r : ℝ, cat a b k = r := by
  unfold cat
  split
  · exact ha _
  · exact hb _

end Cert.GruPair

end
-- ==== Proof.Arrays.lean ====
/-
  The update as two whole arrays: the argument arrays read by coordinates, and the two results indexed by the
  positions of a 100000 x 128 and a 100000 x 2 array.
-/
import proofs.«133639_g47399259079245_cont_8to1c4_90_11_alg».proof.Proof.GruAlgebra
import Idealize.ShloMosaic.Lib.ValueIdx

noncomputable section

namespace Cert.GruPair

open Idealize.ShloMosaic Idealize.ShloMosaic.ValueIdx

/-- The argument arrays, in the order of the programs' parameters, by coordinates. A 1 x 256 weight is read along its one
    row, a one-entry bias at its entry. -/
def argsOf
    (x0 x1 x2 x3 x4 : (⟨2, ![100000, 128]⟩ : Shape).Idx → EReal)
    (x5 : (⟨2, ![768, 128]⟩ : Shape).Idx → EReal) (x6 : (⟨2, ![768, 256]⟩ : Shape).Idx → EReal)
    (x7 x8 : (⟨1, ![768]⟩ : Shape).Idx → EReal)
    (x9 : (⟨2, ![768, 128]⟩ : Shape).Idx → EReal) (x10 : (⟨2, ![768, 256]⟩ : Shape).Idx → EReal)
    (x11 x12 : (⟨1, ![768]⟩ : Shape).Idx → EReal)
    (x13 : (⟨2, ![1, 256]⟩ : Shape).Idx → EReal) (x14 : (⟨1, ![1]⟩ : Shape).Idx → EReal)
    (x15 : (⟨2, ![1, 256]⟩ : Shape).Idx → EReal) (x16 : (⟨1, ![1]⟩ : Shape).Idx → EReal)
    (x17 : (⟨2, ![128, 256]⟩ : Shape).Idx → EReal) (x18 : (⟨1, ![128]⟩ : Shape).Idx → EReal)
    (x19 : (⟨2, ![128, 256]⟩ : Shape).Idx → EReal) (x20 : (⟨1, ![128]⟩ : Shape).Idx → EReal) : Args where
  xa := fun r k => x0 (ix2 r k)
  xf := fun r k => x1 (ix2 r k)
  ph := fun r k => x2 (ix2 r k)
  sh := fun r k => x3 (ix2 r k)
  enc := fun r k => x4 (ix2 r k)
  dWi := fun a k => x5 (ix2 a k)
  dWh := fun a k => x6 (ix2 a k)
  dbi := fun a => x7 (ix1 a)
  dbh := fun a => x8 (ix1 a)
  wWi := fun a k => x9 (ix2 a k)
  wWh := fun a k => x10 (ix2 a k)
  wbi := fun a => x11 (ix1 a)
  wbh := fun a => x12 (ix1 a)
  Wpa := fun k => x13 (ix2 (0 : Fin 1) k)
  bpa := x14 (ix1 (0 : Fin 1))
  Wpf := fun k => x15 (ix2 (0 : Fin 1) k)
  bpf := x16 (ix1 (0 : Fin 1))
  Wha := fun q k => x17 (ix2 q k)
  bha := fun q => x18 (ix1 q)
  Whf := fun q k => x19 (ix2 q k)
  bhf := fun q => x20 (ix1 q)

/-- The first result as an array. -/
def GH (A : Args) : (⟨2, ![100000, 128]⟩ : Shape).Idx → EReal :=
  fun i => outH A ⟨(i 0).val, idx2_lt0 i⟩ ⟨(i 1).val, idx2_lt1 i⟩

/-- The second result as an array. -/
def GP (A : Args) : (⟨2, ![100000, 2]⟩ : Shape).Idx → EReal :=
  fun i => outP A ⟨(i 0).val, idx2_lt0 i⟩ ⟨(i 1).val, idx2_lt1 i⟩

theorem GH_apply (A : Args) (r : Fin 100000) (q : Fin 128) : GH A (ix2 r q) = outH A r q := rfl

theorem GP_apply (A : Args) (r : Fin 100000) (q : Fin 2) : GP A (ix2 r q) = outP A r q := rfl

end Cert.GruPair

end
-- ==== Proof.RefSide.lean ====
/-
  The reference program's two results, read at an index.

  The reference forms, row by row, two gated recurrent cells and two heads. Each cell joins a 128-entry state with the
  128-entry encoding into a 256-entry row, takes two affine readings of 768 entries (one of the input row, one of the
  joined row), cuts each into three 256-entry gates, and combines them with the logistic function 1 / (1 + e^(-v)) and the
  hyperbolic tangent. This module reads every operation at an index (row r, column j) and finds the cell of
  `Cert.GruPair.cellRef` and the heads `headRef`, `probRef`, entry by entry.
-/
import proofs.«133639_g47399259079245_cont_8to1c4_90_11_alg».proof.Proof.Arrays
import proofs.«133639_g47399259079245_cont_8to1c4_90_11_alg».proof.Proof.Gen.ReferenceIdeal.Read
import Idealize.ShloMosaic.Lib.Pipeline.Value
import Idealize.ShloMosaic.Lib.ValueIdx
import Idealize.ShloMosaic.PureOps.Ideal.Laws

noncomputable section

namespace Cert.GruPair.Ref

open Cert.GruPair Idealize.ShloMosaic Idealize.ShloMosaic.ValueIdx Cert.ReferenceIdeal Cert.ReferenceIdeal.Gen Cert.ReferenceIdeal.Read
open scoped BigOperators

/-- Two arrays of 128 columns side by side, read at row r and column k: the left one below column 128, the right one
    from column 128 on. -/
theorem joined (xa xb : (⟨S100000x128, .f32⟩ : BufTy).Contents (Elt Ideal)) (r : Fin 100000) (k : Fin 256) :
    concatenate S100000x256 1 [⟨S100000x128, xa⟩, ⟨S100000x128, xb⟩] concatenates_S100000x128_S100000x128_S100000x256_d1 (ix2 r k)
      = cat (fun k => xa (ix2 r k)) (fun k => xb (ix2 r k)) k := by
  unfold cat
  by_cases hk : k.val < 128
  · rw [dif_pos hk]
    exact concatenate_pair_apply_left 1 xa xb _ (ix2 r k) rfl (ix2 r ⟨k.val, hk⟩)
      (fun b => match b with | ⟨0, _⟩ => rfl | ⟨1, _⟩ => rfl)
  · rw [dif_neg hk]
    exact concatenate_pair_apply_right 1 xa xb _ (ix2 r k) rfl rfl (ix2 r ⟨k.val - 128, by omega⟩)
      (fun b => match b with | ⟨0, _⟩ => fun _ => rfl | ⟨1, _⟩ => fun h => absurd rfl h)
      (by show (k.val - 128) + 128 = k.val; omega)

/-- The joined row: the state beside the encoding. -/
theorem hpA_apply (x2 x4 : (⟨S100000x128, .f32⟩ : BufTy).Contents (Elt Ideal)) (r : Fin 100000) (k : Fin 256) :
    val_main_v0 (F := Ideal) x2 x4 (ix2 r k) = cat (fun k => x2 (ix2 r k)) (fun k => x4 (ix2 r k)) k :=
  joined x2 x4 r k

/-- The input row's affine reading at column c: the row against row c of the input weights, plus entry c of the bias. -/
theorem giA_apply (x0 : (⟨S100000x128, .f32⟩ : BufTy).Contents (Elt Ideal)) (x5 : (⟨S768x128, .f32⟩ : BufTy).Contents (Elt Ideal)) (x7 : (⟨S768, .f32⟩ : BufTy).Contents (Elt Ideal)) (r : Fin 100000) (c : Fin 768) :
    val_main_v5 (F := Ideal) x0 x5 x7 (ix2 r c) = lin (fun k => x0 (ix2 r k)) (fun k => x5 (ix2 c k)) (x7 (ix1 c)) := by
  have e1 : ∀ k : Fin 128, lidx_main_v2 (ix2 r c) k = ix2 r k := fun k => funext fun a => Fin.ext (by match a with | ⟨0, _⟩ => rfl | ⟨1, _⟩ => rfl)
  have e2 : ∀ k : Fin 128, idx_main_v1 (ridx_main_v2 (ix2 r c) k) = ix2 c k := fun k => funext fun a => Fin.ext (by match a with | ⟨0, _⟩ => rfl | ⟨1, _⟩ => rfl)
  have e3 : idx_main_v3 (idx_main_v4 (ix2 r c)) = ix1 c := funext fun a => Fin.ext (by match a with | ⟨0, _⟩ => rfl)
  rw [val_main_v5_apply, val_main_v2_apply, val_main_v4_apply, val_main_v3_apply]
  simp only [val_main_v1_apply, e1, e2, e3, Ideal.addf_def]
  rfl

/-- The joined row's affine reading at column c: the joined row against row c of the state weights, plus entry c of the bias. -/
theorem ghA_apply (x2 x4 : (⟨S100000x128, .f32⟩ : BufTy).Contents (Elt Ideal)) (x6 : (⟨S768x256, .f32⟩ : BufTy).Contents (Elt Ideal)) (x8 : (⟨S768, .f32⟩ : BufTy).Contents (Elt Ideal)) (r : Fin 100000) (c : Fin 768) :
    val_main_v10 (F := Ideal) x2 x4 x6 x8 (ix2 r c)
      = lin (cat (fun k => x2 (ix2 r k)) (fun k => x4 (ix2 r k))) (fun k => x6 (ix2 c k)) (x8 (ix1 c)) := by
  have e1 : ∀ k : Fin 256, lidx_main_v7 (ix2 r c) k = ix2 r k := fun k => funext fun a => Fin.ext (by match a with | ⟨0, _⟩ => rfl | ⟨1, _⟩ => rfl)
  have e2 : ∀ k : Fin 256, idx_main_v6 (ridx_main_v7 (ix2 r c) k) = ix2 c k := fun k => funext fun a => Fin.ext (by match a with | ⟨0, _⟩ => rfl | ⟨1, _⟩ => rfl)
  have e3 : idx_main_v8 (idx_main_v9 (ix2 r c)) = ix1 c := funext fun a => Fin.ext (by match a with | ⟨0, _⟩ => rfl)
  rw [val_main_v10_apply, val_main_v7_apply, val_main_v9_apply, val_main_v8_apply]
  simp only [val_main_v6_apply, e1, e2, e3, hpA_apply, Ideal.addf_def]
  rfl

/-- Row r, column j of the new state is the cell of `cellRef`: the three gates are the columns j, 256 + j and 512 + j of the
    two affine readings. -/
theorem ref_stateA (x0 x2 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (r : Fin 100000) (j : Fin 256) :
    val_main_v38 (F := Ideal) x0 x2 x4 x5 x6 x7 x8 (ix2 r j)
      = cellRef (fun k => x0 (ix2 r k)) (cat (fun k => x2 (ix2 r k)) (fun k => x4 (ix2 r k))) (fun a k => x5 (ix2 a k))
          (fun a k => x6 (ix2 a k)) (fun a => x7 (ix1 a)) (fun a => x8 (ix1 a)) j := by
  have s11 : idx_main_v11 (ix2 r j) = ix2 r (lo j) := funext fun a => Fin.ext (by match a with | ⟨0, _⟩ => rfl | ⟨1, _⟩ => rfl)
  have s12 : idx_main_v12 (ix2 r j) = ix2 r (mid j) := funext fun a => Fin.ext (by match a with | ⟨0, _⟩ => rfl | ⟨1, _⟩ => rfl)
  have s13 : idx_main_v13 (ix2 r j) = ix2 r (hi j) := funext fun a => Fin.ext (by match a with | ⟨0, _⟩ => rfl | ⟨1, _⟩ => rfl)
  have s14 : idx_main_v14 (ix2 r j) = ix2 r (lo j) := funext fun a => Fin.ext (by match a with | ⟨0, _⟩ => rfl | ⟨1, _⟩ => rfl)
  have s15 : idx_main_v15 (ix2 r j) = ix2 r (mid j) := funext fun a => Fin.ext (by match a with | ⟨0, _⟩ => rfl | ⟨1, _⟩ => rfl)
  have s16 : idx_main_v16 (ix2 r j) = ix2 r (hi j) := funext fun a => Fin.ext (by match a with | ⟨0, _⟩ => rfl | ⟨1, _⟩ => rfl)
  simp only [val_main_v38_apply, val_main_v37_apply, val_main_v36_apply, val_main_v35_apply, val_main_v34_apply, val_main_cst_3_apply, val_main_v33_apply, val_main_v32_apply, val_main_v31_apply, val_main_v30_apply, val_main_v29_apply, val_main_cst_2_apply, val_main_v28_apply, val_main_v27_apply, val_main_cst_1_apply,
    val_main_v26_apply, val_main_v25_apply, val_main_v24_apply, val_main_v23_apply, val_main_v22_apply, val_main_cst_0_apply, val_main_v21_apply, val_main_v20_apply, val_main_cst_apply, val_main_v19_apply, val_main_v18_apply, val_main_v17_apply, val_main_v16_apply, val_main_v15_apply, val_main_v14_apply, val_main_v13_apply, val_main_v12_apply, val_main_v11_apply,
    s11, s12, s13, s14, s15, s16, giA_apply, ghA_apply, hpA_apply,
    Ideal.addf_def, Ideal.subf_def, Ideal.mulf_def, Ideal.hostDivf_def, Ideal.hostNegf_def, Ideal.negf_def,
    Ideal.hostUnary_exp_def, Ideal.hostUnary_tanh_def, Ideal.ofBits_def]
  rfl

/-- The joined row: the state beside the encoding. -/
theorem hpF_apply (x3 x4 : (⟨S100000x128, .f32⟩ : BufTy).Contents (Elt Ideal)) (r : Fin 100000) (k : Fin 256) :
    val_main_v39 (F := Ideal) x3 x4 (ix2 r k) = cat (fun k => x3 (ix2 r k)) (fun k => x4 (ix2 r k)) k :=
  joined x3 x4 r k

/-- The input row's affine reading at column c: the row against row c of the input weights, plus entry c of the bias. -/
theorem giF_apply (x1 : (⟨S100000x128, .f32⟩ : BufTy).Contents (Elt Ideal)) (x9 : (⟨S768x128, .f32⟩ : BufTy).Contents (Elt Ideal)) (x11 : (⟨S768, .f32⟩ : BufTy).Contents (Elt Ideal)) (r : Fin 100000) (c : Fin 768) :
    val_main_v44 (F := Ideal) x1 x9 x11 (ix2 r c) = lin (fun k => x1 (ix2 r k)) (fun k => x9 (ix2 c k)) (x11 (ix1 c)) := by
  have e1 : ∀ k : Fin 128, lidx_main_v41 (ix2 r c) k = ix2 r k := fun k => funext fun a => Fin.ext (by match a with | ⟨0, _⟩ => rfl | ⟨1, _⟩ => rfl)
  have e2 : ∀ k : Fin 128, idx_main_v40 (ridx_main_v41 (ix2 r c) k) = ix2 c k := fun k => funext fun a => Fin.ext (by match a with | ⟨0, _⟩ => rfl | ⟨1, _⟩ => rfl)
  have e3 : idx_main_v42 (idx_main_v43 (ix2 r c)) = ix1 c := funext fun a => Fin.ext (by match a with | ⟨0, _⟩ => rfl)
  rw [val_main_v44_apply, val_main_v41_apply, val_main_v43_apply, val_main_v42_apply]
  simp only [val_main_v40_apply, e1, e2, e3, Ideal.addf_def]
  rfl

/-- The joined row's affine reading at column c: the joined row against row c of the state weights, plus entry c of the bias. -/
theorem ghF_apply (x3 x4 : (⟨S100000x128, .f32⟩ : BufTy).Contents (Elt Ideal)) (x10 : (⟨S768x256, .f32⟩ : BufTy).Contents (Elt Ideal)) (x12 : (⟨S768, .f32⟩ : BufTy).Contents (Elt Ideal)) (r : Fin 100000) (c : Fin 768) :
    val_main_v49 (F := Ideal) x3 x4 x10 x12 (ix2 r c)
      = lin (cat (fun k => x3 (ix2 r k)) (fun k => x4 (ix2 r k))) (fun k => x10 (ix2 c k)) (x12 (ix1 c)) := by
  have e1 : ∀ k : Fin 256, lidx_main_v46 (ix2 r c) k = ix2 r k := fun k => funext fun a => Fin.ext (by match a with | ⟨0, _⟩ => rfl | ⟨1, _⟩ => rfl)
  have e2 : ∀ k : Fin 256, idx_main_v45 (ridx_main_v46 (ix2 r c) k) = ix2 c k := fun k => funext fun a => Fin.ext (by match a with | ⟨0, _⟩ => rfl | ⟨1, _⟩ => rfl)
  have e3 : idx_main_v47 (idx_main_v48 (ix2 r c)) = ix1 c := funext fun a => Fin.ext (by match a with | ⟨0, _⟩ => rfl)
  rw [val_main_v49_apply, val_main_v46_apply, val_main_v48_apply, val_main_v47_apply]
  simp only [val_main_v45_apply, e1, e2, e3, hpF_apply, Ideal.addf_def]
  rfl

/-- Row r, column j of the new state is the cell of `cellRef`: the three gates are the columns j, 256 + j and 512 + j of the
    two affine readings. -/
theorem ref_stateF (x1 x3 x4 : (⟨S100000x128, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (r : Fin 100000) (j : Fin 256) :
    val_main_v77 (F := Ideal) x1 x3 x4 x9 x10 x11 x12 (ix2 r j)
      = cellRef (fun k => x1 (ix2 r k)) (cat (fun k => x3 (ix2 r k)) (fun k => x4 (ix2 r k))) (fun a k => x9 (ix2 a k))
          (fun a k => x10 (ix2 a k)) (fun a => x11 (ix1 a)) (fun a => x12 (ix1 a)) j := by
  have s11 : idx_main_v50 (ix2 r j) = ix2 r (lo j) := funext fun a => Fin.ext (by match a with | ⟨0, _⟩ => rfl | ⟨1, _⟩ => rfl)
  have s12 : idx_main_v51 (ix2 r j) = ix2 r (mid j) := funext fun a => Fin.ext (by match a with | ⟨0, _⟩ => rfl | ⟨1, _⟩ => rfl)
  have s13 : idx_main_v52 (ix2 r j) = ix2 r (hi j) := funext fun a => Fin.ext (by match a with | ⟨0, _⟩ => rfl | ⟨1, _⟩ => rfl)
  have s14 : idx_main_v53 (ix2 r j) = ix2 r (lo j) := funext fun a => Fin.ext (by match a with | ⟨0, _⟩ => rfl | ⟨1, _⟩ => rfl)
  have s15 : idx_main_v54 (ix2 r j) = ix2 r (mid j) := funext fun a => Fin.ext (by match a with | ⟨0, _⟩ => rfl | ⟨1, _⟩ => rfl)
  have s16 : idx_main_v55 (ix2 r j) = ix2 r (hi j) := funext fun a => Fin.ext (by match a with | ⟨0, _⟩ => rfl | ⟨1, _⟩ => rfl)
  simp only [val_main_v77_apply, val_main_v76_apply, val_main_v75_apply, val_main_v74_apply, val_main_v73_apply, val_main_cst_8_apply, val_main_v72_apply, val_main_v71_apply, val_main_v70_apply, val_main_v69_apply, val_main_v68_apply, val_main_cst_7_apply, val_main_v67_apply, val_main_v66_apply, val_main_cst_6_apply,
    val_main_v65_apply, val_main_v64_apply, val_main_v63_apply, val_main_v62_apply, val_main_v61_apply, val_main_cst_5_apply, val_main_v60_apply, val_main_v59_apply, val_main_cst_4_apply, val_main_v58_apply, val_main_v57_apply, val_main_v56_apply, val_main_v55_apply, val_main_v54_apply, val_main_v53_apply, val_main_v52_apply, val_main_v51_apply, val_main_v50_apply,
    s11, s12, s13, s14, s15, s16, giF_apply, ghF_apply, hpF_apply,
    Ideal.addf_def, Ideal.subf_def, Ideal.mulf_def, Ideal.hostDivf_def, Ideal.hostNegf_def, Ideal.negf_def,
    Ideal.hostUnary_exp_def, Ideal.hostUnary_tanh_def, Ideal.ofBits_def]
  rfl

/-- Two one-column arrays side by side, read at row r and column q: the left one at column 0, the right one at column 1. -/
theorem joined2 (ya yb : (⟨S100000x1, .f32⟩ : BufTy).Contents (Elt Ideal)) (r : Fin 100000) (q : Fin 2) :
    concatenate S100000x2 1 [⟨S100000x1, ya⟩, ⟨S100000x1, yb⟩] concatenates_S100000x1_S100000x1_S100000x2_d1 (ix2 r q)
      = if q.val = 0 then ya (ix2 r (0 : Fin 1)) else yb (ix2 r (0 : Fin 1)) := by
  by_cases hq : q.val = 0
  · rw [if_pos hq]
    exact concatenate_pair_apply_left 1 ya yb _ (ix2 r q) rfl (ix2 r (0 : Fin 1))
      (fun b => match b with | ⟨0, _⟩ => rfl | ⟨1, _⟩ => by show (0 : Fin 1).val = q.val; rw [hq]; rfl)
  · rw [if_neg hq]
    exact concatenate_pair_apply_right 1 ya yb _ (ix2 r q) rfl rfl (ix2 r (0 : Fin 1))
      (fun b => match b with | ⟨0, _⟩ => fun _ => rfl | ⟨1, _⟩ => fun h => absurd rfl h)
      (by show (0 : Fin 1).val + 1 = q.val; have h2 := q.isLt; have h0 : (0 : Fin 1).val = 0 := rfl; omega)

/-- The first probability at row r: the logistic function, spelt out, of the first state against the one weight row plus the
    one bias. -/
theorem probA_apply (x0 x2 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x13 : (⟨S1x256, .f32⟩ : BufTy).Contents (Elt Ideal)) (x14 : (⟨S1, .f32⟩ : BufTy).Contents (Elt Ideal)) (r : Fin 100000) :
    val_main_v88 (F := Ideal) x0 x2 x4 x5 x6 x7 x8 x13 x14 (ix2 r (0 : Fin 1))
      = sigm (lin (cellRef (fun k => x0 (ix2 r k)) (cat (fun k => x2 (ix2 r k)) (fun k => x4 (ix2 r k))) (fun a k => x5 (ix2 a k)) (fun a k => x6 (ix2 a k)) (fun a => x7 (ix1 a)) (fun a => x8 (ix1 a))) (fun k => x13 (ix2 (0 : Fin 1) k)) (x14 (ix1 (0 : Fin 1)))) := by
  have e1 : ∀ k : Fin 256, lidx_main_v79 (ix2 r (0 : Fin 1)) k = ix2 r k := fun k => funext fun a => Fin.ext (by match a with | ⟨0, _⟩ => rfl | ⟨1, _⟩ => rfl)
  have e2 : ∀ k : Fin 256, idx_main_v78 (ridx_main_v79 (ix2 r (0 : Fin 1)) k) = ix2 (0 : Fin 1) k := fun k => funext fun a => Fin.ext (by match a with | ⟨0, _⟩ => rfl | ⟨1, _⟩ => rfl)
  have e3 : idx_main_v80 (idx_main_v81 (ix2 r (0 : Fin 1))) = ix1 (0 : Fin 1) := funext fun a => Fin.ext (by match a with | ⟨0, _⟩ => rfl)
  rw [val_main_v88_apply, val_main_v87_apply, val_main_cst_10_apply, val_main_v86_apply, val_main_v85_apply, val_main_cst_9_apply,
    val_main_v84_apply, val_main_v83_apply, val_main_v82_apply, val_main_v79_apply, val_main_v81_apply, val_main_v80_apply]
  simp only [val_main_v78_apply, e1, e2, e3, ref_stateA, Ideal.addf_def, Ideal.hostDivf_def, Ideal.hostNegf_def, Ideal.negf_def,
    Ideal.hostUnary_exp_def, Ideal.ofBits_def]
  rfl

/-- The second probability at row r: the logistic function, spelt out, of the second state against the one weight row plus the
    one bias. -/
theorem probF_apply (x1 x3 x4 : (⟨S100000x128, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (x15 : (⟨S1x256, .f32⟩ : BufTy).Contents (Elt Ideal)) (x16 : (⟨S1, .f32⟩ : BufTy).Contents (Elt Ideal)) (r : Fin 100000) :
    val_main_v99 (F := Ideal) x1 x3 x4 x9 x10 x11 x12 x15 x16 (ix2 r (0 : Fin 1))
      = sigm (lin (cellRef (fun k => x1 (ix2 r k)) (cat (fun k => x3 (ix2 r k)) (fun k => x4 (ix2 r k))) (fun a k => x9 (ix2 a k)) (fun a k => x10 (ix2 a k)) (fun a => x11 (ix1 a)) (fun a => x12 (ix1 a))) (fun k => x15 (ix2 (0 : Fin 1) k)) (x16 (ix1 (0 : Fin 1)))) := by
  have e1 : ∀ k : Fin 256, lidx_main_v90 (ix2 r (0 : Fin 1)) k = ix2 r k := fun k => funext fun a => Fin.ext (by match a with | ⟨0, _⟩ => rfl | ⟨1, _⟩ => rfl)
  have e2 : ∀ k : Fin 256, idx_main_v89 (ridx_main_v90 (ix2 r (0 : Fin 1)) k) = ix2 (0 : Fin 1) k := fun k => funext fun a => Fin.ext (by match a with | ⟨0, _⟩ => rfl | ⟨1, _⟩ => rfl)
  have e3 : idx_main_v91 (idx_main_v92 (ix2 r (0 : Fin 1))) = ix1 (0 : Fin 1) := funext fun a => Fin.ext (by match a with | ⟨0, _⟩ => rfl)
  rw [val_main_v99_apply, val_main_v98_apply, val_main_cst_12_apply, val_main_v97_apply, val_main_v96_apply, val_main_cst_11_apply,
    val_main_v95_apply, val_main_v94_apply, val_main_v93_apply, val_main_v90_apply, val_main_v92_apply, val_main_v91_apply]
  simp only [val_main_v89_apply, e1, e2, e3, ref_stateF, Ideal.addf_def, Ideal.hostDivf_def, Ideal.hostNegf_def, Ideal.negf_def,
    Ideal.hostUnary_exp_def, Ideal.ofBits_def]
  rfl

/-- Entry (r, q) of the first result: the hyperbolic tangent of both states against their weight rows q, the two biases added
    one after the other. -/
theorem ref_h (x0 x1 x2 x3 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (x13 : (⟨S1x256, .f32⟩ : BufTy).Contents (Elt Ideal)) (x14 : (⟨S1, .f32⟩ : BufTy).Contents (Elt Ideal)) (x15 : (⟨S1x256, .f32⟩ : BufTy).Contents (Elt Ideal)) (x16 : (⟨S1, .f32⟩ : BufTy).Contents (Elt Ideal)) (x17 : (⟨S128x256, .f32⟩ : BufTy).Contents (Elt Ideal)) (x18 : (⟨S128, .f32⟩ : BufTy).Contents (Elt Ideal)) (x19 : (⟨S128x256, .f32⟩ : BufTy).Contents (Elt Ideal)) (x20 : (⟨S128, .f32⟩ : BufTy).Contents (Elt Ideal)) (r : Fin 100000) (q : Fin 128) :
    val_main_v111 (F := Ideal) x0 x1 x2 x3 x4 x5 x6 x7 x8 x9 x10 x11 x12 x17 x18 x19 x20 (ix2 r q) = outH (argsOf x0 x1 x2 x3 x4 x5 x6 x7 x8 x9 x10 x11 x12 x13 x14 x15 x16 x17 x18 x19 x20) r q := by
  have e1 : ∀ k : Fin 256, lidx_main_v101 (ix2 r q) k = ix2 r k := fun k => funext fun a => Fin.ext (by match a with | ⟨0, _⟩ => rfl | ⟨1, _⟩ => rfl)
  have e2 : ∀ k : Fin 256, idx_main_v100 (ridx_main_v101 (ix2 r q) k) = ix2 q k := fun k => funext fun a => Fin.ext (by match a with | ⟨0, _⟩ => rfl | ⟨1, _⟩ => rfl)
  have e3 : idx_main_v102 (idx_main_v103 (ix2 r q)) = ix1 q := funext fun a => Fin.ext (by match a with | ⟨0, _⟩ => rfl)
  have e4 : ∀ k : Fin 256, lidx_main_v106 (ix2 r q) k = ix2 r k := fun k => funext fun a => Fin.ext (by match a with | ⟨0, _⟩ => rfl | ⟨1, _⟩ => rfl)
  have e5 : ∀ k : Fin 256, idx_main_v105 (ridx_main_v106 (ix2 r q) k) = ix2 q k := fun k => funext fun a => Fin.ext (by match a with | ⟨0, _⟩ => rfl | ⟨1, _⟩ => rfl)
  have e6 : idx_main_v108 (idx_main_v109 (ix2 r q)) = ix1 q := funext fun a => Fin.ext (by match a with | ⟨0, _⟩ => rfl)
  rw [val_main_v111_apply, val_main_v110_apply, val_main_v107_apply, val_main_v104_apply, val_main_v101_apply, val_main_v106_apply,
    val_main_v103_apply, val_main_v102_apply, val_main_v109_apply, val_main_v108_apply]
  simp only [val_main_v100_apply, val_main_v105_apply, e1, e2, e3, e4, e5, e6, ref_stateA, ref_stateF, Ideal.addf_def,
    Ideal.hostUnary_tanh_def]
  rfl

/-- Entry (r, q) of the second result: the first probability at q = 0, the second at q = 1. -/
theorem ref_p (x0 x1 x2 x3 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (x13 : (⟨S1x256, .f32⟩ : BufTy).Contents (Elt Ideal)) (x14 : (⟨S1, .f32⟩ : BufTy).Contents (Elt Ideal)) (x15 : (⟨S1x256, .f32⟩ : BufTy).Contents (Elt Ideal)) (x16 : (⟨S1, .f32⟩ : BufTy).Contents (Elt Ideal)) (x17 : (⟨S128x256, .f32⟩ : BufTy).Contents (Elt Ideal)) (x18 : (⟨S128, .f32⟩ : BufTy).Contents (Elt Ideal)) (x19 : (⟨S128x256, .f32⟩ : BufTy).Contents (Elt Ideal)) (x20 : (⟨S128, .f32⟩ : BufTy).Contents (Elt Ideal)) (r : Fin 100000) (q : Fin 2) :
    val_main_v112 (F := Ideal) x0 x1 x2 x3 x4 x5 x6 x7 x8 x9 x10 x11 x12 x13 x14 x15 x16 (ix2 r q) = outP (argsOf x0 x1 x2 x3 x4 x5 x6 x7 x8 x9 x10 x11 x12 x13 x14 x15 x16 x17 x18 x19 x20) r q := by
  refine (joined2 (val_main_v88 (F := Ideal) x0 x2 x4 x5 x6 x7 x8 x13 x14) (val_main_v99 (F := Ideal) x1 x3 x4 x9 x10 x11 x12 x15 x16) r q).trans ?_
  rw [probA_apply, probF_apply]
  rfl

/-- The first result is the array of `GH`. -/
theorem ref_H (x0 x1 x2 x3 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (x13 : (⟨S1x256, .f32⟩ : BufTy).Contents (Elt Ideal)) (x14 : (⟨S1, .f32⟩ : BufTy).Contents (Elt Ideal)) (x15 : (⟨S1x256, .f32⟩ : BufTy).Contents (Elt Ideal)) (x16 : (⟨S1, .f32⟩ : BufTy).Contents (Elt Ideal)) (x17 : (⟨S128x256, .f32⟩ : BufTy).Contents (Elt Ideal)) (x18 : (⟨S128, .f32⟩ : BufTy).Contents (Elt Ideal)) (x19 : (⟨S128x256, .f32⟩ : BufTy).Contents (Elt Ideal)) (x20 : (⟨S128, .f32⟩ : BufTy).Contents (Elt Ideal)) :
    val_main_v111 (F := Ideal) x0 x1 x2 x3 x4 x5 x6 x7 x8 x9 x10 x11 x12 x17 x18 x19 x20 = GH (argsOf x0 x1 x2 x3 x4 x5 x6 x7 x8 x9 x10 x11 x12 x13 x14 x15 x16 x17 x18 x19 x20) := by
  funext i
  rw [eq_ix2 i]
  exact ref_h x0 x1 x2 x3 x4 x5 x6 x7 x8 x9 x10 x11 x12 x13 x14 x15 x16 x17 x18 x19 x20 (i 0) (i 1)

/-- The second result is the array of `GP`. -/
theorem ref_P (x0 x1 x2 x3 x4 : (⟨S100000x128, .f32⟩ : BufTy).Contents (Elt Ideal)) (x5 : (⟨S768x128, .f32⟩ : BufTy).Contents (Elt Ideal)) (x6 : (⟨S768x256, .f32⟩ : BufTy).Contents (Elt Ideal)) (x7 x8 : (⟨S768, .f32⟩ : BufTy).Contents (Elt Ideal)) (x9 : (⟨S768x128, .f32⟩ : BufTy).Contents (Elt Ideal)) (x10 : (⟨S768x256, .f32⟩ : BufTy).Contents (Elt Ideal)) (x11 x12 : (⟨S768, .f32⟩ : BufTy).Contents (Elt Ideal)) (x13 : (⟨S1x256, .f32⟩ : BufTy).Contents (Elt Ideal)) (x14 : (⟨S1, .f32⟩ : BufTy).Contents (Elt Ideal)) (x15 : (⟨S1x256, .f32⟩ : BufTy).Contents (Elt Ideal)) (x16 : (⟨S1, .f32⟩ : BufTy).Contents (Elt Ideal)) (x17 : (⟨S128x256, .f32⟩ : BufTy).Contents (Elt Ideal)) (x18 : (⟨S128, .f32⟩ : BufTy).Contents (Elt Ideal)) (x19 : (⟨S128x256, .f32⟩ : BufTy).Contents (Elt Ideal)) (x20 : (⟨S128, .f32⟩ : BufTy).Contents (Elt Ideal)) :
    val_main_v112 (F := Ideal) x0 x1 x2 x3 x4 x5 x6 x7 x8 x9 x10 x11 x12 x13 x14 x15 x16 = GP (argsOf x0 x1 x2 x3 x4 x5 x6 x7 x8 x9 x10 x11 x12 x13 x14 x15 x16 x17 x18 x19 x20) := by
  funext i
  rw [eq_ix2 i]
  exact ref_p x0 x1 x2 x3 x4 x5 x6 x7 x8 x9 x10 x11 x12 x13 x14 x15 x16 x17 x18 x19 x20 (i 0) (i 1)

end Cert.GruPair.Ref

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.BodyRead.lean ====
/-
  The block computation read at coordinates.

  One grid point works on 2000 rows. Its arithmetic, as one pure term of the blocks it loads, is read here entry by
  entry: row p of the joined input [x, h] against the joined weights gives the first two gates' readings, the third
  gate's candidate is a hyperbolic tangent of two affine readings, and the new state at (p, j) is the cell in its
  second form (Cert.GruPair.cellKer) of row p of the loaded blocks. The two heads are then sums over the 256 state
  entries of row p.
-/
import proofs.«133639_g47399259079245_cont_8to1c4_90_11_alg».proof.Proof.Gen.KernelIdeal.Skeleton
import proofs.«133639_g47399259079245_cont_8to1c4_90_11_alg».proof.Proof.GruAlgebra
import proofs.«133639_g47399259079245_cont_8to1c4_90_11_alg».proof.Proof.LibPlainDot
import proofs.«133639_g47399259079245_cont_8to1c4_90_11_alg».proof.Proof.LibColsCut
import proofs.«133639_g47399259079245_cont_8to1c4_90_11_alg».proof.Proof.LibRows
import proofs.«133639_g47399259079245_cont_8to1c4_90_11_alg».proof.Proof.LibLayout
import proofs.«133639_g47399259079245_cont_8to1c4_90_11_alg».proof.Proof.LibColsJoin
import Idealize.ShloMosaic.Lib.Pipeline.Value
import Idealize.ShloMosaic.Lib.ValueIdx
import Idealize.ShloMosaic.PureOps.Ideal.Laws

noncomputable section

namespace Cert.GruPair.Body

open Idealize.ShloMosaic Idealize.ShloMosaic.ValueIdx
open scoped BigOperators

/-! ## Layout operations on blocks of 2000 rows -/

/-- A row [1, n] repeated over 2000 rows reads, at (p, j), the row's entry j. -/
theorem bcast_row {n : ℕ} (hn : n ≠ 1) (b : (⟨2, ![1, n]⟩ : Shape).Idx → EReal)
    (h : (⟨2, ![1, n]⟩ : Shape).Broadcasts ⟨2, ![2000, n]⟩) (p : Fin 2000) (j : Fin n) :
    broadcastTo ⟨2, ![2000, n]⟩ b h (ix2 p j) = b (ix2 (0 : Fin 1) j) :=
  Cert.LibColsJoin.bcast_row hn b h p j

/-- Two blocks side by side: a column of the left part. -/
theorem cat_cols_left {a b n : ℕ} (x : (⟨2, ![2000, a]⟩ : Shape).Idx → EReal) (y : (⟨2, ![2000, b]⟩ : Shape).Idx → EReal)
    (h : Shape.Concatenates [⟨2, ![2000, a]⟩, ⟨2, ![2000, b]⟩] ⟨2, ![2000, n]⟩ 1) (p : Fin 2000) (k : Fin a) (k' : Fin n)
    (hk : k'.val = k.val) :
    concatenate ⟨2, ![2000, n]⟩ 1 [⟨⟨2, ![2000, a]⟩, x⟩, ⟨⟨2, ![2000, b]⟩, y⟩] h (ix2 p k') = x (ix2 p k) :=
  Cert.LibColsJoin.cat_cols_left x y h p k k' hk

/-- Two blocks side by side: a column of the right part. -/
theorem cat_cols_right {a b n : ℕ} (x : (⟨2, ![2000, a]⟩ : Shape).Idx → EReal) (y : (⟨2, ![2000, b]⟩ : Shape).Idx → EReal)
    (h : Shape.Concatenates [⟨2, ![2000, a]⟩, ⟨2, ![2000, b]⟩] ⟨2, ![2000, n]⟩ 1) (p : Fin 2000) (k : Fin b) (k' : Fin n)
    (hk : k'.val = a + k.val) :
    concatenate ⟨2, ![2000, n]⟩ 1 [⟨⟨2, ![2000, a]⟩, x⟩, ⟨⟨2, ![2000, b]⟩, y⟩] h (ix2 p k') = y (ix2 p k) :=
  Cert.LibColsJoin.cat_cols_right x y h p k k' hk

/-! ## The operations of one cell, at (p, j) -/

section ops

variable (x : FVec Ideal ⟨2, ![2000, 128]⟩ .f32) (h : FVec Ideal ⟨2, ![2000, 256]⟩ .f32)

/-- The first two gates: row p of the joined block against column j' of the joined weights, plus the joined bias,
    under the hyperbolic tangent. -/
theorem gates_read (w : FVec Ideal ⟨2, ![384, 512]⟩ .f32) (b : FVec Ideal ⟨2, ![1, 512]⟩ .f32)
    (d : DotDims ⟨2, ![2000, 384]⟩ ⟨2, ![384, 512]⟩ ⟨2, ![2000, 512]⟩)
    (hlc : d.lhsContracting = [1]) (hrc : d.rhsContracting = [0]) (hlb : d.lhsBatch = []) (hrb : d.rhsBatch = [])
    (hln : d.lhsNonContracting = [0]) (hrn : d.rhsNonContracting = [1])
    (hc : Shape.Concatenates [⟨2, ![2000, 128]⟩, ⟨2, ![2000, 256]⟩] ⟨2, ![2000, 384]⟩ 1)
    (hw : (⟨2, ![384, 512]⟩ : Shape).ShapeCasts ⟨2, ![384, 512]⟩) (hb : (⟨2, ![1, 512]⟩ : Shape).ShapeCasts ⟨2, ![1, 512]⟩)
    (hbc : (⟨2, ![1, 512]⟩ : Shape).Broadcasts ⟨2, ![2000, 512]⟩) (p : Fin 2000) (j' : Fin 512) :
    tanh (addf (matmul d none (concatenate ⟨2, ![2000, 384]⟩ 1 [⟨⟨2, ![2000, 128]⟩, x⟩, ⟨⟨2, ![2000, 256]⟩, h⟩] hc)
        (shapeCast ⟨2, ![384, 512]⟩ w hw) (constant ⟨2, ![2000, 512]⟩ .f32 0x00000000#32))
      (broadcastTo ⟨2, ![2000, 512]⟩ (shapeCast ⟨2, ![1, 512]⟩ b hb) hbc)) (ix2 p j')
    = gates (fun k => concatenate ⟨2, ![2000, 384]⟩ 1 [⟨⟨2, ![2000, 128]⟩, x⟩, ⟨⟨2, ![2000, 256]⟩, h⟩] hc (ix2 p k))
        (fun k j => w (ix2 k j)) (fun j => b (ix2 (0 : Fin 1) j)) j' := by
  rw [shapeCast_self, shapeCast_self]
  unfold gates lin
  refine congrArg Ideal.tanh ?_
  refine congrArg₂ (· + ·) ?_ ?_
  · exact Cert.LibPlainDot.matmul_plain_apply d hlc hrc hlb hrb hln hrn none _ w p j'
  · exact bcast_row (by decide) b hbc p j'

/-- The third gate's candidate: tanh of the input reading plus the state reading times (first gate + 1). -/
theorem cand_read (T : FVec Ideal ⟨2, ![2000, 512]⟩ .f32)
    (wi : FVec Ideal ⟨2, ![128, 256]⟩ .f32) (wh : FVec Ideal ⟨2, ![256, 256]⟩ .f32) (bi bh : FVec Ideal ⟨2, ![1, 256]⟩ .f32)
    (d1 : DotDims ⟨2, ![2000, 128]⟩ ⟨2, ![128, 256]⟩ ⟨2, ![2000, 256]⟩)
    (h1lc : d1.lhsContracting = [1]) (h1rc : d1.rhsContracting = [0]) (h1lb : d1.lhsBatch = []) (h1rb : d1.rhsBatch = [])
    (h1ln : d1.lhsNonContracting = [0]) (h1rn : d1.rhsNonContracting = [1])
    (d2 : DotDims ⟨2, ![2000, 256]⟩ ⟨2, ![256, 256]⟩ ⟨2, ![2000, 256]⟩)
    (h2lc : d2.lhsContracting = [1]) (h2rc : d2.rhsContracting = [0]) (h2lb : d2.lhsBatch = []) (h2rb : d2.rhsBatch = [])
    (h2ln : d2.lhsNonContracting = [0]) (h2rn : d2.rhsNonContracting = [1])
    (hwi : (⟨2, ![128, 256]⟩ : Shape).ShapeCasts ⟨2, ![128, 256]⟩) (hwh : (⟨2, ![256, 256]⟩ : Shape).ShapeCasts ⟨2, ![256, 256]⟩)
    (hbi hbh : (⟨2, ![1, 256]⟩ : Shape).ShapeCasts ⟨2, ![1, 256]⟩)
    (hbc : (⟨2, ![1, 256]⟩ : Shape).Broadcasts ⟨2, ![2000, 256]⟩)
    (hs : (⟨2, ![2000, 512]⟩ : Shape).Slices ![0, 0] ⟨2, ![2000, 256]⟩) (p : Fin 2000) (j : Fin 256) :
    tanh (addf (addf (matmul d1 none x (shapeCast ⟨2, ![128, 256]⟩ wi hwi) (constant ⟨2, ![2000, 256]⟩ .f32 0x00000000#32))
          (broadcastTo ⟨2, ![2000, 256]⟩ (shapeCast ⟨2, ![1, 256]⟩ bi hbi) hbc))
        (mulf (addf (matmul d2 none h (shapeCast ⟨2, ![256, 256]⟩ wh hwh) (constant ⟨2, ![2000, 256]⟩ .f32 0x00000000#32))
            (broadcastTo ⟨2, ![2000, 256]⟩ (shapeCast ⟨2, ![1, 256]⟩ bh hbh) hbc))
          (addf (extractStridedSlice ⟨2, ![2000, 256]⟩ ![0, 0] T hs)
            (broadcast ⟨2, ![2000, 256]⟩ (Scalar.ofBits .f32 0x3F800000#32))))) (ix2 p j)
    = Ideal.tanh (lin (fun k => x (ix2 p k)) (fun k => wi (ix2 k j)) (bi (ix2 (0 : Fin 1) j))
        + lin (fun k => h (ix2 p k)) (fun k => wh (ix2 k j)) (bh (ix2 (0 : Fin 1) j))
          * (T (ix2 p ⟨j.val, by omega⟩) + one)) := by
  rw [shapeCast_self, shapeCast_self, shapeCast_self, shapeCast_self]
  unfold lin
  refine congrArg Ideal.tanh ?_
  refine congrArg₂ (· + ·) (congrArg₂ (· + ·) ?_ ?_) (congrArg₂ (· * ·) (congrArg₂ (· + ·) ?_ ?_) (congrArg₂ (· + ·) ?_ rfl))
  · exact Cert.LibPlainDot.matmul_plain_apply d1 h1lc h1rc h1lb h1rb h1ln h1rn none x wi p j
  · exact bcast_row (by decide) bi hbc p j
  · exact Cert.LibPlainDot.matmul_plain_apply d2 h2lc h2rc h2lb h2rb h2ln h2rn none h wh p j
  · exact bcast_row (by decide) bh hbc p j
  · exact Cert.LibColsCut.slice_cols 0 T hs p j ⟨j.val, by omega⟩ (by simp)

end ops

/-! ## The blocks' payloads -/

section payloads

open Cert.KernelIdeal Cert.KernelIdeal.Gen

variable (v0 v1 v2 : Vec Ideal S2000x128 .f32) (v3 : Vec Ideal S384x512 .f32) (v5 : Vec Ideal S128x256 .f32)
  (v7 : Vec Ideal S256x256 .f32) (v9 : Vec Ideal S1x512 .f32) (v11 v13 : Vec Ideal S1x256 .f32)

/-- The joined state row [h, e] at a column of h. -/
theorem state_left (p : Fin 2000) (k : Fin 128) : k0_pay1 v0 v2 (ix2 p (⟨k.val, by omega⟩ : Fin 256)) = v2 (ix2 p k) :=
  cat_cols_left v2 v0 concatenates_S2000x128_S2000x128_S2000x256_d1 p k _ rfl

/-- The joined state row [h, e] at a column of e. -/
theorem state_right (p : Fin 2000) (k : Fin 128) : k0_pay1 v0 v2 (ix2 p (⟨128 + k.val, by omega⟩ : Fin 256)) = v0 (ix2 p k) :=
  cat_cols_right v2 v0 concatenates_S2000x128_S2000x128_S2000x256_d1 p k _ rfl

/-- The joined row [x, h, e] of the first cell. -/
def joinedA (p : Fin 2000) (k : Fin 384) : EReal :=
  concatenate S2000x384 1 [⟨S2000x128, v1⟩, ⟨S2000x256, k0_pay1 v0 v2⟩] concatenates_S2000x128_S2000x256_S2000x384_d1 (ix2 p k)

theorem joinedA_left (p : Fin 2000) (k : Fin 128) : joinedA v0 v1 v2 p ⟨k.val, by omega⟩ = v1 (ix2 p k) :=
  cat_cols_left v1 (k0_pay1 v0 v2) concatenates_S2000x128_S2000x256_S2000x384_d1 p k _ rfl

theorem joinedA_right (p : Fin 2000) (k : Fin 256) : joinedA v0 v1 v2 p ⟨128 + k.val, by omega⟩ = k0_pay1 v0 v2 (ix2 p k) :=
  cat_cols_right v1 (k0_pay1 v0 v2) concatenates_S2000x128_S2000x256_S2000x384_d1 p k _ rfl

/-- The first cell's new state at (p, j): the cell in its second form on row p of the loaded blocks. -/
theorem stateA_read (p : Fin 2000) (j : Fin 256) :
    k0_pay5 (k0_pay1 v0 v2) (k0_pay3 v0 v1 v2 v3 v5 v7 v9 v11 v13) (k0_pay4 v0 v1 v2 v3 v9) (ix2 p j)
      = cellKer (fun k => v1 (ix2 p k)) (fun k => k0_pay1 v0 v2 (ix2 p k)) (joinedA v0 v1 v2 p)
          (fun k j' => v3 (ix2 k j')) (fun j' => v9 (ix2 (0 : Fin 1) j'))
          (fun k j => v5 (ix2 k j)) (fun j => v11 (ix2 (0 : Fin 1) j))
          (fun k j => v7 (ix2 k j)) (fun j => v13 (ix2 (0 : Fin 1) j)) j := by
  have hT : ∀ j' : Fin 512, k0_pay2 v0 v1 v2 v3 v9 (ix2 p j')
      = gates (joinedA v0 v1 v2 p) (fun k j' => v3 (ix2 k j')) (fun j' => v9 (ix2 (0 : Fin 1) j')) j' := fun j' =>
    gates_read v1 (k0_pay1 v0 v2) v3 v9 _ rfl rfl rfl rfl rfl rfl _ _ _ _ p j'
  have hn : k0_pay3 v0 v1 v2 v3 v5 v7 v9 v11 v13 (ix2 p j)
      = Ideal.tanh (lin (fun k => v1 (ix2 p k)) (fun k => v5 (ix2 k j)) (v11 (ix2 (0 : Fin 1) j))
        + lin (fun k => k0_pay1 v0 v2 (ix2 p k)) (fun k => v7 (ix2 k j)) (v13 (ix2 (0 : Fin 1) j))
          * (k0_pay2 v0 v1 v2 v3 v9 (ix2 p ⟨j.val, by omega⟩) + one)) :=
    cand_read v1 (k0_pay1 v0 v2) (k0_pay2 v0 v1 v2 v3 v9) v5 v7 v11 v13 _ rfl rfl rfl rfl rfl rfl _ rfl rfl rfl rfl rfl rfl
      _ _ _ _ _ _ p j
  have hz : k0_pay4 v0 v1 v2 v3 v9 (ix2 p j) = half * k0_pay2 v0 v1 v2 v3 v9 (ix2 p ⟨256 + j.val, by omega⟩) :=
    congrArg (half * ·) (Cert.LibColsCut.slice_cols 256 (k0_pay2 v0 v1 v2 v3 v9) slices_S2000x512_o0_256_S2000x256 p j ⟨256 + j.val, by omega⟩ rfl)
  unfold cellKer
  show k0_pay3 v0 v1 v2 v3 v5 v7 v9 v11 v13 (ix2 p j)
      + (k0_pay4 v0 v1 v2 v3 v9 (ix2 p j) + half) * (k0_pay1 v0 v2 (ix2 p j) - k0_pay3 v0 v1 v2 v3 v5 v7 v9 v11 v13 (ix2 p j)) = _
  rw [hz, hn, hT, hT]

end payloads

section payloads2

open Cert.KernelIdeal Cert.KernelIdeal.Gen

variable (v0 v41 v42 : Vec Ideal S2000x128 .f32) (v43 : Vec Ideal S384x512 .f32) (v45 : Vec Ideal S128x256 .f32)
  (v47 : Vec Ideal S256x256 .f32) (v49 : Vec Ideal S1x512 .f32) (v51 v53 : Vec Ideal S1x256 .f32)

/-- The second cell's joined state row [h, e] at a column of h. -/
theorem stateF_left (p : Fin 2000) (k : Fin 128) : k0_pay6 v0 v42 (ix2 p (⟨k.val, by omega⟩ : Fin 256)) = v42 (ix2 p k) :=
  cat_cols_left v42 v0 concatenates_S2000x128_S2000x128_S2000x256_d1 p k _ rfl

/-- The second cell's joined state row [h, e] at a column of e. -/
theorem stateF_right (p : Fin 2000) (k : Fin 128) : k0_pay6 v0 v42 (ix2 p (⟨128 + k.val, by omega⟩ : Fin 256)) = v0 (ix2 p k) :=
  cat_cols_right v42 v0 concatenates_S2000x128_S2000x128_S2000x256_d1 p k _ rfl

/-- The joined row [x, h, e] of the second cell. -/
def joinedF (p : Fin 2000) (k : Fin 384) : EReal :=
  concatenate S2000x384 1 [⟨S2000x128, v41⟩, ⟨S2000x256, k0_pay6 v0 v42⟩] concatenates_S2000x128_S2000x256_S2000x384_d1 (ix2 p k)

theorem joinedF_left (p : Fin 2000) (k : Fin 128) : joinedF v0 v41 v42 p ⟨k.val, by omega⟩ = v41 (ix2 p k) :=
  cat_cols_left v41 (k0_pay6 v0 v42) concatenates_S2000x128_S2000x256_S2000x384_d1 p k _ rfl

theorem joinedF_right (p : Fin 2000) (k : Fin 256) : joinedF v0 v41 v42 p ⟨128 + k.val, by omega⟩ = k0_pay6 v0 v42 (ix2 p k) :=
  cat_cols_right v41 (k0_pay6 v0 v42) concatenates_S2000x128_S2000x256_S2000x384_d1 p k _ rfl

/-- The second cell's new state at (p, j): the cell in its second form on row p of the loaded blocks. -/
theorem stateF_read (p : Fin 2000) (j : Fin 256) :
    k0_pay10 (k0_pay6 v0 v42) (k0_pay8 v0 v41 v42 v43 v45 v47 v49 v51 v53) (k0_pay9 v0 v41 v42 v43 v49)
        (Scalar.ofBits .f32 0x3F000000#32) (ix2 p j)
      = cellKer (fun k => v41 (ix2 p k)) (fun k => k0_pay6 v0 v42 (ix2 p k)) (joinedF v0 v41 v42 p)
          (fun k j' => v43 (ix2 k j')) (fun j' => v49 (ix2 (0 : Fin 1) j'))
          (fun k j => v45 (ix2 k j)) (fun j => v51 (ix2 (0 : Fin 1) j))
          (fun k j => v47 (ix2 k j)) (fun j => v53 (ix2 (0 : Fin 1) j)) j := by
  have hT : ∀ j' : Fin 512, k0_pay7 v0 v41 v42 v43 v49 (ix2 p j')
      = gates (joinedF v0 v41 v42 p) (fun k j' => v43 (ix2 k j')) (fun j' => v49 (ix2 (0 : Fin 1) j')) j' := fun j' =>
    gates_read v41 (k0_pay6 v0 v42) v43 v49 _ rfl rfl rfl rfl rfl rfl _ _ _ _ p j'
  have hn : k0_pay8 v0 v41 v42 v43 v45 v47 v49 v51 v53 (ix2 p j)
      = Ideal.tanh (lin (fun k => v41 (ix2 p k)) (fun k => v45 (ix2 k j)) (v51 (ix2 (0 : Fin 1) j))
        + lin (fun k => k0_pay6 v0 v42 (ix2 p k)) (fun k => v47 (ix2 k j)) (v53 (ix2 (0 : Fin 1) j))
          * (k0_pay7 v0 v41 v42 v43 v49 (ix2 p ⟨j.val, by omega⟩) + one)) :=
    cand_read v41 (k0_pay6 v0 v42) (k0_pay7 v0 v41 v42 v43 v49) v45 v47 v51 v53 _ rfl rfl rfl rfl rfl rfl _ rfl rfl rfl rfl rfl rfl
      _ _ _ _ _ _ p j
  have hz : k0_pay9 v0 v41 v42 v43 v49 (ix2 p j) = k0_pay7 v0 v41 v42 v43 v49 (ix2 p ⟨256 + j.val, by omega⟩) :=
    Cert.LibColsCut.slice_cols 256 (k0_pay7 v0 v41 v42 v43 v49) slices_S2000x512_o0_256_S2000x256 p j ⟨256 + j.val, by omega⟩ rfl
  unfold cellKer
  show k0_pay8 v0 v41 v42 v43 v45 v47 v49 v51 v53 (ix2 p j)
      + (half * k0_pay9 v0 v41 v42 v43 v49 (ix2 p j) + half)
        * (k0_pay6 v0 v42 (ix2 p j) - k0_pay8 v0 v41 v42 v43 v45 v47 v49 v51 v53 (ix2 p j)) = _
  rw [hz, hn, hT, hT]

end payloads2

/-! ## The two heads, at (p, q) -/

section heads

open Cert.KernelIdeal Cert.KernelIdeal.Gen

variable (ha v55 v72 v73 : FVec Ideal S2000x256 .f32) (cst : Ideal .f32)

/-- The state head: both states of row p against column q of their weights, plus the joint bias, under tanh. -/
theorem headH_read (v81 v84 : Vec Ideal S256x128 .f32) (v88 : Vec Ideal S1x128 .f32) (p : Fin 2000) (q : Fin 128) :
    k0_pay11 ha v55 v72 v73 cst v81 v84 v88 (ix2 p q)
      = headKer (fun k => ha (ix2 p k)) (fun k => k0_pay10 v55 v72 v73 cst (ix2 p k))
          (fun k q => v81 (ix2 k q)) (fun k q => v84 (ix2 k q)) (fun q => v88 (ix2 (0 : Fin 1) q)) q := by
  unfold headKer k0_pay11
  rw [shapeCast_self, shapeCast_self, shapeCast_self]
  refine congrArg Ideal.tanh ?_
  refine congrArg₂ (· + ·) (congrArg₂ (· + ·) ?_ ?_) ?_
  · exact Cert.LibPlainDot.matmul_plain_apply _ rfl rfl rfl rfl rfl rfl none ha v81 p q
  · exact Cert.LibPlainDot.matmul_plain_apply _ rfl rfl rfl rfl rfl rfl none (k0_pay10 v55 v72 v73 cst) v84 p q
  · exact bcast_row (by decide) v88 _ p q

/-- One state of row p against a weight row: the sum over the 256 entries, as the body forms it (a product with the
    repeated row, summed along the row, laid out as a column). -/
theorem rowdot_read (s : FVec Ideal S2000x256 .f32) (w : Vec Ideal S1x256 .f32) (p : Fin 2000) (u : Fin 1) :
    shapeCast S2000x1 (multiReduction .add [1] S2000 (mulf s (broadcastTo S2000x256 w broadcasts_S1x256_S2000x256)) 0x00000000#32
        reduces_S2000x256_S2000 (.inl rfl) rfl) shapeCasts_S2000_S2000x1 (ix2 p u)
      = ∑ k : Fin 256, s (ix2 p k) * w (ix2 (0 : Fin 1) k) := by
  refine (shapeCast_a_a1_apply _ shapeCasts_S2000_S2000x1 p u).trans ?_
  refine (rowSum_apply (mulf s (broadcastTo S2000x256 w broadcasts_S1x256_S2000x256)) 0x00000000#32 reduces_S2000x256_S2000
    (.inl rfl) rfl p).trans ?_
  refine Finset.sum_congr rfl fun k _ => ?_
  show s (ix2 p k) * broadcastTo S2000x256 w broadcasts_S1x256_S2000x256 (ix2 p k) = _
  rw [bcast_row (by decide) w _ p k]

/-- The probability head at position 0: the logistic function of the first state's reading. -/
theorem headP_read0 (v94 v99 : Vec Ideal S1x256 .f32) (v105 : Vec Ideal S1x2 .f32) (p : Fin 2000) :
    k0_pay12 ha v55 v72 v73 cst v94 v99 v105 (ix2 p (0 : Fin 2))
      = Ideal.logistic ((∑ k : Fin 256, ha (ix2 p k) * v94 (ix2 (0 : Fin 1) k)) + v105 (ix2 (0 : Fin 1) (0 : Fin 2))) := by
  unfold k0_pay12
  rw [shapeCast_self]
  refine congrArg Ideal.logistic ?_
  refine congrArg₂ (· + ·) ?_ ?_
  · refine (cat_cols_left _ _ _ p (0 : Fin 1) (0 : Fin 2) rfl).trans ?_
    exact rowdot_read ha v94 p 0
  · exact bcast_row (by decide) v105 _ p 0

/-- The probability head at position 1: the logistic function of the second state's reading. -/
theorem headP_read1 (v94 v99 : Vec Ideal S1x256 .f32) (v105 : Vec Ideal S1x2 .f32) (p : Fin 2000) :
    k0_pay12 ha v55 v72 v73 cst v94 v99 v105 (ix2 p (1 : Fin 2))
      = Ideal.logistic ((∑ k : Fin 256, k0_pay10 v55 v72 v73 cst (ix2 p k) * v99 (ix2 (0 : Fin 1) k))
          + v105 (ix2 (0 : Fin 1) (1 : Fin 2))) := by
  unfold k0_pay12
  rw [shapeCast_self]
  refine congrArg Ideal.logistic ?_
  refine congrArg₂ (· + ·) ?_ ?_
  · refine (cat_cols_right _ _ _ p (0 : Fin 1) (1 : Fin 2) rfl).trans ?_
    exact rowdot_read (k0_pay10 v55 v72 v73 cst) v99 p 0
  · exact bcast_row (by decide) v105 _ p 1

end heads

end Cert.GruPair.Body

end
-- ==== Proof.BlockLaw.lean ====
/-
  One row of one block against the specification.

  A grid point loads 2000 rows of the five per-row arrays and the whole of the eighteen prepared weight arrays. If row p of
  the loaded blocks is row r of the argument arrays, and the prepared weights are what the preparation makes of the
  arguments (joined, transposed, halved), then the block computation's two results at row p are the specification's at
  row r: each cell by the agreement of its two forms on real numbers, the heads by reordering their summands.
-/
import proofs.«133639_g47399259079245_cont_8to1c4_90_11_alg».proof.Proof.BodyRead
import proofs.«133639_g47399259079245_cont_8to1c4_90_11_alg».proof.Proof.GruAlgebra

noncomputable section

namespace Cert.GruPair

open Idealize.ShloMosaic Idealize.ShloMosaic.ValueIdx Cert.KernelIdeal Cert.KernelIdeal.Gen
open scoped BigOperators

/-- Every entry that enters a cell is a real number. -/
structure RealArgs (A : Args) : Prop where
  xa : ∀ r k, ∃ x : ℝ, A.xa r k = x
  xf : ∀ r k, ∃ x : ℝ, A.xf r k = x
  ph : ∀ r k, ∃ x : ℝ, A.ph r k = x
  sh : ∀ r k, ∃ x : ℝ, A.sh r k = x
  enc : ∀ r k, ∃ x : ℝ, A.enc r k = x
  dWi : ∀ a k, ∃ x : ℝ, A.dWi a k = x
  dWh : ∀ a k, ∃ x : ℝ, A.dWh a k = x
  dbi : ∀ a, ∃ x : ℝ, A.dbi a = x
  dbh : ∀ a, ∃ x : ℝ, A.dbh a = x
  wWi : ∀ a k, ∃ x : ℝ, A.wWi a k = x
  wWh : ∀ a k, ∃ x : ℝ, A.wWh a k = x
  wbi : ∀ a, ∃ x : ℝ, A.wbi a = x
  wbh : ∀ a, ∃ x : ℝ, A.wbh a = x

/-- Row p of the loaded blocks is row r of the arguments, and the loaded weights are the prepared ones. -/
structure Loaded (A : Args) (r : Fin 100000) (p : Fin 2000)
    (x0 x1 x2 x3 x4 : Vec Ideal S2000x128 .f32) (x5 : Vec Ideal S384x512 .f32) (x6 : Vec Ideal S128x256 .f32)
    (x7 : Vec Ideal S256x256 .f32) (x8 : Vec Ideal S384x512 .f32) (x9 : Vec Ideal S128x256 .f32)
    (x10 : Vec Ideal S256x256 .f32) (x11 : Vec Ideal S1x512 .f32) (x12 x13 : Vec Ideal S1x256 .f32)
    (x14 : Vec Ideal S1x512 .f32) (x15 x16 : Vec Ideal S1x256 .f32) (x17 x18 : Vec Ideal S256x128 .f32)
    (x19 : Vec Ideal S1x128 .f32) (x20 x21 : Vec Ideal S1x256 .f32) (x22 : Vec Ideal S1x2 .f32) : Prop where
  h0 : ∀ k, x0 (ix2 p k) = A.xa r k
  h1 : ∀ k, x1 (ix2 p k) = A.xf r k
  h2 : ∀ k, x2 (ix2 p k) = A.ph r k
  h3 : ∀ k, x3 (ix2 p k) = A.sh r k
  h4 : ∀ k, x4 (ix2 p k) = A.enc r k
  h5l : ∀ (k : Fin 128) (j' : Fin 512), x5 (ix2 (⟨k.val, by omega⟩ : Fin 384) j') = half * A.dWi ⟨j'.val, by omega⟩ k
  h5r : ∀ (k : Fin 256) (j' : Fin 512), x5 (ix2 (⟨128 + k.val, by omega⟩ : Fin 384) j') = half * A.dWh ⟨j'.val, by omega⟩ k
  h6 : ∀ (k : Fin 128) (j : Fin 256), x6 (ix2 k j) = A.dWi (hi j) k
  h7 : ∀ (k : Fin 256) (j : Fin 256), x7 (ix2 k j) = half * A.dWh (hi j) k
  h8l : ∀ (k : Fin 128) (j' : Fin 512), x8 (ix2 (⟨k.val, by omega⟩ : Fin 384) j') = half * A.wWi ⟨j'.val, by omega⟩ k
  h8r : ∀ (k : Fin 256) (j' : Fin 512), x8 (ix2 (⟨128 + k.val, by omega⟩ : Fin 384) j') = half * A.wWh ⟨j'.val, by omega⟩ k
  h9 : ∀ (k : Fin 128) (j : Fin 256), x9 (ix2 k j) = A.wWi (hi j) k
  h10 : ∀ (k : Fin 256) (j : Fin 256), x10 (ix2 k j) = half * A.wWh (hi j) k
  h11 : ∀ j' : Fin 512, x11 (ix2 (0 : Fin 1) j') = half * (A.dbi ⟨j'.val, by omega⟩ + A.dbh ⟨j'.val, by omega⟩)
  h12 : ∀ j : Fin 256, x12 (ix2 (0 : Fin 1) j) = A.dbi (hi j)
  h13 : ∀ j : Fin 256, x13 (ix2 (0 : Fin 1) j) = half * A.dbh (hi j)
  h14 : ∀ j' : Fin 512, x14 (ix2 (0 : Fin 1) j') = half * (A.wbi ⟨j'.val, by omega⟩ + A.wbh ⟨j'.val, by omega⟩)
  h15 : ∀ j : Fin 256, x15 (ix2 (0 : Fin 1) j) = A.wbi (hi j)
  h16 : ∀ j : Fin 256, x16 (ix2 (0 : Fin 1) j) = half * A.wbh (hi j)
  h17 : ∀ (k : Fin 256) (q : Fin 128), x17 (ix2 k q) = A.Wha q k
  h18 : ∀ (k : Fin 256) (q : Fin 128), x18 (ix2 k q) = A.Whf q k
  h19 : ∀ q : Fin 128, x19 (ix2 (0 : Fin 1) q) = A.bha q + A.bhf q
  h20 : ∀ k : Fin 256, x20 (ix2 (0 : Fin 1) k) = A.Wpa k
  h21 : ∀ k : Fin 256, x21 (ix2 (0 : Fin 1) k) = A.Wpf k
  h22a : x22 (ix2 (0 : Fin 1) (0 : Fin 2)) = A.bpa
  h22f : x22 (ix2 (0 : Fin 1) (1 : Fin 2)) = A.bpf

section

variable {A : Args} {r : Fin 100000} {p : Fin 2000}
    {x0 x1 x2 x3 x4 : Vec Ideal S2000x128 .f32} {x5 : Vec Ideal S384x512 .f32} {x6 : Vec Ideal S128x256 .f32}
    {x7 : Vec Ideal S256x256 .f32} {x8 : Vec Ideal S384x512 .f32} {x9 : Vec Ideal S128x256 .f32}
    {x10 : Vec Ideal S256x256 .f32} {x11 : Vec Ideal S1x512 .f32} {x12 x13 : Vec Ideal S1x256 .f32}
    {x14 : Vec Ideal S1x512 .f32} {x15 x16 : Vec Ideal S1x256 .f32} {x17 x18 : Vec Ideal S256x128 .f32}
    {x19 : Vec Ideal S1x128 .f32} {x20 x21 : Vec Ideal S1x256 .f32} {x22 : Vec Ideal S1x2 .f32}

/-- The joined state row [parent state, encoding] of row p is that of row r. -/
theorem Loaded.hpA (L : Loaded A r p x0 x1 x2 x3 x4 x5 x6 x7 x8 x9 x10 x11 x12 x13 x14 x15 x16 x17 x18 x19 x20 x21 x22)
    (k : Fin 256) : k0_pay1 (F := Ideal) x4 x2 (ix2 p k) = cat (A.ph r) (A.enc r) k := by
  unfold cat
  split
  · rename_i hk
    exact (Body.cat_cols_left x2 x4 concatenates_S2000x128_S2000x128_S2000x256_d1 p ⟨k.val, hk⟩ k rfl).trans (L.h2 _)
  · rename_i hk
    exact (Body.cat_cols_right x2 x4 concatenates_S2000x128_S2000x128_S2000x256_d1 p ⟨k.val - 128, by omega⟩ k
      (by show k.val = 128 + (k.val - 128); omega)).trans (L.h4 _)

/-- The joined state row [sibling state, encoding] of row p is that of row r. -/
theorem Loaded.hpF (L : Loaded A r p x0 x1 x2 x3 x4 x5 x6 x7 x8 x9 x10 x11 x12 x13 x14 x15 x16 x17 x18 x19 x20 x21 x22)
    (k : Fin 256) : k0_pay6 (F := Ideal) x4 x3 (ix2 p k) = cat (A.sh r) (A.enc r) k := by
  unfold cat
  split
  · rename_i hk
    exact (Body.cat_cols_left x3 x4 concatenates_S2000x128_S2000x128_S2000x256_d1 p ⟨k.val, hk⟩ k rfl).trans (L.h3 _)
  · rename_i hk
    exact (Body.cat_cols_right x3 x4 concatenates_S2000x128_S2000x128_S2000x256_d1 p ⟨k.val - 128, by omega⟩ k
      (by show k.val = 128 + (k.val - 128); omega)).trans (L.h4 _)

/-- The first cell's new state at row p is the specification's depth state of row r. -/
theorem Loaded.stateA (L : Loaded A r p x0 x1 x2 x3 x4 x5 x6 x7 x8 x9 x10 x11 x12 x13 x14 x15 x16 x17 x18 x19 x20 x21 x22)
    (R : RealArgs A) (j : Fin 256) :
    k0_pay5 (F := Ideal) (k0_pay1 (F := Ideal) x4 x2) (k0_pay3 (F := Ideal) x4 x0 x2 x5 x6 x7 x11 x12 x13) (k0_pay4 (F := Ideal) x4 x0 x2 x5 x11) (ix2 p j) = stateA A r j := by
  rw [Body.stateA_read]
  have ex : (fun k => x0 (ix2 p k)) = A.xa r := funext L.h0
  have eh : (fun k => k0_pay1 (F := Ideal) x4 x2 (ix2 p k)) = cat (A.ph r) (A.enc r) := funext L.hpA
  rw [ex, eh]
  unfold GruPair.stateA
  exact cell_bridge (A.xa r) (cat (A.ph r) (A.enc r)) A.dWi A.dWh A.dbi A.dbh (R.xa r)
    (cat_real _ _ (R.ph r) (R.enc r)) R.dWi R.dWh R.dbi R.dbh _ _ _ _ _ _ _
    (fun k => (Body.joinedA_left x4 x0 x2 p k).trans (L.h0 k))
    (fun k => (Body.joinedA_right x4 x0 x2 p k).trans (L.hpA k))
    L.h5l L.h5r L.h11 L.h6 L.h12 L.h7 L.h13 j

/-- The second cell's new state at row p is the specification's width state of row r. -/
theorem Loaded.stateF (L : Loaded A r p x0 x1 x2 x3 x4 x5 x6 x7 x8 x9 x10 x11 x12 x13 x14 x15 x16 x17 x18 x19 x20 x21 x22)
    (R : RealArgs A) (j : Fin 256) :
    k0_pay10 (F := Ideal) (k0_pay6 (F := Ideal) x4 x3) (k0_pay8 (F := Ideal) x4 x1 x3 x8 x9 x10 x14 x15 x16) (k0_pay9 (F := Ideal) x4 x1 x3 x8 x14)
      (Scalar.ofBits .f32 0x3F000000#32) (ix2 p j) = stateF A r j := by
  rw [Body.stateF_read]
  have ex : (fun k => x1 (ix2 p k)) = A.xf r := funext L.h1
  have eh : (fun k => k0_pay6 (F := Ideal) x4 x3 (ix2 p k)) = cat (A.sh r) (A.enc r) := funext L.hpF
  rw [ex, eh]
  unfold GruPair.stateF
  exact cell_bridge (A.xf r) (cat (A.sh r) (A.enc r)) A.wWi A.wWh A.wbi A.wbh (R.xf r)
    (cat_real _ _ (R.sh r) (R.enc r)) R.wWi R.wWh R.wbi R.wbh _ _ _ _ _ _ _
    (fun k => (Body.joinedF_left x4 x1 x3 p k).trans (L.h1 k))
    (fun k => (Body.joinedF_right x4 x1 x3 p k).trans (L.hpF k))
    L.h8l L.h8r L.h14 L.h9 L.h15 L.h10 L.h16 j

/-- The block's first result at (p, q) is the specification's at (r, q). -/
theorem Loaded.outH (L : Loaded A r p x0 x1 x2 x3 x4 x5 x6 x7 x8 x9 x10 x11 x12 x13 x14 x15 x16 x17 x18 x19 x20 x21 x22)
    (R : RealArgs A) (q : Fin 128) :
    k0_pay11 (F := Ideal) (k0_pay5 (F := Ideal) (k0_pay1 (F := Ideal) x4 x2) (k0_pay3 (F := Ideal) x4 x0 x2 x5 x6 x7 x11 x12 x13) (k0_pay4 (F := Ideal) x4 x0 x2 x5 x11)) (k0_pay6 (F := Ideal) x4 x3)
      (k0_pay8 (F := Ideal) x4 x1 x3 x8 x9 x10 x14 x15 x16) (k0_pay9 (F := Ideal) x4 x1 x3 x8 x14) (Scalar.ofBits .f32 0x3F000000#32) x17 x18 x19 (ix2 p q)
      = outH A r q := by
  rw [Body.headH_read]
  have ea : (fun k => k0_pay5 (F := Ideal) (k0_pay1 (F := Ideal) x4 x2) (k0_pay3 (F := Ideal) x4 x0 x2 x5 x6 x7 x11 x12 x13) (k0_pay4 (F := Ideal) x4 x0 x2 x5 x11) (ix2 p k))
      = GruPair.stateA A r := funext (L.stateA R)
  have ef : (fun k => k0_pay10 (F := Ideal) (k0_pay6 (F := Ideal) x4 x3) (k0_pay8 (F := Ideal) x4 x1 x3 x8 x9 x10 x14 x15 x16) (k0_pay9 (F := Ideal) x4 x1 x3 x8 x14)
      (Scalar.ofBits .f32 0x3F000000#32) (ix2 p k)) = GruPair.stateF A r := funext (L.stateF R)
  rw [ea, ef]
  exact head_law _ _ A.Wha A.Whf A.bha A.bhf _ _ _ L.h17 L.h18 L.h19 q

/-- The block's second result at (p, q) is the specification's at (r, q). -/
theorem Loaded.outP (L : Loaded A r p x0 x1 x2 x3 x4 x5 x6 x7 x8 x9 x10 x11 x12 x13 x14 x15 x16 x17 x18 x19 x20 x21 x22)
    (R : RealArgs A) (q : Fin 2) :
    k0_pay12 (F := Ideal) (k0_pay5 (F := Ideal) (k0_pay1 (F := Ideal) x4 x2) (k0_pay3 (F := Ideal) x4 x0 x2 x5 x6 x7 x11 x12 x13) (k0_pay4 (F := Ideal) x4 x0 x2 x5 x11)) (k0_pay6 (F := Ideal) x4 x3)
      (k0_pay8 (F := Ideal) x4 x1 x3 x8 x9 x10 x14 x15 x16) (k0_pay9 (F := Ideal) x4 x1 x3 x8 x14) (Scalar.ofBits .f32 0x3F000000#32) x20 x21 x22 (ix2 p q)
      = outP A r q := by
  have ea : (fun k => k0_pay5 (F := Ideal) (k0_pay1 (F := Ideal) x4 x2) (k0_pay3 (F := Ideal) x4 x0 x2 x5 x6 x7 x11 x12 x13) (k0_pay4 (F := Ideal) x4 x0 x2 x5 x11) (ix2 p k))
      = GruPair.stateA A r := funext (L.stateA R)
  have ef : (fun k => k0_pay10 (F := Ideal) (k0_pay6 (F := Ideal) x4 x3) (k0_pay8 (F := Ideal) x4 x1 x3 x8 x9 x10 x14 x15 x16) (k0_pay9 (F := Ideal) x4 x1 x3 x8 x14)
      (Scalar.ofBits .f32 0x3F000000#32) (ix2 p k)) = GruPair.stateF A r := funext (L.stateF R)
  unfold GruPair.outP probRef
  match q with
  | ⟨0, _⟩ =>
    rw [if_pos rfl, sigm_eq]
    refine (Body.headP_read0 _ _ _ _ _ x20 x21 x22 p).trans ?_
    unfold lin
    simp only [L.h20, L.h22a]
    exact congrArg (fun f : Fin 256 → EReal => Ideal.logistic ((∑ k, f k * A.Wpa k) + A.bpa)) ea
  | ⟨1, _⟩ =>
    rw [if_neg Nat.one_ne_zero, sigm_eq]
    refine (Body.headP_read1 _ _ _ _ _ x20 x21 x22 p).trans ?_
    unfold lin
    simp only [L.h21, L.h22f]
    exact congrArg (fun f : Fin 256 → EReal => Ideal.logistic ((∑ k, f k * A.Wpf k) + A.bpf)) ef

end

end Cert.GruPair

end
-- ==== Proof.BlockIdx.lean ====
/-
  The blocks' index arithmetic.

  The region runs over a one-dimensional grid of 50 points. The five row arrays (100000 x 128) and the two results
  (100000 x 128 and 100000 x 2) move by blocks of 2000 rows: at point t the block is rows 2000 t … 2000 t + 1999, all
  columns. Every other operand is one block that is the whole array, at every point. On each axis an element of a block
  sits in the array at the block index times the block's size plus its own coordinate.
-/
import proofs.«133639_g47399259079245_cont_8to1c4_90_11_alg».proof.Proof.Gen.KernelIdeal.Value
import Idealize.ShloMosaic.Lib.Pipeline.Value
import Idealize.ShloMosaic.Lib.ValueIdx

noncomputable section

namespace Cert.GruPair.Blk

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD)

/-! ## The index maps, decided over the grid -/

/-- Window 0's block index at point t is (t, 0). -/
theorem idx0 : ∀ t : Fin cfg0.N, win0_0.index t (0 : Fin 2) = t.val ∧ win0_0.index t (1 : Fin 2) = 0 :=
  (by decide +kernel : ∀ t : Fin grid0.N, _)

/-- Window 1's block index at point t is (t, 0). -/
theorem idx1 : ∀ t : Fin cfg0.N, win0_1.index t (0 : Fin 2) = t.val ∧ win0_1.index t (1 : Fin 2) = 0 :=
  (by decide +kernel : ∀ t : Fin grid0.N, _)

/-- Window 2's block index at point t is (t, 0). -/
theorem idx2 : ∀ t : Fin cfg0.N, win0_2.index t (0 : Fin 2) = t.val ∧ win0_2.index t (1 : Fin 2) = 0 :=
  (by decide +kernel : ∀ t : Fin grid0.N, _)

/-- Window 3's block index at point t is (t, 0). -/
theorem idx3 : ∀ t : Fin cfg0.N, win0_3.index t (0 : Fin 2) = t.val ∧ win0_3.index t (1 : Fin 2) = 0 :=
  (by decide +kernel : ∀ t : Fin grid0.N, _)

/-- Window 4's block index at point t is (t, 0). -/
theorem idx4 : ∀ t : Fin cfg0.N, win0_4.index t (0 : Fin 2) = t.val ∧ win0_4.index t (1 : Fin 2) = 0 :=
  (by decide +kernel : ∀ t : Fin grid0.N, _)

/-- Window 23's block index at point t is (t, 0). -/
theorem idx23 : ∀ t : Fin cfg0.N, win0_23.index t (0 : Fin 2) = t.val ∧ win0_23.index t (1 : Fin 2) = 0 :=
  (by decide +kernel : ∀ t : Fin grid0.N, _)

/-- Window 24's block index at point t is (t, 0). -/
theorem idx24 : ∀ t : Fin cfg0.N, win0_24.index t (0 : Fin 2) = t.val ∧ win0_24.index t (1 : Fin 2) = 0 :=
  (by decide +kernel : ∀ t : Fin grid0.N, _)

/-- Window 5's block index is (0, 0) at every point. -/
theorem idx5 : ∀ t : Fin cfg0.N, win0_5.index t (0 : Fin 2) = 0 ∧ win0_5.index t (1 : Fin 2) = 0 :=
  (by decide +kernel : ∀ t : Fin grid0.N, _)

/-- Window 6's block index is (0, 0) at every point. -/
theorem idx6 : ∀ t : Fin cfg0.N, win0_6.index t (0 : Fin 2) = 0 ∧ win0_6.index t (1 : Fin 2) = 0 :=
  (by decide +kernel : ∀ t : Fin grid0.N, _)

/-- Window 7's block index is (0, 0) at every point. -/
theorem idx7 : ∀ t : Fin cfg0.N, win0_7.index t (0 : Fin 2) = 0 ∧ win0_7.index t (1 : Fin 2) = 0 :=
  (by decide +kernel : ∀ t : Fin grid0.N, _)

/-- Window 8's block index is (0, 0) at every point. -/
theorem idx8 : ∀ t : Fin cfg0.N, win0_8.index t (0 : Fin 2) = 0 ∧ win0_8.index t (1 : Fin 2) = 0 :=
  (by decide +kernel : ∀ t : Fin grid0.N, _)

/-- Window 9's block index is (0, 0) at every point. -/
theorem idx9 : ∀ t : Fin cfg0.N, win0_9.index t (0 : Fin 2) = 0 ∧ win0_9.index t (1 : Fin 2) = 0 :=
  (by decide +kernel : ∀ t : Fin grid0.N, _)

/-- Window 10's block index is (0, 0) at every point. -/
theorem idx10 : ∀ t : Fin cfg0.N, win0_10.index t (0 : Fin 2) = 0 ∧ win0_10.index t (1 : Fin 2) = 0 :=
  (by decide +kernel : ∀ t : Fin grid0.N, _)

/-- Window 11's block index is (0, 0) at every point. -/
theorem idx11 : ∀ t : Fin cfg0.N, win0_11.index t (0 : Fin 2) = 0 ∧ win0_11.index t (1 : Fin 2) = 0 :=
  (by decide +kernel : ∀ t : Fin grid0.N, _)

/-- Window 12's block index is (0, 0) at every point. -/
theorem idx12 : ∀ t : Fin cfg0.N, win0_12.index t (0 : Fin 2) = 0 ∧ win0_12.index t (1 : Fin 2) = 0 :=
  (by decide +kernel : ∀ t : Fin grid0.N, _)

/-- Window 13's block index is (0, 0) at every point. -/
theorem idx13 : ∀ t : Fin cfg0.N, win0_13.index t (0 : Fin 2) = 0 ∧ win0_13.index t (1 : Fin 2) = 0 :=
  (by decide +kernel : ∀ t : Fin grid0.N, _)

/-- Window 14's block index is (0, 0) at every point. -/
theorem idx14 : ∀ t : Fin cfg0.N, win0_14.index t (0 : Fin 2) = 0 ∧ win0_14.index t (1 : Fin 2) = 0 :=
  (by decide +kernel : ∀ t : Fin grid0.N, _)

/-- Window 15's block index is (0, 0) at every point. -/
theorem idx15 : ∀ t : Fin cfg0.N, win0_15.index t (0 : Fin 2) = 0 ∧ win0_15.index t (1 : Fin 2) = 0 :=
  (by decide +kernel : ∀ t : Fin grid0.N, _)

/-- Window 16's block index is (0, 0) at every point. -/
theorem idx16 : ∀ t : Fin cfg0.N, win0_16.index t (0 : Fin 2) = 0 ∧ win0_16.index t (1 : Fin 2) = 0 :=
  (by decide +kernel : ∀ t : Fin grid0.N, _)

/-- Window 17's block index is (0, 0) at every point. -/
theorem idx17 : ∀ t : Fin cfg0.N, win0_17.index t (0 : Fin 2) = 0 ∧ win0_17.index t (1 : Fin 2) = 0 :=
  (by decide +kernel : ∀ t : Fin grid0.N, _)

/-- Window 18's block index is (0, 0) at every point. -/
theorem idx18 : ∀ t : Fin cfg0.N, win0_18.index t (0 : Fin 2) = 0 ∧ win0_18.index t (1 : Fin 2) = 0 :=
  (by decide +kernel : ∀ t : Fin grid0.N, _)

/-- Window 19's block index is (0, 0) at every point. -/
theorem idx19 : ∀ t : Fin cfg0.N, win0_19.index t (0 : Fin 2) = 0 ∧ win0_19.index t (1 : Fin 2) = 0 :=
  (by decide +kernel : ∀ t : Fin grid0.N, _)

/-- Window 20's block index is (0, 0) at every point. -/
theorem idx20 : ∀ t : Fin cfg0.N, win0_20.index t (0 : Fin 2) = 0 ∧ win0_20.index t (1 : Fin 2) = 0 :=
  (by decide +kernel : ∀ t : Fin grid0.N, _)

/-- Window 21's block index is (0, 0) at every point. -/
theorem idx21 : ∀ t : Fin cfg0.N, win0_21.index t (0 : Fin 2) = 0 ∧ win0_21.index t (1 : Fin 2) = 0 :=
  (by decide +kernel : ∀ t : Fin grid0.N, _)

/-- Window 22's block index is (0, 0) at every point. -/
theorem idx22 : ∀ t : Fin cfg0.N, win0_22.index t (0 : Fin 2) = 0 ∧ win0_22.index t (1 : Fin 2) = 0 :=
  (by decide +kernel : ∀ t : Fin grid0.N, _)

/-! ## The row blocks -/

/-- Row p of point t's block is row 2000 t + p of the array. -/
def row (t : Fin cfg0.N) (p : Fin 2000) : Fin 100000 :=
  ⟨2000 * t.val + p.val, by have h1 := t.isLt; have h2 : cfg0.N = 50 := N_0; have h3 := p.isLt; omega⟩

theorem row_val (t : Fin cfg0.N) (p : Fin 2000) : (row t p).val = 2000 * t.val + p.val := rfl

/-- Window 0's block at point t, entry (p, k), is entry (2000 t + p, k) of the argument array as launched. -/
theorem rows0 (t : Fin cfg0.N) (p : Fin 2000) (k : Fin 128) :
    (iblk m c 0 t : S2000x128.Idx → Elt Ideal .f32) (ix2 p k)
      = (m ((c : Thread nD τ).loc main_arg0) : S100000x128.Idx → Elt Ideal .f32) (ix2 (row t p) k) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t (0 : Fin 2) * 2000 + 1 * p.val = 2000 * t.val + p.val; rw [h0]; omega
  | ⟨1, _⟩ => show win0_0.index t (1 : Fin 2) * 128 + 1 * k.val = k.val; rw [h1]; omega

/-- Window 1's block at point t, entry (p, k), is entry (2000 t + p, k) of the argument array as launched. -/
theorem rows1 (t : Fin cfg0.N) (p : Fin 2000) (k : Fin 128) :
    (iblk m c 1 t : S2000x128.Idx → Elt Ideal .f32) (ix2 p k)
      = (m ((c : Thread nD τ).loc main_arg1) : S100000x128.Idx → Elt Ideal .f32) (ix2 (row t p) k) := by
  obtain ⟨h0, h1⟩ := idx1 t
  unfold iblk
  rw [View.read_apply]
  show V m c main_arg1 _ = _
  rw [V_main_arg1]
  congr 1
  funext a
  apply Fin.ext
  match a with
  | ⟨0, _⟩ => show win0_1.index t (0 : Fin 2) * 2000 + 1 * p.val = 2000 * t.val + p.val; rw [h0]; omega
  | ⟨1, _⟩ => show win0_1.index t (1 : Fin 2) * 128 + 1 * k.val = k.val; rw [h1]; omega

/-- Window 2's block at point t, entry (p, k), is entry (2000 t + p, k) of the argument array as launched. -/
theorem rows2 (t : Fin cfg0.N) (p : Fin 2000) (k : Fin 128) :
    (iblk m c 2 t : S2000x128.Idx → Elt Ideal .f32) (ix2 p k)
      = (m ((c : Thread nD τ).loc main_arg2) : S100000x128.Idx → Elt Ideal .f32) (ix2 (row t p) k) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t (0 : Fin 2) * 2000 + 1 * p.val = 2000 * t.val + p.val; rw [h0]; omega
  | ⟨1, _⟩ => show win0_2.index t (1 : Fin 2) * 128 + 1 * k.val = k.val; rw [h1]; omega

/-- Window 3's block at point t, entry (p, k), is entry (2000 t + p, k) of the argument array as launched. -/
theorem rows3 (t : Fin cfg0.N) (p : Fin 2000) (k : Fin 128) :
    (iblk m c 3 t : S2000x128.Idx → Elt Ideal .f32) (ix2 p k)
      = (m ((c : Thread nD τ).loc main_arg3) : S100000x128.Idx → Elt Ideal .f32) (ix2 (row t p) k) := by
  obtain ⟨h0, h1⟩ := idx3 t
  unfold iblk
  rw [View.read_apply]
  show V m c main_arg3 _ = _
  rw [V_main_arg3]
  congr 1
  funext a
  apply Fin.ext
  match a with
  | ⟨0, _⟩ => show win0_3.index t (0 : Fin 2) * 2000 + 1 * p.val = 2000 * t.val + p.val; rw [h0]; omega
  | ⟨1, _⟩ => show win0_3.index t (1 : Fin 2) * 128 + 1 * k.val = k.val; rw [h1]; omega

/-- Window 4's block at point t, entry (p, k), is entry (2000 t + p, k) of the argument array as launched. -/
theorem rows4 (t : Fin cfg0.N) (p : Fin 2000) (k : Fin 128) :
    (iblk m c 4 t : S2000x128.Idx → Elt Ideal .f32) (ix2 p k)
      = (m ((c : Thread nD τ).loc main_arg4) : S100000x128.Idx → Elt Ideal .f32) (ix2 (row t p) k) := by
  obtain ⟨h0, h1⟩ := idx4 t
  unfold iblk
  rw [View.read_apply]
  show V m c main_arg4 _ = _
  rw [V_main_arg4]
  congr 1
  funext a
  apply Fin.ext
  match a with
  | ⟨0, _⟩ => show win0_4.index t (0 : Fin 2) * 2000 + 1 * p.val = 2000 * t.val + p.val; rw [h0]; omega
  | ⟨1, _⟩ => show win0_4.index t (1 : Fin 2) * 128 + 1 * k.val = k.val; rw [h1]; omega

/-! ## The operands that are one whole block -/

/-- Window 5's one block is its whole array, at every point. -/
theorem whole5 (t : Fin cfg0.N) : iblk m c 5 t = V m c main_v6 := by
  obtain ⟨h0, h1⟩ := idx5 t
  have hz : (fun a => win0_5.index t a * main_v6.ty.shape.size a) = fun _ => 0 := funext fun a => by
    match a with
    | ⟨0, _⟩ => show win0_5.index t (0 : Fin 2) * _ = 0; rw [h0, Nat.zero_mul]
    | ⟨1, _⟩ => show win0_5.index t (1 : Fin 2) * _ = 0; rw [h1, Nat.zero_mul]
  exact Memref.read_access_unit_zero (Elt Ideal) main_v6 hz (fun a => by rw [congrFun hz a, Nat.zero_add]) (V m c main_v6)

/-- Window 6's one block is its whole array, at every point. -/
theorem whole6 (t : Fin cfg0.N) : iblk m c 6 t = V m c main_v13 := by
  obtain ⟨h0, h1⟩ := idx6 t
  have hz : (fun a => win0_6.index t a * main_v13.ty.shape.size a) = fun _ => 0 := funext fun a => by
    match a with
    | ⟨0, _⟩ => show win0_6.index t (0 : Fin 2) * _ = 0; rw [h0, Nat.zero_mul]
    | ⟨1, _⟩ => show win0_6.index t (1 : Fin 2) * _ = 0; rw [h1, Nat.zero_mul]
  exact Memref.read_access_unit_zero (Elt Ideal) main_v13 hz (fun a => by rw [congrFun hz a, Nat.zero_add]) (V m c main_v13)

/-- Window 7's one block is its whole array, at every point. -/
theorem whole7 (t : Fin cfg0.N) : iblk m c 7 t = V m c main_v18 := by
  obtain ⟨h0, h1⟩ := idx7 t
  have hz : (fun a => win0_7.index t a * main_v18.ty.shape.size a) = fun _ => 0 := funext fun a => by
    match a with
    | ⟨0, _⟩ => show win0_7.index t (0 : Fin 2) * _ = 0; rw [h0, Nat.zero_mul]
    | ⟨1, _⟩ => show win0_7.index t (1 : Fin 2) * _ = 0; rw [h1, Nat.zero_mul]
  exact Memref.read_access_unit_zero (Elt Ideal) main_v18 hz (fun a => by rw [congrFun hz a, Nat.zero_add]) (V m c main_v18)

/-- Window 8's one block is its whole array, at every point. -/
theorem whole8 (t : Fin cfg0.N) : iblk m c 8 t = V m c main_v29 := by
  obtain ⟨h0, h1⟩ := idx8 t
  have hz : (fun a => win0_8.index t a * main_v29.ty.shape.size a) = fun _ => 0 := funext fun a => by
    match a with
    | ⟨0, _⟩ => show win0_8.index t (0 : Fin 2) * _ = 0; rw [h0, Nat.zero_mul]
    | ⟨1, _⟩ => show win0_8.index t (1 : Fin 2) * _ = 0; rw [h1, Nat.zero_mul]
  exact Memref.read_access_unit_zero (Elt Ideal) main_v29 hz (fun a => by rw [congrFun hz a, Nat.zero_add]) (V m c main_v29)

/-- Window 9's one block is its whole array, at every point. -/
theorem whole9 (t : Fin cfg0.N) : iblk m c 9 t = V m c main_v36 := by
  obtain ⟨h0, h1⟩ := idx9 t
  have hz : (fun a => win0_9.index t a * main_v36.ty.shape.size a) = fun _ => 0 := funext fun a => by
    match a with
    | ⟨0, _⟩ => show win0_9.index t (0 : Fin 2) * _ = 0; rw [h0, Nat.zero_mul]
    | ⟨1, _⟩ => show win0_9.index t (1 : Fin 2) * _ = 0; rw [h1, Nat.zero_mul]
  exact Memref.read_access_unit_zero (Elt Ideal) main_v36 hz (fun a => by rw [congrFun hz a, Nat.zero_add]) (V m c main_v36)

/-- Window 10's one block is its whole array, at every point. -/
theorem whole10 (t : Fin cfg0.N) : iblk m c 10 t = V m c main_v41 := by
  obtain ⟨h0, h1⟩ := idx10 t
  have hz : (fun a => win0_10.index t a * main_v41.ty.shape.size a) = fun _ => 0 := funext fun a => by
    match a with
    | ⟨0, _⟩ => show win0_10.index t (0 : Fin 2) * _ = 0; rw [h0, Nat.zero_mul]
    | ⟨1, _⟩ => show win0_10.index t (1 : Fin 2) * _ = 0; rw [h1, Nat.zero_mul]
  exact Memref.read_access_unit_zero (Elt Ideal) main_v41 hz (fun a => by rw [congrFun hz a, Nat.zero_add]) (V m c main_v41)

/-- Window 11's one block is its whole array, at every point. -/
theorem whole11 (t : Fin cfg0.N) : iblk m c 11 t = V m c main_v12 := by
  obtain ⟨h0, h1⟩ := idx11 t
  have hz : (fun a => win0_11.index t a * main_v12.ty.shape.size a) = fun _ => 0 := funext fun a => by
    match a with
    | ⟨0, _⟩ => show win0_11.index t (0 : Fin 2) * _ = 0; rw [h0, Nat.zero_mul]
    | ⟨1, _⟩ => show win0_11.index t (1 : Fin 2) * _ = 0; rw [h1, Nat.zero_mul]
  exact Memref.read_access_unit_zero (Elt Ideal) main_v12 hz (fun a => by rw [congrFun hz a, Nat.zero_add]) (V m c main_v12)

/-- Window 12's one block is its whole array, at every point. -/
theorem whole12 (t : Fin cfg0.N) : iblk m c 12 t = V m c main_v15 := by
  obtain ⟨h0, h1⟩ := idx12 t
  have hz : (fun a => win0_12.index t a * main_v15.ty.shape.size a) = fun _ => 0 := funext fun a => by
    match a with
    | ⟨0, _⟩ => show win0_12.index t (0 : Fin 2) * _ = 0; rw [h0, Nat.zero_mul]
    | ⟨1, _⟩ => show win0_12.index t (1 : Fin 2) * _ = 0; rw [h1, Nat.zero_mul]
  exact Memref.read_access_unit_zero (Elt Ideal) main_v15 hz (fun a => by rw [congrFun hz a, Nat.zero_add]) (V m c main_v15)

/-- Window 13's one block is its whole array, at every point. -/
theorem whole13 (t : Fin cfg0.N) : iblk m c 13 t = V m c main_v22 := by
  obtain ⟨h0, h1⟩ := idx13 t
  have hz : (fun a => win0_13.index t a * main_v22.ty.shape.size a) = fun _ => 0 := funext fun a => by
    match a with
    | ⟨0, _⟩ => show win0_13.index t (0 : Fin 2) * _ = 0; rw [h0, Nat.zero_mul]
    | ⟨1, _⟩ => show win0_13.index t (1 : Fin 2) * _ = 0; rw [h1, Nat.zero_mul]
  exact Memref.read_access_unit_zero (Elt Ideal) main_v22 hz (fun a => by rw [congrFun hz a, Nat.zero_add]) (V m c main_v22)

/-- Window 14's one block is its whole array, at every point. -/
theorem whole14 (t : Fin cfg0.N) : iblk m c 14 t = V m c main_v35 := by
  obtain ⟨h0, h1⟩ := idx14 t
  have hz : (fun a => win0_14.index t a * main_v35.ty.shape.size a) = fun _ => 0 := funext fun a => by
    match a with
    | ⟨0, _⟩ => show win0_14.index t (0 : Fin 2) * _ = 0; rw [h0, Nat.zero_mul]
    | ⟨1, _⟩ => show win0_14.index t (1 : Fin 2) * _ = 0; rw [h1, Nat.zero_mul]
  exact Memref.read_access_unit_zero (Elt Ideal) main_v35 hz (fun a => by rw [congrFun hz a, Nat.zero_add]) (V m c main_v35)

/-- Window 15's one block is its whole array, at every point. -/
theorem whole15 (t : Fin cfg0.N) : iblk m c 15 t = V m c main_v38 := by
  obtain ⟨h0, h1⟩ := idx15 t
  have hz : (fun a => win0_15.index t a * main_v38.ty.shape.size a) = fun _ => 0 := funext fun a => by
    match a with
    | ⟨0, _⟩ => show win0_15.index t (0 : Fin 2) * _ = 0; rw [h0, Nat.zero_mul]
    | ⟨1, _⟩ => show win0_15.index t (1 : Fin 2) * _ = 0; rw [h1, Nat.zero_mul]
  exact Memref.read_access_unit_zero (Elt Ideal) main_v38 hz (fun a => by rw [congrFun hz a, Nat.zero_add]) (V m c main_v38)

/-- Window 16's one block is its whole array, at every point. -/
theorem whole16 (t : Fin cfg0.N) : iblk m c 16 t = V m c main_v45 := by
  obtain ⟨h0, h1⟩ := idx16 t
  have hz : (fun a => win0_16.index t a * main_v45.ty.shape.size a) = fun _ => 0 := funext fun a => by
    match a with
    | ⟨0, _⟩ => show win0_16.index t (0 : Fin 2) * _ = 0; rw [h0, Nat.zero_mul]
    | ⟨1, _⟩ => show win0_16.index t (1 : Fin 2) * _ = 0; rw [h1, Nat.zero_mul]
  exact Memref.read_access_unit_zero (Elt Ideal) main_v45 hz (fun a => by rw [congrFun hz a, Nat.zero_add]) (V m c main_v45)

/-- Window 17's one block is its whole array, at every point. -/
theorem whole17 (t : Fin cfg0.N) : iblk m c 17 t = V m c main_v50 := by
  obtain ⟨h0, h1⟩ := idx17 t
  have hz : (fun a => win0_17.index t a * main_v50.ty.shape.size a) = fun _ => 0 := funext fun a => by
    match a with
    | ⟨0, _⟩ => show win0_17.index t (0 : Fin 2) * _ = 0; rw [h0, Nat.zero_mul]
    | ⟨1, _⟩ => show win0_17.index t (1 : Fin 2) * _ = 0; rw [h1, Nat.zero_mul]
  exact Memref.read_access_unit_zero (Elt Ideal) main_v50 hz (fun a => by rw [congrFun hz a, Nat.zero_add]) (V m c main_v50)

/-- Window 18's one block is its whole array, at every point. -/
theorem whole18 (t : Fin cfg0.N) : iblk m c 18 t = V m c main_v51 := by
  obtain ⟨h0, h1⟩ := idx18 t
  have hz : (fun a => win0_18.index t a * main_v51.ty.shape.size a) = fun _ => 0 := funext fun a => by
    match a with
    | ⟨0, _⟩ => show win0_18.index t (0 : Fin 2) * _ = 0; rw [h0, Nat.zero_mul]
    | ⟨1, _⟩ => show win0_18.index t (1 : Fin 2) * _ = 0; rw [h1, Nat.zero_mul]
  exact Memref.read_access_unit_zero (Elt Ideal) main_v51 hz (fun a => by rw [congrFun hz a, Nat.zero_add]) (V m c main_v51)

/-- Window 19's one block is its whole array, at every point. -/
theorem whole19 (t : Fin cfg0.N) : iblk m c 19 t = V m c main_v47 := by
  obtain ⟨h0, h1⟩ := idx19 t
  have hz : (fun a => win0_19.index t a * main_v47.ty.shape.size a) = fun _ => 0 := funext fun a => by
    match a with
    | ⟨0, _⟩ => show win0_19.index t (0 : Fin 2) * _ = 0; rw [h0, Nat.zero_mul]
    | ⟨1, _⟩ => show win0_19.index t (1 : Fin 2) * _ = 0; rw [h1, Nat.zero_mul]
  exact Memref.read_access_unit_zero (Elt Ideal) main_v47 hz (fun a => by rw [congrFun hz a, Nat.zero_add]) (V m c main_v47)

/-- Window 20's one block is its whole array, at every point. -/
theorem whole20 (t : Fin cfg0.N) : iblk m c 20 t = V m c main_arg13 := by
  obtain ⟨h0, h1⟩ := idx20 t
  have hz : (fun a => win0_20.index t a * main_arg13.ty.shape.size a) = fun _ => 0 := funext fun a => by
    match a with
    | ⟨0, _⟩ => show win0_20.index t (0 : Fin 2) * _ = 0; rw [h0, Nat.zero_mul]
    | ⟨1, _⟩ => show win0_20.index t (1 : Fin 2) * _ = 0; rw [h1, Nat.zero_mul]
  exact Memref.read_access_unit_zero (Elt Ideal) main_arg13 hz (fun a => by rw [congrFun hz a, Nat.zero_add]) (V m c main_arg13)

/-- Window 21's one block is its whole array, at every point. -/
theorem whole21 (t : Fin cfg0.N) : iblk m c 21 t = V m c main_arg15 := by
  obtain ⟨h0, h1⟩ := idx21 t
  have hz : (fun a => win0_21.index t a * main_arg15.ty.shape.size a) = fun _ => 0 := funext fun a => by
    match a with
    | ⟨0, _⟩ => show win0_21.index t (0 : Fin 2) * _ = 0; rw [h0, Nat.zero_mul]
    | ⟨1, _⟩ => show win0_21.index t (1 : Fin 2) * _ = 0; rw [h1, Nat.zero_mul]
  exact Memref.read_access_unit_zero (Elt Ideal) main_arg15 hz (fun a => by rw [congrFun hz a, Nat.zero_add]) (V m c main_arg15)

/-- Window 22's one block is its whole array, at every point. -/
theorem whole22 (t : Fin cfg0.N) : iblk m c 22 t = V m c main_v49 := by
  obtain ⟨h0, h1⟩ := idx22 t
  have hz : (fun a => win0_22.index t a * main_v49.ty.shape.size a) = fun _ => 0 := funext fun a => by
    match a with
    | ⟨0, _⟩ => show win0_22.index t (0 : Fin 2) * _ = 0; rw [h0, Nat.zero_mul]
    | ⟨1, _⟩ => show win0_22.index t (1 : Fin 2) * _ = 0; rw [h1, Nat.zero_mul]
  exact Memref.read_access_unit_zero (Elt Ideal) main_v49 hz (fun a => by rw [congrFun hz a, Nat.zero_add]) (V m c main_v49)

/-! ## The two results' blocks -/

/-- An element (p, q) of point t's block of output window 23 sits in the array at (2000 t + p, q). -/
theorem emb23 (t : Fin cfg0.N) (p : Fin 2000) (q : Fin 128) :
    ((cfg0.win 23).blk t).view.emb (ix2 p q : S2000x128.Idx) = (ix2 (row t p) q : S100000x128.Idx) := by
  obtain ⟨h0, h1⟩ := idx23 t
  funext a
  apply Fin.ext
  match a with
  | ⟨0, _⟩ => show win0_23.index t (0 : Fin 2) * 2000 + 1 * p.val = 2000 * t.val + p.val; rw [h0]; omega
  | ⟨1, _⟩ => show win0_23.index t (1 : Fin 2) * 128 + 1 * q.val = q.val; rw [h1]; omega

/-- Reading an array through point t's block of output window 23: entry (p, q) of the block is entry (2000 t + p, q). -/
theorem out23 (G : S100000x128.Idx → Elt Ideal .f32) (t : Fin cfg0.N) (p : Fin 2000) (q : Fin 128) :
    (((cfg0.win 23).blk t).view.read (Elt Ideal) G : S2000x128.Idx → Elt Ideal .f32) (ix2 p q) = G (ix2 (row t p) q) := by
  rw [View.read_apply]
  show G _ = G _
  rw [emb23]

/-- Every index of output window 23's array is in the block of the point its row falls in. -/
theorem cover23 : ∀ i : S100000x128.Idx, ∃ t : Fin cfg0.N, (cfg0.win 23).flush t = true ∧ i ∈ ((cfg0.win 23).blk t).view.set := by
  intro i
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  obtain ⟨h0, h1⟩ := idx23 t
  refine ⟨t, flush0_23 t, ?_⟩
  show i ∈ ((View.whole main_v52_0).slice (win0_23.rect t)).set
  rw [View.set_slice_whole, Rect.mem_set_unit]
  intro a
  match a with
  | ⟨0, _⟩ => show win0_23.index t (0 : Fin 2) * 2000 ≤ (i 0).val ∧ (i 0).val < win0_23.index t (0 : Fin 2) * 2000 + 2000; rw [h0, ht]; omega
  | ⟨1, _⟩ => show win0_23.index t (1 : Fin 2) * 128 ≤ (i 1).val ∧ (i 1).val < win0_23.index t (1 : Fin 2) * 128 + 128; rw [h1]; omega

/-- An element (p, q) of point t's block of output window 24 sits in the array at (2000 t + p, q). -/
theorem emb24 (t : Fin cfg0.N) (p : Fin 2000) (q : Fin 2) :
    ((cfg0.win 24).blk t).view.emb (ix2 p q : S2000x2.Idx) = (ix2 (row t p) q : S100000x2.Idx) := by
  obtain ⟨h0, h1⟩ := idx24 t
  funext a
  apply Fin.ext
  match a with
  | ⟨0, _⟩ => show win0_24.index t (0 : Fin 2) * 2000 + 1 * p.val = 2000 * t.val + p.val; rw [h0]; omega
  | ⟨1, _⟩ => show win0_24.index t (1 : Fin 2) * 2 + 1 * q.val = q.val; rw [h1]; omega

/-- Reading an array through point t's block of output window 24: entry (p, q) of the block is entry (2000 t + p, q). -/
theorem out24 (G : S100000x2.Idx → Elt Ideal .f32) (t : Fin cfg0.N) (p : Fin 2000) (q : Fin 2) :
    (((cfg0.win 24).blk t).view.read (Elt Ideal) G : S2000x2.Idx → Elt Ideal .f32) (ix2 p q) = G (ix2 (row t p) q) := by
  rw [View.read_apply]
  show G _ = G _
  rw [emb24]

/-- Every index of output window 24's array is in the block of the point its row falls in. -/
theorem cover24 : ∀ i : S100000x2.Idx, ∃ t : Fin cfg0.N, (cfg0.win 24).flush t = true ∧ i ∈ ((cfg0.win 24).blk t).view.set := by
  intro i
  have hi0 : (i 0).val < 100000 := (i 0).isLt
  have hi1 : (i 1).val < 2 := (i 1).isLt
  have hN : cfg0.N = 50 := N_0
  let t : Fin cfg0.N := ⟨(i 0).val / 2000, by rw [hN]; omega⟩
  have ht : t.val = (i 0).val / 2000 := rfl
  obtain ⟨h0, h1⟩ := idx24 t
  refine ⟨t, flush0_24 t, ?_⟩
  show i ∈ ((View.whole main_v52_1).slice (win0_24.rect t)).set
  rw [View.set_slice_whole, Rect.mem_set_unit]
  intro a
  match a with
  | ⟨0, _⟩ => show win0_24.index t (0 : Fin 2) * 2000 ≤ (i 0).val ∧ (i 0).val < win0_24.index t (0 : Fin 2) * 2000 + 2000; rw [h0, ht]; omega
  | ⟨1, _⟩ => show win0_24.index t (1 : Fin 2) * 2 ≤ (i 1).val ∧ (i 1).val < win0_24.index t (1 : Fin 2) * 2 + 2; rw [h1]; omega

end Cert.GruPair.Blk

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.HostPrep.lean ====
/-
  What the program prepares before its one kernel region, read at coordinates.

  Before the region runs, the program forms eighteen operand arrays from the argument arrays by layout operations
  and a little arithmetic. For each of the two recurrent cells, with input weights Wi (768 x 128), state weights
  Wh (768 x 256) and biases bi, bh (768 entries each):
    * the joined weights of the first two gates (384 x 512): the first 512 rows of Wi over the first 512 rows of Wh,
      transposed, every entry multiplied by one half on the left;
    * their joined bias (1 x 512): one half times (bi j + bh j) for j < 512;
    * the third gate's input weights (128 x 256): rows 512 … 767 of Wi, transposed, and its input bias (1 x 256):
      entries 512 … 767 of bi;
    * the third gate's state weights (256 x 256): rows 512 … 767 of Wh, transposed and halved, and its state bias
      (1 x 256): entries 512 … 767 of bh, halved.
  For the two heads: each state-head weight array (128 x 256) transposed, the sum of the two state-head biases as a
  row (1 x 128), and the two probability-head biases side by side as a row (1 x 2).

  Each preparation is first written as a function of arrays alone and read at coordinates there — once for both
  cells —, and then each prepared buffer is identified with that function of the argument buffers.
-/
import proofs.«133639_g47399259079245_cont_8to1c4_90_11_alg».proof.Proof.Arrays
import proofs.«133639_g47399259079245_cont_8to1c4_90_11_alg».proof.Proof.LibRow
import proofs.«133639_g47399259079245_cont_8to1c4_90_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.GruPair.Prep

open Cert.GruPair Idealize.ShloMosaic Idealize.ShloMosaic.ValueIdx Idealize.ShloMosaic.TcCoe Cert.KernelIdeal Cert.KernelIdeal.Gen

/-! ## Layout operations read at coordinates

Each lemma below reads one host operation (or a short chain of them) at explicit coordinates, for arrays of the
literal shapes the preparation uses. -/

section Pure

/-- The scalar one half, broadcast to any shape, reads one half everywhere. -/
theorem bcast_half_apply {t : Shape} (h : S_.BroadcastsInDim t (![] : Fin 0 → Fin t.rank)) (i : t.Idx) :
    broadcastInDim t ![] h (constant (F := Ideal) S_ .f32 0x3F000000#32) i = half :=
  broadcastInDim_apply _ h _ i (fun a => a.elim0) (fun a => a.elim0)

/-- Entry (k, j) of the transpose of a 768 x 128 array is its entry (j, k). -/
theorem tr128_apply (w : S768x128.Idx → EReal) (k : Fin 128) (j : Fin 768) :
    transpose S128x768 [1, 0] w transposes_S768x128_S128x768_1_0 (ix2 k j) = w (ix2 j k) :=
  transpose_apply [1, 0] w transposes_S768x128_S128x768_1_0 (ix2 k j) (ix2 j k) (fun b => match b with
    | ⟨0, _⟩ => rfl
    | ⟨1, _⟩ => rfl)

/-- Entry (k, j) of the transpose of a 768 x 256 array is its entry (j, k). -/
theorem tr256_apply (w : S768x256.Idx → EReal) (k : Fin 256) (j : Fin 768) :
    transpose S256x768 [1, 0] w transposes_S768x256_S256x768_1_0 (ix2 k j) = w (ix2 j k) :=
  transpose_apply [1, 0] w transposes_S768x256_S256x768_1_0 (ix2 k j) (ix2 j k) (fun b => match b with
    | ⟨0, _⟩ => rfl
    | ⟨1, _⟩ => rfl)

/-- Entry (k, j) of the transpose of a 128 x 256 array is its entry (j, k). -/
theorem trHead_apply (w : S128x256.Idx → EReal) (k : Fin 256) (q : Fin 128) :
    transpose S256x128 [1, 0] w transposes_S128x256_S256x128_1_0 (ix2 k q) = w (ix2 q k) :=
  transpose_apply [1, 0] w transposes_S128x256_S256x128_1_0 (ix2 k q) (ix2 q k) (fun b => match b with
    | ⟨0, _⟩ => rfl
    | ⟨1, _⟩ => rfl)

/-- The first 512 columns of a 128 x 768 array. -/
theorem cols_lo128_apply (y : S128x768.Idx → EReal) (k : Fin 128) (j : Fin 512) :
    extractStridedSlice S128x512 ![0, 0] y slices_S128x768_S128x512_0_0 (ix2 k j) = y (ix2 k (⟨j.val, by omega⟩ : Fin 768)) :=
  extractStridedSlice_apply ![0, 0] y slices_S128x768_S128x512_0_0 (ix2 k j) (ix2 k (⟨j.val, by omega⟩ : Fin 768)) (fun a => match a with
    | ⟨0, _⟩ => by show k.val = 0 + k.val; omega
    | ⟨1, _⟩ => by show j.val = 0 + j.val; omega)

/-- The first 512 columns of a 256 x 768 array. -/
theorem cols_lo256_apply (y : S256x768.Idx → EReal) (k : Fin 256) (j : Fin 512) :
    extractStridedSlice S256x512 ![0, 0] y slices_S256x768_S256x512_0_0 (ix2 k j) = y (ix2 k (⟨j.val, by omega⟩ : Fin 768)) :=
  extractStridedSlice_apply ![0, 0] y slices_S256x768_S256x512_0_0 (ix2 k j) (ix2 k (⟨j.val, by omega⟩ : Fin 768)) (fun a => match a with
    | ⟨0, _⟩ => by show k.val = 0 + k.val; omega
    | ⟨1, _⟩ => by show j.val = 0 + j.val; omega)

/-- The last 256 columns of a 128 x 768 array. -/
theorem cols_hi128_apply (y : S128x768.Idx → EReal) (k : Fin 128) (j : Fin 256) :
    extractStridedSlice S128x256 ![0, 512] y slices_S128x768_S128x256_0_512 (ix2 k j) = y (ix2 k (⟨512 + j.val, by omega⟩ : Fin 768)) :=
  extractStridedSlice_apply ![0, 512] y slices_S128x768_S128x256_0_512 (ix2 k j) (ix2 k (⟨512 + j.val, by omega⟩ : Fin 768)) (fun a => match a with
    | ⟨0, _⟩ => by show k.val = 0 + k.val; omega
    | ⟨1, _⟩ => by show 512 + j.val = 512 + j.val; rfl)

/-- The last 256 columns of a 256 x 768 array. -/
theorem cols_hi256_apply (y : S256x768.Idx → EReal) (k : Fin 256) (j : Fin 256) :
    extractStridedSlice S256x256 ![0, 512] y slices_S256x768_S256x256_0_512 (ix2 k j) = y (ix2 k (⟨512 + j.val, by omega⟩ : Fin 768)) :=
  extractStridedSlice_apply ![0, 512] y slices_S256x768_S256x256_0_512 (ix2 k j) (ix2 k (⟨512 + j.val, by omega⟩ : Fin 768)) (fun a => match a with
    | ⟨0, _⟩ => by show k.val = 0 + k.val; omega
    | ⟨1, _⟩ => by show 512 + j.val = 512 + j.val; rfl)

/-- The first 512 entries of a vector of 768. -/
theorem vec_lo_apply (b : S768.Idx → EReal) (j : Fin 512) :
    extractStridedSlice S512 ![0] b slices_S768_S512_0 (ix1 j) = b (ix1 (⟨j.val, by omega⟩ : Fin 768)) :=
  extractStridedSlice_apply ![0] b slices_S768_S512_0 (ix1 j) (ix1 (⟨j.val, by omega⟩ : Fin 768)) (fun a => match a with
    | ⟨0, _⟩ => by show j.val = 0 + j.val; omega)

/-- The last 256 entries of a vector of 768. -/
theorem vec_hi_apply (b : S768.Idx → EReal) (j : Fin 256) :
    extractStridedSlice S256 ![512] b slices_S768_S256_512 (ix1 j) = b (ix1 (⟨512 + j.val, by omega⟩ : Fin 768)) :=
  extractStridedSlice_apply ![512] b slices_S768_S256_512 (ix1 j) (ix1 (⟨512 + j.val, by omega⟩ : Fin 768)) (fun a => match a with
    | ⟨0, _⟩ => by show 512 + j.val = 512 + j.val; rfl)

/-- A 128 x 512 array stacked over a 256 x 512 one: the first 128 rows are the upper array's. -/
theorem stack_upper_apply (a : S128x512.Idx → EReal) (b : S256x512.Idx → EReal) (k : Fin 128) (j : Fin 512) :
    concatenate S384x512 0 [⟨S128x512, a⟩, ⟨S256x512, b⟩] concatenates_S128x512_S256x512_S384x512_d0
      (ix2 (⟨k.val, by omega⟩ : Fin 384) j) = a (ix2 k j) :=
  concatenate_pair_apply_left (0 : Fin S384x512.rank) a b concatenates_S128x512_S256x512_S384x512_d0
    (ix2 (⟨k.val, by omega⟩ : Fin 384) j) rfl (ix2 k j) (fun d => match d with
      | ⟨0, _⟩ => rfl
      | ⟨1, _⟩ => rfl)

/-- … and the remaining 256 rows are the lower array's. -/
theorem stack_lower_apply (a : S128x512.Idx → EReal) (b : S256x512.Idx → EReal) (k : Fin 256) (j : Fin 512) :
    concatenate S384x512 0 [⟨S128x512, a⟩, ⟨S256x512, b⟩] concatenates_S128x512_S256x512_S384x512_d0
      (ix2 (⟨128 + k.val, by omega⟩ : Fin 384) j) = b (ix2 k j) :=
  concatenate_pair_apply_right (0 : Fin S384x512.rank) a b concatenates_S128x512_S256x512_S384x512_d0
    (ix2 (⟨128 + k.val, by omega⟩ : Fin 384) j) rfl rfl (ix2 k j)
    (fun d => match d with
      | ⟨0, _⟩ => fun hne => absurd rfl hne
      | ⟨1, _⟩ => fun _ => rfl)
    (by show k.val + 128 = 128 + k.val; omega)

/-- Two one-entry vectors joined: entry 0 is the first vector's entry. -/
theorem pair_fst_apply (a b : S1.Idx → EReal) :
    concatenate S2 0 [⟨S1, a⟩, ⟨S1, b⟩] concatenates_S1_S1_S2_d0 (ix1 (0 : Fin 2)) = a (ix1 (0 : Fin 1)) :=
  concatenate_pair_apply_left (0 : Fin S2.rank) a b concatenates_S1_S1_S2_d0 (ix1 (0 : Fin 2)) rfl (ix1 (0 : Fin 1))
    (fun d => match d with
      | ⟨0, _⟩ => rfl)

/-- … and entry 1 the second vector's. -/
theorem pair_snd_apply (a b : S1.Idx → EReal) :
    concatenate S2 0 [⟨S1, a⟩, ⟨S1, b⟩] concatenates_S1_S1_S2_d0 (ix1 (1 : Fin 2)) = b (ix1 (0 : Fin 1)) :=
  concatenate_pair_apply_right (0 : Fin S2.rank) a b concatenates_S1_S1_S2_d0 (ix1 (1 : Fin 2)) rfl rfl (ix1 (0 : Fin 1))
    (fun d => match d with
      | ⟨0, _⟩ => fun hne => absurd rfl hne)
    (by show (0 : Fin 1).val + 1 = (1 : Fin 2).val; rfl)

end Pure

/-! ## The preparations as functions of arrays -/

section Preparations

/-- The joined weights of the first two gates: the first 512 columns of the two transposed weight arrays, one over
    the other, times one half. -/
def prepWrz (wi : S768x128.Idx → EReal) (wh : S768x256.Idx → EReal) : S384x512.Idx → EReal :=
  mulf (broadcastInDim S384x512 ![] bcast_S_S384x512 (constant (F := Ideal) S_ .f32 0x3F000000#32))
    (concatenate S384x512 0
      [⟨S128x512, extractStridedSlice S128x512 ![0, 0] (transpose S128x768 [1, 0] wi transposes_S768x128_S128x768_1_0) slices_S128x768_S128x512_0_0⟩,
       ⟨S256x512, extractStridedSlice S256x512 ![0, 0] (transpose S256x768 [1, 0] wh transposes_S768x256_S256x768_1_0) slices_S256x768_S256x512_0_0⟩]
      concatenates_S128x512_S256x512_S384x512_d0)

theorem prepWrz_upper (wi : S768x128.Idx → EReal) (wh : S768x256.Idx → EReal) (k : Fin 128) (j : Fin 512) :
    prepWrz wi wh (ix2 (⟨k.val, by omega⟩ : Fin 384) j) = half * wi (ix2 (⟨j.val, by omega⟩ : Fin 768) k) := by
  unfold prepWrz
  rw [mulf_apply, bcast_half_apply, stack_upper_apply, cols_lo128_apply, tr128_apply]

theorem prepWrz_lower (wi : S768x128.Idx → EReal) (wh : S768x256.Idx → EReal) (k : Fin 256) (j : Fin 512) :
    prepWrz wi wh (ix2 (⟨128 + k.val, by omega⟩ : Fin 384) j) = half * wh (ix2 (⟨j.val, by omega⟩ : Fin 768) k) := by
  unfold prepWrz
  rw [mulf_apply, bcast_half_apply, stack_lower_apply, cols_lo256_apply, tr256_apply]

/-- The joined bias of the first two gates: one half times the sum of the two biases' first 512 entries, as a row. -/
def prepBrz (bi bh : S768.Idx → EReal) : S1x512.Idx → EReal :=
  shapeCast S1x512
    (mulf (broadcastInDim S512 ![] bcast_S_S512 (constant (F := Ideal) S_ .f32 0x3F000000#32))
      (addf (extractStridedSlice S512 ![0] bi slices_S768_S512_0) (extractStridedSlice S512 ![0] bh slices_S768_S512_0)))
    shapeCasts_S512_S1x512

theorem prepBrz_apply (bi bh : S768.Idx → EReal) (j : Fin 512) :
    prepBrz bi bh (ix2 (0 : Fin 1) j)
      = half * (bi (ix1 (⟨j.val, by omega⟩ : Fin 768)) + bh (ix1 (⟨j.val, by omega⟩ : Fin 768))) := by
  unfold prepBrz
  rw [Cert.LibRow.row_apply, mulf_apply, bcast_half_apply, addf_apply, vec_lo_apply, vec_lo_apply]

/-- The third gate's input weights: the last 256 columns of the transposed input weights. -/
def prepWin (wi : S768x128.Idx → EReal) : S128x256.Idx → EReal :=
  extractStridedSlice S128x256 ![0, 512] (transpose S128x768 [1, 0] wi transposes_S768x128_S128x768_1_0) slices_S128x768_S128x256_0_512

theorem prepWin_apply (wi : S768x128.Idx → EReal) (k : Fin 128) (j : Fin 256) :
    prepWin wi (ix2 k j) = wi (ix2 (⟨512 + j.val, by omega⟩ : Fin 768) k) := by
  unfold prepWin
  rw [cols_hi128_apply, tr128_apply]

/-- The third gate's input bias: the last 256 entries of the input bias, as a row. -/
def prepBin (bi : S768.Idx → EReal) : S1x256.Idx → EReal :=
  shapeCast S1x256 (extractStridedSlice S256 ![512] bi slices_S768_S256_512) shapeCasts_S256_S1x256

theorem prepBin_apply (bi : S768.Idx → EReal) (j : Fin 256) :
    prepBin bi (ix2 (0 : Fin 1) j) = bi (ix1 (⟨512 + j.val, by omega⟩ : Fin 768)) := by
  unfold prepBin
  rw [Cert.LibRow.row_apply, vec_hi_apply]

/-- The third gate's state weights: the last 256 columns of the transposed state weights, times one half. -/
def prepWhn (wh : S768x256.Idx → EReal) : S256x256.Idx → EReal :=
  mulf (broadcastInDim S256x256 ![] bcast_S_S256x256 (constant (F := Ideal) S_ .f32 0x3F000000#32))
    (extractStridedSlice S256x256 ![0, 512] (transpose S256x768 [1, 0] wh transposes_S768x256_S256x768_1_0) slices_S256x768_S256x256_0_512)

theorem prepWhn_apply (wh : S768x256.Idx → EReal) (k j : Fin 256) :
    prepWhn wh (ix2 k j) = half * wh (ix2 (⟨512 + j.val, by omega⟩ : Fin 768) k) := by
  unfold prepWhn
  rw [mulf_apply, bcast_half_apply, cols_hi256_apply, tr256_apply]

/-- The third gate's state bias: the last 256 entries of the state bias, times one half, as a row. -/
def prepBhn (bh : S768.Idx → EReal) : S1x256.Idx → EReal :=
  shapeCast S1x256
    (mulf (broadcastInDim S256 ![] bcast_S_S256 (constant (F := Ideal) S_ .f32 0x3F000000#32))
      (extractStridedSlice S256 ![512] bh slices_S768_S256_512))
    shapeCasts_S256_S1x256

theorem prepBhn_apply (bh : S768.Idx → EReal) (j : Fin 256) :
    prepBhn bh (ix2 (0 : Fin 1) j) = half * bh (ix1 (⟨512 + j.val, by omega⟩ : Fin 768)) := by
  unfold prepBhn
  rw [Cert.LibRow.row_apply, mulf_apply, bcast_half_apply, vec_hi_apply]

/-- A state-head weight array, transposed. -/
def prepHead (w : S128x256.Idx → EReal) : S256x128.Idx → EReal :=
  transpose S256x128 [1, 0] w transposes_S128x256_S256x128_1_0

theorem prepHead_apply (w : S128x256.Idx → EReal) (k : Fin 256) (q : Fin 128) : prepHead w (ix2 k q) = w (ix2 q k) := by
  unfold prepHead
  rw [trHead_apply]

/-- The sum of the two state-head biases, as a row. -/
def prepBhead (a b : S128.Idx → EReal) : S1x128.Idx → EReal :=
  shapeCast S1x128 (addf a b : FVec Ideal S128 .f32) shapeCasts_S128_S1x128

theorem prepBhead_apply (a b : S128.Idx → EReal) (q : Fin 128) :
    prepBhead a b (ix2 (0 : Fin 1) q) = a (ix1 q) + b (ix1 q) := by
  unfold prepBhead
  rw [Cert.LibRow.row_apply, addf_apply]

/-- The two probability-head biases side by side, as a row. -/
def prepBprob (a b : S1.Idx → EReal) : S1x2.Idx → EReal :=
  shapeCast S1x2 (concatenate S2 0 [⟨S1, a⟩, ⟨S1, b⟩] concatenates_S1_S1_S2_d0) shapeCasts_S2_S1x2

theorem prepBprob_fst (a b : S1.Idx → EReal) : prepBprob a b (ix2 (0 : Fin 1) (0 : Fin 2)) = a (ix1 (0 : Fin 1)) := by
  unfold prepBprob
  rw [Cert.LibRow.row_apply, pair_fst_apply]

theorem prepBprob_snd (a b : S1.Idx → EReal) : prepBprob a b (ix2 (0 : Fin 1) (1 : Fin 2)) = b (ix1 (0 : Fin 1)) := by
  unfold prepBprob
  rw [Cert.LibRow.row_apply, pair_snd_apply]

end Preparations

/-! ## The argument buffers, as arrays

No operation before the region writes an argument buffer; argument K as launched is `argK`. -/

section Arguments
variable (m : (ℓ : Loc nD τ sig) → Buf (Elt Ideal) ℓ) (c : Dev nD)

abbrev arg5 : S768x128.Idx → EReal := m ((c : Thread nD τ).loc main_arg5)
abbrev arg6 : S768x256.Idx → EReal := m ((c : Thread nD τ).loc main_arg6)
abbrev arg7 : S768.Idx → EReal := m ((c : Thread nD τ).loc main_arg7)
abbrev arg8 : S768.Idx → EReal := m ((c : Thread nD τ).loc main_arg8)
abbrev arg9 : S768x128.Idx → EReal := m ((c : Thread nD τ).loc main_arg9)
abbrev arg10 : S768x256.Idx → EReal := m ((c : Thread nD τ).loc main_arg10)
abbrev arg11 : S768.Idx → EReal := m ((c : Thread nD τ).loc main_arg11)
abbrev arg12 : S768.Idx → EReal := m ((c : Thread nD τ).loc main_arg12)
abbrev arg14 : S1.Idx → EReal := m ((c : Thread nD τ).loc main_arg14)
abbrev arg16 : S1.Idx → EReal := m ((c : Thread nD τ).loc main_arg16)
abbrev arg17 : S128x256.Idx → EReal := m ((c : Thread nD τ).loc main_arg17)
abbrev arg18 : S128.Idx → EReal := m ((c : Thread nD τ).loc main_arg18)
abbrev arg19 : S128x256.Idx → EReal := m ((c : Thread nD τ).loc main_arg19)
abbrev arg20 : S128.Idx → EReal := m ((c : Thread nD τ).loc main_arg20)

end Arguments

variable (m : (ℓ : Loc nD τ sig) → Buf (Elt Ideal) ℓ) (c : Dev nD)

/-! ## The first (depth) cell's prepared buffers -/

section DepthCell

theorem e_v6 : (V m c main_v6 : S384x512.Idx → EReal) = prepWrz (arg5 m c) (arg6 m c) := by
  dsimp only [Gen.V, Gen.hostOps0]
  after_results
  rfl

theorem e_v12 : (V m c main_v12 : S1x512.Idx → EReal) = prepBrz (arg7 m c) (arg8 m c) := by
  dsimp only [Gen.V, Gen.hostOps0]
  after_results_simp
  rfl

theorem e_v13 : (V m c main_v13 : S128x256.Idx → EReal) = prepWin (arg5 m c) := by
  dsimp only [Gen.V, Gen.hostOps0]
  after_results
  rfl

theorem e_v15 : (V m c main_v15 : S1x256.Idx → EReal) = prepBin (arg7 m c) := by
  dsimp only [Gen.V, Gen.hostOps0]
  after_results
  rfl

theorem e_v18 : (V m c main_v18 : S256x256.Idx → EReal) = prepWhn (arg6 m c) := by
  dsimp only [Gen.V, Gen.hostOps0]
  after_results
  rfl

theorem e_v22 : (V m c main_v22 : S1x256.Idx → EReal) = prepBhn (arg8 m c) := by
  dsimp only [Gen.V, Gen.hostOps0]
  after_results
  rfl

/-- The joined weights' first 128 rows: the input weights' first 512 rows, transposed and halved. -/
theorem v6_upper (k : Fin 128) (j : Fin 512) :
    (V m c main_v6 : S384x512.Idx → EReal) (ix2 (⟨k.val, by omega⟩ : Fin 384) j)
      = half * (arg5 m c) (ix2 (⟨j.val, by omega⟩ : Fin 768) k) := by
  rw [e_v6, prepWrz_upper]

/-- The joined weights' remaining 256 rows: the state weights' first 512 rows, transposed and halved. -/
theorem v6_lower (k : Fin 256) (j : Fin 512) :
    (V m c main_v6 : S384x512.Idx → EReal) (ix2 (⟨128 + k.val, by omega⟩ : Fin 384) j)
      = half * (arg6 m c) (ix2 (⟨j.val, by omega⟩ : Fin 768) k) := by
  rw [e_v6, prepWrz_lower]

/-- The joined bias: half the sum of the two biases' first 512 entries. -/
theorem v12_apply (j : Fin 512) :
    (V m c main_v12 : S1x512.Idx → EReal) (ix2 (0 : Fin 1) j)
      = half * ((arg7 m c) (ix1 (⟨j.val, by omega⟩ : Fin 768)) + (arg8 m c) (ix1 (⟨j.val, by omega⟩ : Fin 768))) := by
  rw [e_v12, prepBrz_apply]

/-- The third gate's input weights: the input weights' rows 512 … 767, transposed. -/
theorem v13_apply (k : Fin 128) (j : Fin 256) :
    (V m c main_v13 : S128x256.Idx → EReal) (ix2 k j) = (arg5 m c) (ix2 (⟨512 + j.val, by omega⟩ : Fin 768) k) := by
  rw [e_v13, prepWin_apply]

/-- The third gate's input bias: the input bias's entries 512 … 767. -/
theorem v15_apply (j : Fin 256) :
    (V m c main_v15 : S1x256.Idx → EReal) (ix2 (0 : Fin 1) j) = (arg7 m c) (ix1 (⟨512 + j.val, by omega⟩ : Fin 768)) := by
  rw [e_v15, prepBin_apply]

/-- The third gate's state weights: the state weights' rows 512 … 767, transposed and halved. -/
theorem v18_apply (k j : Fin 256) :
    (V m c main_v18 : S256x256.Idx → EReal) (ix2 k j) = half * (arg6 m c) (ix2 (⟨512 + j.val, by omega⟩ : Fin 768) k) := by
  rw [e_v18, prepWhn_apply]

/-- The third gate's state bias: the state bias's entries 512 … 767, halved. -/
theorem v22_apply (j : Fin 256) :
    (V m c main_v22 : S1x256.Idx → EReal) (ix2 (0 : Fin 1) j) = half * (arg8 m c) (ix1 (⟨512 + j.val, by omega⟩ : Fin 768)) := by
  rw [e_v22, prepBhn_apply]

end DepthCell

/-! ## The second (width) cell's prepared buffers -/

section WidthCell

theorem e_v29 : (V m c main_v29 : S384x512.Idx → EReal) = prepWrz (arg9 m c) (arg10 m c) := by
  dsimp only [Gen.V, Gen.hostOps0]
  after_results_simp
  rfl

theorem e_v35 : (V m c main_v35 : S1x512.Idx → EReal) = prepBrz (arg11 m c) (arg12 m c) := by
  dsimp only [Gen.V, Gen.hostOps0]
  after_results_simp
  rfl

theorem e_v36 : (V m c main_v36 : S128x256.Idx → EReal) = prepWin (arg9 m c) := by
  dsimp only [Gen.V, Gen.hostOps0]
  after_results
  rfl

theorem e_v38 : (V m c main_v38 : S1x256.Idx → EReal) = prepBin (arg11 m c) := by
  dsimp only [Gen.V, Gen.hostOps0]
  after_results
  rfl

theorem e_v41 : (V m c main_v41 : S256x256.Idx → EReal) = prepWhn (arg10 m c) := by
  dsimp only [Gen.V, Gen.hostOps0]
  after_results
  rfl

theorem e_v45 : (V m c main_v45 : S1x256.Idx → EReal) = prepBhn (arg12 m c) := by
  dsimp only [Gen.V, Gen.hostOps0]
  after_results_simp
  rfl

/-- The joined weights' first 128 rows: the input weights' first 512 rows, transposed and halved. -/
theorem v29_upper (k : Fin 128) (j : Fin 512) :
    (V m c main_v29 : S384x512.Idx → EReal) (ix2 (⟨k.val, by omega⟩ : Fin 384) j)
      = half * (arg9 m c) (ix2 (⟨j.val, by omega⟩ : Fin 768) k) := by
  rw [e_v29, prepWrz_upper]

/-- The joined weights' remaining 256 rows: the state weights' first 512 rows, transposed and halved. -/
theorem v29_lower (k : Fin 256) (j : Fin 512) :
    (V m c main_v29 : S384x512.Idx → EReal) (ix2 (⟨128 + k.val, by omega⟩ : Fin 384) j)
      = half * (arg10 m c) (ix2 (⟨j.val, by omega⟩ : Fin 768) k) := by
  rw [e_v29, prepWrz_lower]

/-- The joined bias: half the sum of the two biases' first 512 entries. -/
theorem v35_apply (j : Fin 512) :
    (V m c main_v35 : S1x512.Idx → EReal) (ix2 (0 : Fin 1) j)
      = half * ((arg11 m c) (ix1 (⟨j.val, by omega⟩ : Fin 768)) + (arg12 m c) (ix1 (⟨j.val, by omega⟩ : Fin 768))) := by
  rw [e_v35, prepBrz_apply]

/-- The third gate's input weights: the input weights' rows 512 … 767, transposed. -/
theorem v36_apply (k : Fin 128) (j : Fin 256) :
    (V m c main_v36 : S128x256.Idx → EReal) (ix2 k j) = (arg9 m c) (ix2 (⟨512 + j.val, by omega⟩ : Fin 768) k) := by
  rw [e_v36, prepWin_apply]

/-- The third gate's input bias: the input bias's entries 512 … 767. -/
theorem v38_apply (j : Fin 256) :
    (V m c main_v38 : S1x256.Idx → EReal) (ix2 (0 : Fin 1) j) = (arg11 m c) (ix1 (⟨512 + j.val, by omega⟩ : Fin 768)) := by
  rw [e_v38, prepBin_apply]

/-- The third gate's state weights: the state weights' rows 512 … 767, transposed and halved. -/
theorem v41_apply (k j : Fin 256) :
    (V m c main_v41 : S256x256.Idx → EReal) (ix2 k j) = half * (arg10 m c) (ix2 (⟨512 + j.val, by omega⟩ : Fin 768) k) := by
  rw [e_v41, prepWhn_apply]

/-- The third gate's state bias: the state bias's entries 512 … 767, halved. -/
theorem v45_apply (j : Fin 256) :
    (V m c main_v45 : S1x256.Idx → EReal) (ix2 (0 : Fin 1) j) = half * (arg12 m c) (ix1 (⟨512 + j.val, by omega⟩ : Fin 768)) := by
  rw [e_v45, prepBhn_apply]

end WidthCell

/-! ## The heads' prepared buffers -/

section Heads

theorem e_v50 : (V m c main_v50 : S256x128.Idx → EReal) = prepHead (arg17 m c) := by
  dsimp only [Gen.V, Gen.hostOps0]
  after_results
  rfl

theorem e_v51 : (V m c main_v51 : S256x128.Idx → EReal) = prepHead (arg19 m c) := by
  dsimp only [Gen.V, Gen.hostOps0]
  after_results
  rfl

theorem e_v47 : (V m c main_v47 : S1x128.Idx → EReal) = prepBhead (arg18 m c) (arg20 m c) := by
  dsimp only [Gen.V, Gen.hostOps0]
  after_results_simp
  rfl

theorem e_v49 : (V m c main_v49 : S1x2.Idx → EReal) = prepBprob (arg14 m c) (arg16 m c) := by
  dsimp only [Gen.V, Gen.hostOps0]
  after_results_simp
  rfl

/-- The first state-head weights, transposed. -/
theorem v50_apply (k : Fin 256) (q : Fin 128) :
    (V m c main_v50 : S256x128.Idx → EReal) (ix2 k q) = ((arg17 m c) : S128x256.Idx → EReal) (ix2 q k) := by
  rw [e_v50, prepHead_apply]

/-- The second state-head weights, transposed. -/
theorem v51_apply (k : Fin 256) (q : Fin 128) :
    (V m c main_v51 : S256x128.Idx → EReal) (ix2 k q) = ((arg19 m c) : S128x256.Idx → EReal) (ix2 q k) := by
  rw [e_v51, prepHead_apply]

/-- The state head's bias: the sum of the two biases. -/
theorem v47_apply (q : Fin 128) :
    (V m c main_v47 : S1x128.Idx → EReal) (ix2 (0 : Fin 1) q)
      = ((arg18 m c) : S128.Idx → EReal) (ix1 q) + ((arg20 m c) : S128.Idx → EReal) (ix1 q) := by
  rw [e_v47, prepBhead_apply]

/-- The probability head's bias row: its first entry is the first bias … -/
theorem v49_fst :
    (V m c main_v49 : S1x2.Idx → EReal) (ix2 (0 : Fin 1) (0 : Fin 2)) = ((arg14 m c) : S1.Idx → EReal) (ix1 (0 : Fin 1)) := by
  rw [e_v49, prepBprob_fst]

/-- … and its second entry the second bias. -/
theorem v49_snd :
    (V m c main_v49 : S1x2.Idx → EReal) (ix2 (0 : Fin 1) (1 : Fin 2)) = ((arg16 m c) : S1.Idx → EReal) (ix1 (0 : Fin 1)) := by
  rw [e_v49, prepBprob_snd]

end Heads

end Cert.GruPair.Prep

end
-- ==== Proof.KernelSide.lean ====
/-
  The kernel's run, read: after every weakly fair execution the two result arrays hold the specification of the
  argument arrays, the arguments unchanged. Each grid point writes back block t of the specification (rows
  2000 t … 2000 t + 1999), and the fifty blocks cover both arrays.
-/
import proofs.«133639_g47399259079245_cont_8to1c4_90_11_alg».proof.Proof.Gen.KernelIdeal.Value
import proofs.«133639_g47399259079245_cont_8to1c4_90_11_alg».proof.Proof.BlockLaw
import proofs.«133639_g47399259079245_cont_8to1c4_90_11_alg».proof.Proof.Arrays
import proofs.«133639_g47399259079245_cont_8to1c4_90_11_alg».proof.Proof.BlockIdx
import proofs.«133639_g47399259079245_cont_8to1c4_90_11_alg».proof.Proof.HostPrep

noncomputable section

namespace Cert.GruPair.Ker

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- Device c's argument arrays, by coordinates. -/
def argsK (c : Dev nD) : Args :=
  argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

theorem hz : (![0, 0] : Fin 2 → Nat) = fun _ => 0 := funext fun a => by fin_cases a <;> rfl

/-- At point t, row p of the loaded blocks is row 2000 t + p of the arguments, and the loaded weights are what the
    preparation before the region makes of the arguments. -/
theorem loaded (c : Dev nD) (t : Fin cfg0.N) (p : Fin 2000) :
    Loaded (argsK m c) (Blk.row t p) p (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) where
  h0 := fun k => Blk.rows0 m c t p k
  h1 := fun k => Blk.rows1 m c t p k
  h2 := fun k => Blk.rows2 m c t p k
  h3 := fun k => Blk.rows3 m c t p k
  h4 := fun k => Blk.rows4 m c t p k
  h5l := fun k j' => (congrFun (Blk.whole5 m c t) _).trans (Prep.v6_upper m c k j')
  h5r := fun k j' => (congrFun (Blk.whole5 m c t) _).trans (Prep.v6_lower m c k j')
  h6 := fun k j => (congrFun (Blk.whole6 m c t) _).trans (Prep.v13_apply m c k j)
  h7 := fun k j => (congrFun (Blk.whole7 m c t) _).trans (Prep.v18_apply m c k j)
  h8l := fun k j' => (congrFun (Blk.whole8 m c t) _).trans (Prep.v29_upper m c k j')
  h8r := fun k j' => (congrFun (Blk.whole8 m c t) _).trans (Prep.v29_lower m c k j')
  h9 := fun k j => (congrFun (Blk.whole9 m c t) _).trans (Prep.v36_apply m c k j)
  h10 := fun k j => (congrFun (Blk.whole10 m c t) _).trans (Prep.v41_apply m c k j)
  h11 := fun j' => (congrFun (Blk.whole11 m c t) _).trans (Prep.v12_apply m c j')
  h12 := fun j => (congrFun (Blk.whole12 m c t) _).trans (Prep.v15_apply m c j)
  h13 := fun j => (congrFun (Blk.whole13 m c t) _).trans (Prep.v22_apply m c j)
  h14 := fun j' => (congrFun (Blk.whole14 m c t) _).trans (Prep.v35_apply m c j')
  h15 := fun j => (congrFun (Blk.whole15 m c t) _).trans (Prep.v38_apply m c j)
  h16 := fun j => (congrFun (Blk.whole16 m c t) _).trans (Prep.v45_apply m c j)
  h17 := fun k q => (congrFun (Blk.whole17 m c t) _).trans (Prep.v50_apply m c k q)
  h18 := fun k q => (congrFun (Blk.whole18 m c t) _).trans (Prep.v51_apply m c k q)
  h19 := fun q => (congrFun (Blk.whole19 m c t) _).trans (Prep.v47_apply m c q)
  h20 := fun k => (congrFun (Blk.whole20 m c t) _).trans (congrFun (V_main_arg13 m c) _)
  h21 := fun k => (congrFun (Blk.whole21 m c t) _).trans (congrFun (V_main_arg15 m c) _)
  h22a := (congrFun (Blk.whole22 m c t) _).trans (Prep.v49_fst m c)
  h22f := (congrFun (Blk.whole22 m c t) _).trans (Prep.v49_snd m c)

/-- What point t writes back to the first result is block t of the specification. -/
theorem flushed23_eq (c : Dev nD) (R : RealArgs (argsK m c)) (t : Fin cfg0.N) :
    (dats m 0 c).flushed 23 t = ((cfg0.win 23).blk t).view.read (Elt Ideal) (GH (argsK m c)) := by
  rw [Value.flushed23]
  unfold out0_23
  rw [View.canon_unit_zero hz]
  simp only [View.ld_unit_zero (S := S2000x128) hz, View.ld_unit_zero (S := S384x512) hz, View.ld_unit_zero (S := S128x256) hz, View.ld_unit_zero (S := S256x256) hz, View.ld_unit_zero (S := S1x512) hz, View.ld_unit_zero (S := S1x256) hz, View.ld_unit_zero (S := S256x128) hz, View.ld_unit_zero (S := S1x128) hz, View.ld_unit_zero (S := S1x2) hz, View.ld_unit_zero (S := S2000x2) hz]
  funext y
  obtain ⟨p, q, rfl⟩ : ∃ (p : Fin 2000) (q : Fin 128), y = ix2 p q := ⟨y 0, y 1, eq_ix2 y⟩
  refine Eq.trans ?_ (Blk.out23 (GH (argsK m c)) t p q).symm
  exact (loaded m c t p).outH R q

/-- What point t writes back to the second result is block t of the specification. -/
theorem flushed24_eq (c : Dev nD) (R : RealArgs (argsK m c)) (t : Fin cfg0.N) :
    (dats m 0 c).flushed 24 t = ((cfg0.win 24).blk t).view.read (Elt Ideal) (GP (argsK m c)) := by
  rw [Value.flushed24]
  unfold out0_24
  rw [View.canon_unit_zero hz]
  simp only [View.ld_unit_zero (S := S2000x128) hz, View.ld_unit_zero (S := S384x512) hz, View.ld_unit_zero (S := S128x256) hz, View.ld_unit_zero (S := S256x256) hz, View.ld_unit_zero (S := S1x512) hz, View.ld_unit_zero (S := S1x256) hz, View.ld_unit_zero (S := S256x128) hz, View.ld_unit_zero (S := S1x128) hz, View.ld_unit_zero (S := S1x2) hz, View.ld_unit_zero (S := S2000x2) hz]
  funext y
  obtain ⟨p, q, rfl⟩ : ∃ (p : Fin 2000) (q : Fin 2), y = ix2 p q := ⟨y 0, y 1, eq_ix2 y⟩
  refine Eq.trans ?_ (Blk.out24 (GP (argsK m c)) t p q).symm
  exact (loaded m c t p).outP R q

/-- The first result array after the run. -/
theorem final_h (c : Dev nD) (R : RealArgs (argsK m c)) : (dats m 0 c).arrAt 23 cfg0.N = GH (argsK m c) :=
  (dats m 0 c).arrAt_eq_of_cover 23 (GH (argsK m c)) (fun t _ => flushed23_eq m c R t) Blk.cover23

/-- The second result array after the run. -/
theorem final_p (c : Dev nD) (R : RealArgs (argsK m c)) : (dats m 0 c).arrAt 24 cfg0.N = GP (argsK m c) :=
  (dats m 0 c).arrAt_eq_of_cover 24 (GP (argsK m c)) (fun t _ => flushed24_eq m c R t) Blk.cover24

/-- The run with both result arrays at the specification. -/
theorem run (R : ∀ c, RealArgs (argsK m c)) :
    θ_run defs (onTc (τ := τ) (main (F := Ideal))) ⟨m, fun _ => 0, ρ⟩ fun r => ∀ c : Dev nD,
      r.2.mem ((c : Thread nD τ).loc main_v52_0) = GH (argsK m c)
      ∧ r.2.mem ((c : Thread nD τ).loc main_v52_1) = GP (argsK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final_h m c (R c)), (h c).2.1.trans (final_p m c (R c)), (h c).2.2⟩)
    (Value.run_blocks m ρ)

end Cert.GruPair.Ker

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  Finiteness of the argument arrays. The precondition of the certificate says that, on every device, the
  conjunction over the 21 argument arrays of "every entry has absolute value below +infinity" evaluates to 1.
  Read at the extended reals, an entry x with max x (-x) < ⊤ is neither ⊤ nor ⊥, hence a real number.
  So every entry of every argument array is (the image of) a real number.
-/
import proofs.«133639_g47399259079245_cont_8to1c4_90_11_alg».proof.Defs
import proofs.«133639_g47399259079245_cont_8to1c4_90_11_alg».proof.Proof.Gen.Pre_finite_inputs
import proofs.«133639_g47399259079245_cont_8to1c4_90_11_alg».proof.Proof.LibSums
import Idealize.ShloMosaic.Lib.ReduceAll
import Idealize.ShloMosaic.Lib.ValueIdx

noncomputable section

open Idealize.ShloMosaic Idealize.ShloMosaic.ValueIdx Idealize.SL.Sem

namespace Cert.GruPair.Finite

open Cert.Pre_finite_inputs

/-- The rank-0 index set has one element. -/
instance subsingleton_scalar_idx : Subsingleton S_.Idx := ⟨fun a b => funext fun d => d.elim0⟩

/-- One array's test: if the conjunction over all entries of "|x i| is below the word of +infinity" is 1,
    every entry of x is a real number. -/
theorem all_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant S_ .f32 0x7F800000#32)))
          (constantI S_ 1 1#1) hr hu ix0 = 1#1) :
    ∀ i, ∃ r : ℝ, x i = (r : EReal) := by
  intro i
  have h1 := Host.reduce_andi_all _ _ hr hu ix0 e i
  exact Cert.LibSums.real_of_finite_bit (x i) h1

/-- One step of the running conjunction: if (prev and (the test of x)) is 1 then prev is 1 and every entry of x is real. -/
theorem peel {s : Shape} {axes : List (Fin s.rank)}
    (hb : S_.BroadcastsInDim s (![] : Fin 0 → Fin s.rank)) (hr : s.ReducesTo axes S_) (hu : 0 < S_.numel)
    (x : FVec Ideal s .f32) (prev : IVec S_ 1)
    (e : andi prev (Host.reduce IntOp.andi
          (cmpf .olt (Host.absf x) (broadcastInDim s ![] hb (constant S_ .f32 0x7F800000#32)))
          (constantI S_ 1 1#1) hr hu) ix0 = 1#1) :
    prev ix0 = 1#1 ∧ ∀ i, ∃ r : ℝ, x i = (r : EReal) := by
  obtain ⟨h1, h2⟩ := IntOp.andi_eq_one.1 e
  exact ⟨h1, all_real hb hr hu x h2⟩

variable [hP : Cert.Pre_finite_inputs.Facts]

/-- Every entry of every argument array is a real number: the 21 tests of the precondition, peeled from the
    outermost conjunct (the last array) inward. -/
theorem reals (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal))
    ∧ (∀ i, ∃ r : ℝ, m ((c.tc : Thread Cert.KernelIdeal.nD Cert.KernelIdeal.τ).loc Cert.KernelIdeal.main_arg14) i = (r : EReal))
    ∧ (∀ i, ∃ r : ℝ, m ((c.tc : Thread Cert.KernelIdeal.nD Cert.KernelIdeal.τ).loc Cert.KernelIdeal.main_arg15) i = (r : EReal))
    ∧ (∀ i, ∃ r : ℝ, m ((c.tc : Thread Cert.KernelIdeal.nD Cert.KernelIdeal.τ).loc Cert.KernelIdeal.main_arg16) i = (r : EReal))
    ∧ (∀ i, ∃ r : ℝ, m ((c.tc : Thread Cert.KernelIdeal.nD Cert.KernelIdeal.τ).loc Cert.KernelIdeal.main_arg17) i = (r : EReal))
    ∧ (∀ i, ∃ r : ℝ, m ((c.tc : Thread Cert.KernelIdeal.nD Cert.KernelIdeal.τ).loc Cert.KernelIdeal.main_arg18) i = (r : EReal))
    ∧ (∀ i, ∃ r : ℝ, m ((c.tc : Thread Cert.KernelIdeal.nD Cert.KernelIdeal.τ).loc Cert.KernelIdeal.main_arg19) i = (r : EReal))
    ∧ (∀ i, ∃ r : ℝ, m ((c.tc : Thread Cert.KernelIdeal.nD Cert.KernelIdeal.τ).loc Cert.KernelIdeal.main_arg20) i = (r : EReal)) := by
  have h20 := congrFun (h c) ix0
  obtain ⟨h19, r20⟩ := peel (s := S128) (x := m ((c.tc : Thread Cert.KernelIdeal.nD Cert.KernelIdeal.τ).loc Cert.KernelIdeal.main_arg20)) _ _ _ _ h20
  obtain ⟨h18, r19⟩ := peel (s := S128x256) (x := m ((c.tc : Thread Cert.KernelIdeal.nD Cert.KernelIdeal.τ).loc Cert.KernelIdeal.main_arg19)) _ _ _ _ h19
  obtain ⟨h17, r18⟩ := peel (s := S128) (x := m ((c.tc : Thread Cert.KernelIdeal.nD Cert.KernelIdeal.τ).loc Cert.KernelIdeal.main_arg18)) _ _ _ _ h18
  obtain ⟨h16, r17⟩ := peel (s := S128x256) (x := m ((c.tc : Thread Cert.KernelIdeal.nD Cert.KernelIdeal.τ).loc Cert.KernelIdeal.main_arg17)) _ _ _ _ h17
  obtain ⟨h15, r16⟩ := peel (s := S1) (x := m ((c.tc : Thread Cert.KernelIdeal.nD Cert.KernelIdeal.τ).loc Cert.KernelIdeal.main_arg16)) _ _ _ _ h16
  obtain ⟨h14, r15⟩ := peel (s := S1x256) (x := m ((c.tc : Thread Cert.KernelIdeal.nD Cert.KernelIdeal.τ).loc Cert.KernelIdeal.main_arg15)) _ _ _ _ h15
  obtain ⟨h13, r14⟩ := peel (s := S1) (x := m ((c.tc : Thread Cert.KernelIdeal.nD Cert.KernelIdeal.τ).loc Cert.KernelIdeal.main_arg14)) _ _ _ _ h14
  obtain ⟨h12, r13⟩ := peel (s := S1x256) (x := m ((c.tc : Thread Cert.KernelIdeal.nD Cert.KernelIdeal.τ).loc Cert.KernelIdeal.main_arg13)) _ _ _ _ h13
  obtain ⟨h11, r12⟩ := peel (s := S768) (x := m ((c.tc : Thread Cert.KernelIdeal.nD Cert.KernelIdeal.τ).loc Cert.KernelIdeal.main_arg12)) _ _ _ _ h12
  obtain ⟨h10, r11⟩ := peel (s := S768) (x := m ((c.tc : Thread Cert.KernelIdeal.nD Cert.KernelIdeal.τ).loc Cert.KernelIdeal.main_arg11)) _ _ _ _ h11
  obtain ⟨h9, r10⟩ := peel (s := S768x256) (x := m ((c.tc : Thread Cert.KernelIdeal.nD Cert.KernelIdeal.τ).loc Cert.KernelIdeal.main_arg10)) _ _ _ _ h10
  obtain ⟨h8, r9⟩ := peel (s := S768x128) (x := m ((c.tc : Thread Cert.KernelIdeal.nD Cert.KernelIdeal.τ).loc Cert.KernelIdeal.main_arg9)) _ _ _ _ h9
  obtain ⟨h7, r8⟩ := peel (s := S768) (x := m ((c.tc : Thread Cert.KernelIdeal.nD Cert.KernelIdeal.τ).loc Cert.KernelIdeal.main_arg8)) _ _ _ _ h8
  obtain ⟨h6, r7⟩ := peel (s := S768) (x := m ((c.tc : Thread Cert.KernelIdeal.nD Cert.KernelIdeal.τ).loc Cert.KernelIdeal.main_arg7)) _ _ _ _ h7
  obtain ⟨h5, r6⟩ := peel (s := S768x256) (x := m ((c.tc : Thread Cert.KernelIdeal.nD Cert.KernelIdeal.τ).loc Cert.KernelIdeal.main_arg6)) _ _ _ _ h6
  obtain ⟨h4, r5⟩ := peel (s := S768x128) (x := m ((c.tc : Thread Cert.KernelIdeal.nD Cert.KernelIdeal.τ).loc Cert.KernelIdeal.main_arg5)) _ _ _ _ h5
  obtain ⟨h3, r4⟩ := peel (s := S100000x128) (x := m ((c.tc : Thread Cert.KernelIdeal.nD Cert.KernelIdeal.τ).loc Cert.KernelIdeal.main_arg4)) _ _ _ _ h4
  obtain ⟨h2, r3⟩ := peel (s := S100000x128) (x := m ((c.tc : Thread Cert.KernelIdeal.nD Cert.KernelIdeal.τ).loc Cert.KernelIdeal.main_arg3)) _ _ _ _ h3
  obtain ⟨h1, r2⟩ := peel (s := S100000x128) (x := m ((c.tc : Thread Cert.KernelIdeal.nD Cert.KernelIdeal.τ).loc Cert.KernelIdeal.main_arg2)) _ _ _ _ h2
  obtain ⟨h0, r1⟩ := peel (s := S100000x128) (x := m ((c.tc : Thread Cert.KernelIdeal.nD Cert.KernelIdeal.τ).loc Cert.KernelIdeal.main_arg1)) _ _ _ _ h1
  have r0 := all_real (s := S100000x128) (x := m ((c.tc : Thread Cert.KernelIdeal.nD Cert.KernelIdeal.τ).loc Cert.KernelIdeal.main_arg0)) _ _ _ h0
  exact ⟨r0, r1, r2, r3, r4, r5, r6, r7, r8, r9, r10, r11, r12, r13, r14, r15, r16, r17, r18, r19, r20⟩

/-- Every entry of argument array 0 is a real number. -/
theorem real0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (reals m h c).1

/-- Every entry of argument array 1 is a real number. -/
theorem real1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (reals m h c).2.1

/-- Every entry of argument array 2 is a real number. -/
theorem real2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (reals m h c).2.2.1

/-- Every entry of argument array 3 is a real number. -/
theorem real3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (reals m h c).2.2.2.1

/-- Every entry of argument array 4 is a real number. -/
theorem real4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (reals m h c).2.2.2.2.1

/-- Every entry of argument array 5 is a real number. -/
theorem real5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (reals m h c).2.2.2.2.2.1

/-- Every entry of argument array 6 is a real number. -/
theorem real6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (reals m h c).2.2.2.2.2.2.1

/-- Every entry of argument array 7 is a real number. -/
theorem real7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg7) i = (r : EReal) :=
  (reals m h c).2.2.2.2.2.2.2.1

/-- Every entry of argument array 8 is a real number. -/
theorem real8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg8) i = (r : EReal) :=
  (reals m h c).2.2.2.2.2.2.2.2.1

/-- Every entry of argument array 9 is a real number. -/
theorem real9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg9) i = (r : EReal) :=
  (reals m h c).2.2.2.2.2.2.2.2.2.1

/-- Every entry of argument array 10 is a real number. -/
theorem real10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg10) i = (r : EReal) :=
  (reals m h c).2.2.2.2.2.2.2.2.2.2.1

/-- Every entry of argument array 11 is a real number. -/
theorem real11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg11) i = (r : EReal) :=
  (reals m h c).2.2.2.2.2.2.2.2.2.2.2.1

/-- Every entry of argument array 12 is a real number. -/
theorem real12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg12) i = (r : EReal) :=
  (reals m h c).2.2.2.2.2.2.2.2.2.2.2.2.1

/-- Every entry of argument array 13 is a real number. -/
theorem real13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg13) i = (r : EReal) :=
  (reals m h c).2.2.2.2.2.2.2.2.2.2.2.2.2.1

/-- Every entry of argument array 14 is a real number. -/
theorem real14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg14) i = (r : EReal) :=
  (reals m h c).2.2.2.2.2.2.2.2.2.2.2.2.2.2.1

/-- Every entry of argument array 15 is a real number. -/
theorem real15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg15) i = (r : EReal) :=
  (reals m h c).2.2.2.2.2.2.2.2.2.2.2.2.2.2.2.1

/-- Every entry of argument array 16 is a real number. -/
theorem real16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg16) i = (r : EReal) :=
  (reals m h c).2.2.2.2.2.2.2.2.2.2.2.2.2.2.2.2.1

/-- Every entry of argument array 17 is a real number. -/
theorem real17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg17) i = (r : EReal) :=
  (reals m h c).2.2.2.2.2.2.2.2.2.2.2.2.2.2.2.2.2.1

/-- Every entry of argument array 18 is a real number. -/
theorem real18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg18) i = (r : EReal) :=
  (reals m h c).2.2.2.2.2.2.2.2.2.2.2.2.2.2.2.2.2.2.1

/-- Every entry of argument array 19 is a real number. -/
theorem real19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg19) i = (r : EReal) :=
  (reals m h c).2.2.2.2.2.2.2.2.2.2.2.2.2.2.2.2.2.2.2.1

/-- Every entry of argument array 20 is a real number. -/
theorem real20 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg20) i = (r : EReal) :=
  (reals m h c).2.2.2.2.2.2.2.2.2.2.2.2.2.2.2.2.2.2.2.2

end Cert.GruPair.Finite

end
-- ==== Proof.RealOfPre.lean ====
/-
  The arguments that enter the two cells are arrays of real numbers: the precondition says every entry of every
  argument array has absolute value below +infinity, and the arguments by coordinates are entries of those arrays.
-/
import proofs.«133639_g47399259079245_cont_8to1c4_90_11_alg».proof.Proof.KernelSide
import proofs.«133639_g47399259079245_cont_8to1c4_90_11_alg».proof.Proof.Finite

noncomputable section

namespace Cert.GruPair.Ker

open Idealize.ShloMosaic Idealize.ShloMosaic.TcCoe Idealize.SL.Sem Idealize.ShloMosaic.ValueIdx

/-- Under the precondition, every entry that enters a cell on device c is a real number. -/
theorem realArgs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : RealArgs (argsK m c) where
  xa := fun a k => Finite.real0 m h c (ix2 a k)
  xf := fun a k => Finite.real1 m h c (ix2 a k)
  ph := fun a k => Finite.real2 m h c (ix2 a k)
  sh := fun a k => Finite.real3 m h c (ix2 a k)
  enc := fun a k => Finite.real4 m h c (ix2 a k)
  dWi := fun a k => Finite.real5 m h c (ix2 a k)
  dWh := fun a k => Finite.real6 m h c (ix2 a k)
  dbi := fun a => Finite.real7 m h c (ix1 a)
  dbh := fun a => Finite.real8 m h c (ix1 a)
  wWi := fun a k => Finite.real9 m h c (ix2 a k)
  wWh := fun a k => Finite.real10 m h c (ix2 a k)
  wbi := fun a => Finite.real11 m h c (ix1 a)
  wbh := fun a => Finite.real12 m h c (ix1 a)

end Cert.GruPair.Ker

end
-- ==== Proof.lean ====
/-
  The claim: a kernel and its reference compute the same two arrays on finite inputs.

  Both programs take, for each of 100000 rows, two gated recurrent cells (one on the parent's label and state, one on
  the sibling's, each state joined with the row's encoding) and two linear heads over the two new states: a 128-entry
  sum of both states against fixed weights, passed through tanh, and a pair of logistic probabilities. The reference
  writes each gate as logistic(gi + gh) over separate products; the kernel takes one product of the joined row with
  weights scaled by 1/2 and uses logistic(v) = tanh(v/2)/2 + 1/2. On real numbers the two agree, because halving
  moves across finite sums of real numbers; this is where the precondition (every input entry is finite) is used.

  Assembly: the three frame claims are the generated runs; the idealization rewrote nothing, so its statement is True;
  for the algebraic claim both result arrays are named by one specification of the argument arrays, the kernel's run
  ends at it (fifty blocks of 2000 rows), and the reference's composed term is shown equal to it index by index.
-/
import proofs.«133639_g47399259079245_cont_8to1c4_90_11_alg».proof.Defs
import proofs.«133639_g47399259079245_cont_8to1c4_90_11_alg».proof.Proof.Gen.Kernel
import proofs.«133639_g47399259079245_cont_8to1c4_90_11_alg».proof.Proof.Gen.Kernel.Skeleton
import proofs.«133639_g47399259079245_cont_8to1c4_90_11_alg».proof.Proof.Gen.Kernel.Launch
import proofs.«133639_g47399259079245_cont_8to1c4_90_11_alg».proof.Proof.Gen.Kernel.Points
import proofs.«133639_g47399259079245_cont_8to1c4_90_11_alg».proof.Proof.Gen.Kernel.Frame
import proofs.«133639_g47399259079245_cont_8to1c4_90_11_alg».proof.Proof.Gen.KernelIdeal
import proofs.«133639_g47399259079245_cont_8to1c4_90_11_alg».proof.Proof.Gen.KernelIdeal.Skeleton
import proofs.«133639_g47399259079245_cont_8to1c4_90_11_alg».proof.Proof.Gen.KernelIdeal.Launch
import proofs.«133639_g47399259079245_cont_8to1c4_90_11_alg».proof.Proof.Gen.KernelIdeal.Points
import proofs.«133639_g47399259079245_cont_8to1c4_90_11_alg».proof.Proof.Gen.KernelIdeal.Frame
import proofs.«133639_g47399259079245_cont_8to1c4_90_11_alg».proof.Proof.Gen.ReferenceIdeal
import proofs.«133639_g47399259079245_cont_8to1c4_90_11_alg».proof.Proof.Gen.Pre_finite_inputs
import proofs.«133639_g47399259079245_cont_8to1c4_90_11_alg».proof.Proof.Gen.KernelIdeal.Value
import proofs.«133639_g47399259079245_cont_8to1c4_90_11_alg».proof.Proof.Gen.ReferenceIdeal.Run
import proofs.«133639_g47399259079245_cont_8to1c4_90_11_alg».proof.Proof.Gen.ReferenceIdeal.Read
import proofs.«133639_g47399259079245_cont_8to1c4_90_11_alg».proof.Proof.RefSide
import proofs.«133639_g47399259079245_cont_8to1c4_90_11_alg».proof.Proof.KernelSide
import proofs.«133639_g47399259079245_cont_8to1c4_90_11_alg».proof.Proof.RealOfPre
import Idealize.ShloMosaic.Adequacy
import Idealize.ShloMosaic.Init

noncomputable section

namespace Cert.Proof

open Idealize.ShloMosaic Idealize.SL.Sem Cert.GruPair

/-- The kernel runs and leaves its arguments unchanged, at the bit-exact reading. -/
theorem frame_Kernel : Cert.frame_Kernel := fun m ρ _ => Cert.Kernel.Gen.frame m ρ

/-- The kernel runs and leaves its arguments unchanged, at the extended reals. -/
theorem frame_KernelIdeal : Cert.frame_KernelIdeal := fun m ρ _ => Cert.KernelIdeal.Gen.frame m ρ

/-- The reference runs and leaves its arguments unchanged: its run with the two results dropped. -/
theorem frame_ReferenceIdeal : Cert.frame_ReferenceIdeal := fun m ρ _ =>
  (θ_run Cert.ReferenceIdeal.defs _ _).mono (fun _ h c => (h c).2.2) (Cert.ReferenceIdeal.Value.run (F := Ideal) m ρ)

/-- No operation was rewritten between the two readings of the kernel. -/
theorem preserves : Cert.preserves_Kernel_KernelIdeal := trivial

/-- On finite inputs both programs end with the two arrays of the specification of the argument arrays. -/
theorem algebraic : Cert.algebraic_KernelIdeal_ReferenceIdeal := by
  intro m ρ m' ρ' hpre hagree
  refine ⟨fun c => GH (Ker.argsK m c), fun c => GP (Ker.argsK m c),
    Ker.run m ρ (fun c => Ker.realArgs m hpre c), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20⟩ := hagree c
    rw [Cert.ReferenceIdeal.Read.val_main_v111_eq m' c, e0, e1, e2, e3, e4, e5, e6, e7, e8, e9, e10, e11, e12, e17, e18, e19, e20]
    exact Ref.ref_H (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
  · obtain ⟨e0, e1, e2, e3, e4, e5, e6, e7, e8, e9, e10, e11, e12, e13, e14, e15, e16, e17, e18, e19, e20⟩ := hagree c
    rw [Cert.ReferenceIdeal.Read.val_main_v112_eq m' c, e0, e1, e2, e3, e4, e5, e6, e7, e8, e9, e10, e11, e12, e13, e14, e15, e16]
    exact Ref.ref_P (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
